-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S4x512x512 : Shape := ⟨3, ![4, 512, 512]⟩
abbrev S4x512 : Shape := ⟨2, ![4, 512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S20000x512 .f32) (main_arg1 : IVec S2x160000 32) (main_arg2 : FVec F S4x512x512 .f32) (main_arg3 : FVec F S4x512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S4x512x512 .f32 := Host.absf main_arg2
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg3
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  main_v13
-- ==== Kernel.lean ====
abbrev S20000x512 : Shape := ⟨2, ![20000, 512]⟩
abbrev S2x160000 : Shape := ⟨2, ![2, 160000]⟩
abbrev S4x512x512 : Shape := ⟨3, ![4, 512, 512]⟩
abbrev S4x512 : Shape := ⟨2, ![4, 512]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S1x512x512 : Shape := ⟨3, ![1, 512, 512]⟩
abbrev S512x512 : Shape := ⟨2, ![512, 512]⟩
abbrev S2000x512 : Shape := ⟨2, ![2000, 512]⟩
abbrev S180000x512 : Shape := ⟨2, ![180000, 512]⟩
abbrev S1x512 : Shape := ⟨2, ![1, 512]⟩
abbrev S512 : Shape := ⟨1, ![512]⟩

abbrev nBuf : Space → Nat
  | .hbm => 133
  | .vmem => 40
  | .smem => 0
  | _ => 0

abbrev hbmTy0_0 (i : Nat) : BufTy := match i % 128 with
  | 0 => ⟨S20000x512, .f32⟩
  | 1 => ⟨S2x160000, .i32⟩
  | 2 => ⟨S4x512x512, .f32⟩
  | 3 => ⟨S4x512, .f32⟩
  | 4 => ⟨S20000, .i32⟩
  | 5 => ⟨S1x160000, .i32⟩
  | 6 => ⟨S160000, .i32⟩
  | 7 => ⟨S180000, .i32⟩
  | 8 => ⟨S1x160000, .i32⟩
  | 9 => ⟨S160000, .i32⟩
  | 10 => ⟨S180000, .i32⟩
  | 11 => ⟨S_, .f32⟩
  | 12 => ⟨S180000, .f32⟩
  | 13 => ⟨S_, .f32⟩
  | 14 => ⟨S20000, .f32⟩
  | 15 => ⟨S180000x1, .i32⟩
  | 16 => ⟨S20000, .f32⟩
  | 17 => ⟨S_, .f32⟩
  | 18 => ⟨S20000, .f32⟩
  | 19 => ⟨S20000, .i1⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S180000, .i32⟩
  | 27 => ⟨S180000, .i1⟩
  | 28 => ⟨S_, .i32⟩
  | 29 => ⟨S180000, .i32⟩
  | 30 => ⟨S180000, .i32⟩
  | 31 => ⟨S180000, .i32⟩
  | 32 => ⟨S180000x1, .i32⟩
  | 33 => ⟨S180000, .f32⟩
  | 34 => ⟨S_, .i32⟩
  | 35 => ⟨S180000, .i32⟩
  | 36 => ⟨S180000, .i1⟩
  | 37 => ⟨S_, .i32⟩
  | 38 => ⟨S180000, .i32⟩
  | 39 => ⟨S180000, .i32⟩
  | 40 => ⟨S180000, .i32⟩
  | 41 => ⟨S180000x1, .i32⟩
  | 42 => ⟨S180000, .f32⟩
  | 43 => ⟨S180000, .f32⟩
  | 44 => ⟨S180000x1, .f32⟩
  | 45 => ⟨S1x512x512, .f32⟩
  | 46 => ⟨S512x512, .f32⟩
  | 47 => ⟨S20000x512, .f32⟩
  | 48 => ⟨S_, .i32⟩
  | 49 => ⟨S180000, .i32⟩
  | 50 => ⟨S180000, .i1⟩
  | 51 => ⟨S_, .i32⟩
  | 52 => ⟨S180000, .i32⟩
  | 53 => ⟨S180000, .i32⟩
  | 54 => ⟨S180000, .i32⟩
  | 55 => ⟨S180000x1, .i32⟩
  | 56 => ⟨S180000x512, .f32⟩
  | 57 => ⟨S180000x512, .f32⟩
  | 58 => ⟨S180000x512, .f32⟩
  | 59 => ⟨S_, .f32⟩
  | 60 => ⟨S20000x512, .f32⟩
  | 61 => ⟨S180000x1, .i32⟩
  | 62 => ⟨S20000x512, .f32⟩
  | 63 => ⟨S1x512, .f32⟩
  | 64 => ⟨S512, .f32⟩
  | 65 => ⟨S1x512, .f32⟩
  | 66 => ⟨S20000x512, .f32⟩
  | 67 => ⟨S1x512x512, .f32⟩
  | 68 => ⟨S512x512, .f32⟩
  | 69 => ⟨S20000x512, .f32⟩
  | 70 => ⟨S_, .i32⟩
  | 71 => ⟨S180000, .i32⟩
  | 72 => ⟨S180000, .i1⟩
  | 73 => ⟨S_, .i32⟩
  | 74 => ⟨S180000, .i32⟩
  | 75 => ⟨S180000, .i32⟩
  | 76 => ⟨S180000, .i32⟩
  | 77 => ⟨S180000x1, .i32⟩
  | 78 => ⟨S180000x512, .f32⟩
  | 79 => ⟨S180000x512, .f32⟩
  | 80 => ⟨S180000x512, .f32⟩
  | 81 => ⟨S_, .f32⟩
  | 82 => ⟨S20000x512, .f32⟩
  | 83 => ⟨S180000x1, .i32⟩
  | 84 => ⟨S20000x512, .f32⟩
  | 85 => ⟨S1x512, .f32⟩
  | 86 => ⟨S512, .f32⟩
  | 87 => ⟨S1x512, .f32⟩
  | 88 => ⟨S20000x512, .f32⟩
  | 89 => ⟨S1x512x512, .f32⟩
  | 90 => ⟨S512x512, .f32⟩
  | 91 => ⟨S20000x512, .f32⟩
  | 92 => ⟨S_, .i32⟩
  | 93 => ⟨S180000, .i32⟩
  | 94 => ⟨S180000, .i1⟩
  | 95 => ⟨S_, .i32⟩
  | 96 => ⟨S180000, .i32⟩
  | 97 => ⟨S180000, .i32⟩
  | 98 => ⟨S180000, .i32⟩
  | 99 => ⟨S180000x1, .i32⟩
  | 100 => ⟨S180000x512, .f32⟩
  | 101 => ⟨S180000x512, .f32⟩
  | 102 => ⟨S180000x512, .f32⟩
  | 103 => ⟨S_, .f32⟩
  | 104 => ⟨S20000x512, .f32⟩
  | 105 => ⟨S180000x1, .i32⟩
  | 106 => ⟨S20000x512, .f32⟩
  | 107 => ⟨S1x512, .f32⟩
  | 108 => ⟨S512, .f32⟩
  | 109 => ⟨S1x512, .f32⟩
  | 110 => ⟨S20000x512, .f32⟩
  | 111 => ⟨S1x512x512, .f32⟩
  | 112 => ⟨S512x512, .f32⟩
  | 113 => ⟨S20000x512, .f32⟩
  | 114 => ⟨S_, .i32⟩
  | 115 => ⟨S180000, .i32⟩
  | 116 => ⟨S180000, .i1⟩
  | 117 => ⟨S_, .i32⟩
  | 118 => ⟨S180000, .i32⟩
  | 119 => ⟨S180000, .i32⟩
  | 120 => ⟨S180000, .i32⟩
  | 121 => ⟨S180000x1, .i32⟩
  | 122 => ⟨S180000x512, .f32⟩
  | 123 => ⟨S180000x512, .f32⟩
  | 124 => ⟨S180000x512, .f32⟩
  | 125 => ⟨S_, .f32⟩
  | 126 => ⟨S20000x512, .f32⟩
  | 127 => ⟨S180000x1, .i32⟩
  | _ => ⟨S20000x512, .f32⟩

abbrev hbmTy0_1 (i : Nat) : BufTy := match i % 128 with
  | 0 => ⟨S20000x512, .f32⟩
  | 1 => ⟨S1x512, .f32⟩
  | 2 => ⟨S512, .f32⟩
  | 3 => ⟨S1x512, .f32⟩
  | 4 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S2000x512, .f32⟩
  | .local _ .vmem, ⟨27, _⟩ => ⟨S1x512, .f32⟩
  | .local _ .vmem, ⟨28, _⟩ => ⟨S2000x512, .f32⟩
  | .local _ .vmem, ⟨29, _⟩ => ⟨S2000x512, .f32⟩
  | .local _ .vmem, ⟨30, _⟩ => ⟨S2000x512, .f32⟩
  | .local _ .vmem, ⟨31, _⟩ => ⟨S2000x512, .f32⟩
  | .local _ .vmem, ⟨32, _⟩ => ⟨S512x512, .f32⟩
  | .local _ .vmem, ⟨33, _⟩ => ⟨S2000x512, .f32⟩
  | .local _ .vmem, ⟨34, _⟩ => ⟨S2000x512, .f32⟩
  | .local _ .vmem, ⟨35, _⟩ => ⟨S2000x512, .f32⟩
  | .local _ .vmem, ⟨36, _⟩ => ⟨S2000x512, .f32⟩
  | .local _ .vmem, ⟨37, _⟩ => ⟨S1x512, .f32⟩
  | .local _ .vmem, ⟨38, _⟩ => ⟨S2000x512, .f32⟩
  | .local _ .vmem, ⟨39, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_c_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_15 : Ref sig .tc := ⟨.hbm, 114, rfl⟩
abbrev main_v91 : Ref sig .tc := ⟨.hbm, 115, rfl⟩
abbrev main_v92 : Ref sig .tc := ⟨.hbm, 116, rfl⟩
abbrev main_c_16 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_17 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  slices_S4x512x512_S1x512x512_0_0_0 : S4x512x512.Slices ![0, 0, 0] S1x512x512
  shapeCasts_S1x512x512_S512x512 : S1x512x512.ShapeCasts S512x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  slices_S4x512_S1x512_0_0 : S4x512.Slices ![0, 0] S1x512
  shapeCasts_S1x512_S512 : S1x512.ShapeCasts S512
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  dot_S2000x512_S512x512_S2000x512_1_0_0_1_n_n_wf : DotDims.WF S2000x512 S512x512 S2000x512 [1] [0] [0] [1] [] []
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .f32 = 32 ∨ (Rect.block (s := S20000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S20000x512.size a
  hwx2_2 : ∀ i : grid2.Coords, EltTy.bits .f32 = 32 ∨ (Rect.block (s := S20000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S20000x512.size a
  hwx3_0 : ∀ i : grid3.Coords, EltTy.bits .f32 = 32 ∨ (Rect.block (s := S20000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S20000x512.size a
  hwx3_2 : ∀ i : grid3.Coords, EltTy.bits .f32 = 32 ∨ (Rect.block (s := S20000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S20000x512.size a
  hwx4_0 : ∀ i : grid4.Coords, EltTy.bits .f32 = 32 ∨ (Rect.block (s := S20000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S20000x512.size a
  hwx4_2 : ∀ i : grid4.Coords, EltTy.bits .f32 = 32 ∨ (Rect.block (s := S20000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S20000x512.size a
  hwx5_0 : ∀ i : grid5.Coords, EltTy.bits .f32 = 32 ∨ (Rect.block (s := S20000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x512.size a ≤ S20000x512.size a
  hwx5_2 : ∀ i : grid5.Coords, EltTy.bits .f32 = 32 ∨ (Rect.block (s := S20000x512) S2000x512.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S20000x512.size a
  hwx6_0 : ∀ i : grid6.Coords, EltTy.bits .f32 = 32 ∨ (Rect.block (s := S20000x512) S2000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .f32 = 32 ∨ (Rect.block (s := S512x512) S512x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x512.size a ≤ S20000x512.size a
  hwx6_2 : ∀ i : grid6.Coords, EltTy.bits .f32 = 32 ∨ (Rect.block (s := S20000x512) S2000x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S20000x512.size a
  hwx7_0 : ∀ i : grid7.Coords, EltTy.bits .f32 = 32 ∨ (Rect.block (s := S20000x512) S2000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x512.size a ≤ S1x512.size a
  hwx7_1 : ∀ i : grid7.Coords, EltTy.bits .f32 = 32 ∨ (Rect.block (s := S1x512) S1x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x512.size a ≤ S20000x512.size a
  hwx7_2 : ∀ i : grid7.Coords, EltTy.bits .f32 = 32 ∨ (Rect.block (s := S20000x512) S2000x512.size (cc7_transform_2 i) (hinb7_2 i)).WholeWords (EltTy.packing .f32)

variable [Facts₀]

def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S2000x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S2000x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v102) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S2000x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S4x512x512 : Shape := ⟨3, ![4, 512, 512]⟩
abbrev S4x512 : Shape := ⟨2, ![4, 512]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S1x512x512 : Shape := ⟨3, ![1, 512, 512]⟩
abbrev S512x512 : Shape := ⟨2, ![512, 512]⟩
abbrev S180000x512 : Shape := ⟨2, ![180000, 512]⟩
abbrev S1x512 : Shape := ⟨2, ![1, 512]⟩
abbrev S512 : Shape := ⟨1, ![512]⟩

abbrev nBuf : Space → Nat
  | .hbm => 169
  | .vmem => 0
  | .smem => 0
  | _ => 0

abbrev hbmTy0_0 (i : Nat) : BufTy := match i % 128 with
  | 0 => ⟨S20000x512, .f32⟩
  | 1 => ⟨S2x160000, .i32⟩
  | 2 => ⟨S4x512x512, .f32⟩
  | 3 => ⟨S4x512, .f32⟩
  | 4 => ⟨S20000, .i32⟩
  | 5 => ⟨S1x160000, .i32⟩
  | 6 => ⟨S160000, .i32⟩
  | 7 => ⟨S180000, .i32⟩
  | 8 => ⟨S1x160000, .i32⟩
  | 9 => ⟨S160000, .i32⟩
  | 10 => ⟨S180000, .i32⟩
  | 11 => ⟨S_, .f32⟩
  | 12 => ⟨S180000, .f32⟩
  | 13 => ⟨S_, .f32⟩
  | 14 => ⟨S20000, .f32⟩
  | 15 => ⟨S180000x1, .i32⟩
  | 16 => ⟨S20000, .f32⟩
  | 17 => ⟨S_, .f32⟩
  | 18 => ⟨S20000, .f32⟩
  | 19 => ⟨S20000, .i1⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S180000, .i32⟩
  | 27 => ⟨S180000, .i1⟩
  | 28 => ⟨S_, .i32⟩
  | 29 => ⟨S180000, .i32⟩
  | 30 => ⟨S180000, .i32⟩
  | 31 => ⟨S180000, .i32⟩
  | 32 => ⟨S180000x1, .i32⟩
  | 33 => ⟨S180000, .f32⟩
  | 34 => ⟨S_, .i32⟩
  | 35 => ⟨S180000, .i32⟩
  | 36 => ⟨S180000, .i1⟩
  | 37 => ⟨S_, .i32⟩
  | 38 => ⟨S180000, .i32⟩
  | 39 => ⟨S180000, .i32⟩
  | 40 => ⟨S180000, .i32⟩
  | 41 => ⟨S180000x1, .i32⟩
  | 42 => ⟨S180000, .f32⟩
  | 43 => ⟨S180000, .f32⟩
  | 44 => ⟨S180000x1, .f32⟩
  | 45 => ⟨S1x512x512, .f32⟩
  | 46 => ⟨S512x512, .f32⟩
  | 47 => ⟨S20000x512, .f32⟩
  | 48 => ⟨S_, .i32⟩
  | 49 => ⟨S180000, .i32⟩
  | 50 => ⟨S180000, .i1⟩
  | 51 => ⟨S_, .i32⟩
  | 52 => ⟨S180000, .i32⟩
  | 53 => ⟨S180000, .i32⟩
  | 54 => ⟨S180000, .i32⟩
  | 55 => ⟨S180000x1, .i32⟩
  | 56 => ⟨S180000x512, .f32⟩
  | 57 => ⟨S180000x512, .f32⟩
  | 58 => ⟨S180000x512, .f32⟩
  | 59 => ⟨S_, .f32⟩
  | 60 => ⟨S20000x512, .f32⟩
  | 61 => ⟨S180000x1, .i32⟩
  | 62 => ⟨S20000x512, .f32⟩
  | 63 => ⟨S1x512, .f32⟩
  | 64 => ⟨S512, .f32⟩
  | 65 => ⟨S1x512, .f32⟩
  | 66 => ⟨S20000x512, .f32⟩
  | 67 => ⟨S20000x512, .f32⟩
  | 68 => ⟨S_, .f32⟩
  | 69 => ⟨S_, .f32⟩
  | 70 => ⟨S20000x512, .f32⟩
  | 71 => ⟨S20000x512, .i1⟩
  | 72 => ⟨S_, .f32⟩
  | 73 => ⟨S20000x512, .f32⟩
  | 74 => ⟨S20000x512, .f32⟩
  | 75 => ⟨S20000x512, .f32⟩
  | 76 => ⟨S1x512x512, .f32⟩
  | 77 => ⟨S512x512, .f32⟩
  | 78 => ⟨S20000x512, .f32⟩
  | 79 => ⟨S_, .i32⟩
  | 80 => ⟨S180000, .i32⟩
  | 81 => ⟨S180000, .i1⟩
  | 82 => ⟨S_, .i32⟩
  | 83 => ⟨S180000, .i32⟩
  | 84 => ⟨S180000, .i32⟩
  | 85 => ⟨S180000, .i32⟩
  | 86 => ⟨S180000x1, .i32⟩
  | 87 => ⟨S180000x512, .f32⟩
  | 88 => ⟨S180000x512, .f32⟩
  | 89 => ⟨S180000x512, .f32⟩
  | 90 => ⟨S_, .f32⟩
  | 91 => ⟨S20000x512, .f32⟩
  | 92 => ⟨S180000x1, .i32⟩
  | 93 => ⟨S20000x512, .f32⟩
  | 94 => ⟨S1x512, .f32⟩
  | 95 => ⟨S512, .f32⟩
  | 96 => ⟨S1x512, .f32⟩
  | 97 => ⟨S20000x512, .f32⟩
  | 98 => ⟨S20000x512, .f32⟩
  | 99 => ⟨S_, .f32⟩
  | 100 => ⟨S_, .f32⟩
  | 101 => ⟨S20000x512, .f32⟩
  | 102 => ⟨S20000x512, .i1⟩
  | 103 => ⟨S_, .f32⟩
  | 104 => ⟨S20000x512, .f32⟩
  | 105 => ⟨S20000x512, .f32⟩
  | 106 => ⟨S20000x512, .f32⟩
  | 107 => ⟨S1x512x512, .f32⟩
  | 108 => ⟨S512x512, .f32⟩
  | 109 => ⟨S20000x512, .f32⟩
  | 110 => ⟨S_, .i32⟩
  | 111 => ⟨S180000, .i32⟩
  | 112 => ⟨S180000, .i1⟩
  | 113 => ⟨S_, .i32⟩
  | 114 => ⟨S180000, .i32⟩
  | 115 => ⟨S180000, .i32⟩
  | 116 => ⟨S180000, .i32⟩
  | 117 => ⟨S180000x1, .i32⟩
  | 118 => ⟨S180000x512, .f32⟩
  | 119 => ⟨S180000x512, .f32⟩
  | 120 => ⟨S180000x512, .f32⟩
  | 121 => ⟨S_, .f32⟩
  | 122 => ⟨S20000x512, .f32⟩
  | 123 => ⟨S180000x1, .i32⟩
  | 124 => ⟨S20000x512, .f32⟩
  | 125 => ⟨S1x512, .f32⟩
  | 126 => ⟨S512, .f32⟩
  | 127 => ⟨S1x512, .f32⟩
  | _ => ⟨S20000x512, .f32⟩

abbrev hbmTy0_1 (i : Nat) : BufTy := match i % 128 with
  | 0 => ⟨S20000x512, .f32⟩
  | 1 => ⟨S20000x512, .f32⟩
  | 2 => ⟨S_, .f32⟩
  | 3 => ⟨S_, .f32⟩
  | 4 => ⟨S20000x512, .f32⟩
  | 5 => ⟨S20000x512, .i1⟩
  | 6 => ⟨S_, .f32⟩
  | 7 => ⟨S20000x512, .f32⟩
  | 8 => ⟨S20000x512, .f32⟩
  | 9 => ⟨S20000x512, .f32⟩
  | 10 => ⟨S1x512x512, .f32⟩
  | 11 => ⟨S512x512, .f32⟩
  | 12 => ⟨S20000x512, .f32⟩
  | 13 => ⟨S_, .i32⟩
  | 14 => ⟨S180000, .i32⟩
  | 15 => ⟨S180000, .i1⟩
  | 16 => ⟨S_, .i32⟩
  | 17 => ⟨S180000, .i32⟩
  | 18 => ⟨S180000, .i32⟩
  | 19 => ⟨S180000, .i32⟩
  | 20 => ⟨S180000x1, .i32⟩
  | 21 => ⟨S180000x512, .f32⟩
  | 22 => ⟨S180000x512, .f32⟩
  | 23 => ⟨S180000x512, .f32⟩
  | 24 => ⟨S_, .f32⟩
  | 25 => ⟨S20000x512, .f32⟩
  | 26 => ⟨S180000x1, .i32⟩
  | 27 => ⟨S20000x512, .f32⟩
  | 28 => ⟨S1x512, .f32⟩
  | 29 => ⟨S512, .f32⟩
  | 30 => ⟨S1x512, .f32⟩
  | 31 => ⟨S20000x512, .f32⟩
  | 32 => ⟨S20000x512, .f32⟩
  | 33 => ⟨S_, .f32⟩
  | 34 => ⟨S_, .f32⟩
  | 35 => ⟨S20000x512, .f32⟩
  | 36 => ⟨S20000x512, .i1⟩
  | 37 => ⟨S_, .f32⟩
  | 38 => ⟨S20000x512, .f32⟩
  | 39 => ⟨S20000x512, .f32⟩
  | 40 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_17 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_18 : Ref sig .tc := ⟨.hbm, 141, rfl⟩
abbrev main_v97 : Ref sig .tc := ⟨.hbm, 142, rfl⟩
abbrev main_v98 : Ref sig .tc := ⟨.hbm, 143, rfl⟩
abbrev main_c_19 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_20 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_21 : Ref sig .tc := ⟨.hbm, 161, rfl⟩
abbrev main_call4_cst : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v114 : Ref sig .tc := ⟨.hbm, 168, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  slices_S4x512x512_S1x512x512_0_0_0 : S4x512x512.Slices ![0, 0, 0] S1x512x512
  shapeCasts_S1x512x512_S512x512 : S1x512x512.ShapeCasts S512x512
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  dot_S20000x512_S512x512_S20000x512_1_0_0_1_n_n_wf : DotDims.WF S20000x512 S512x512 S20000x512 [1] [0] [0] [1] [] []
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1

variable [Facts₀]

def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf

class Facts : Prop extends Facts₀ where

variable [Facts]
-- ==== Proof.HostSpec.lean ====
import proofs.«177265_j7464653160644_1_alg».proof.ReferenceIdeal
import Idealize.ShloMosaic.PureOps.Ideal

/-! The reference's value, piece by piece, at the ideal instance.

The reference is a four-layer graph convolution over 20000 nodes and 160000 edges, each node given a
self loop. Every function below is a composition of the reference program's own operation terms, so
that the program's run reads off as `refOut` of its four arguments:

* `rowOf`, `colOf`: the two rows of the edge table, each followed by the node numbers `0 … 19999`;
* `normOf`: the symmetric normalisation, per edge the product of the inverse square roots of the two
  endpoints' degrees (a degree counted as the number of edges arriving at the node; a zero degree's
  factor is zero), as a column;
* `aggOf`: one propagation step, the rows of `h` gathered at the edges' sources, scaled by the
  normalisation and added up at the edges' targets;
* `wslK`, `bslK`: layer `K`'s weight matrix and bias row;
* `refDense`, `refAct`, `refLayer`: the matrix product, the bias and leaky rectifier, one layer;
* `refOut`: the four layers in turn. -/

noncomputable section

namespace Cert.GcnSpec

open Cert.ReferenceIdeal Idealize.ShloMosaic
open Cert.ReferenceIdeal.Facts₀

variable [Cert.ReferenceIdeal.Facts]

/-- The contents of a buffer of shape `s` and element type `φ`, floats read as extended reals. -/
abbrev T (s : Shape) (φ : EltTy) : Type := (⟨s, φ⟩ : BufTy).Contents (Elt Ideal)

/-- Row `0` of the edge table as a vector, then the node numbers: the edges' sources with the self
    loops' appended. -/
def rowOf (e : T S2x160000 .i32) : T S180000 .i32 :=
  concatenate S180000 0
    [⟨S160000, (shapeCast S160000 (extractStridedSlice S1x160000 ![0, 0] e slices_S2x160000_S1x160000_0_0 : T S1x160000 .i32)
        shapeCasts_S1x160000_S160000 : T S160000 .i32)⟩,
     ⟨S20000, (iotaInDim S20000 32 0 : T S20000 .i32)⟩]
    concatenates_S160000_S20000_S180000_d0

/-- Row `1` of the edge table as a vector, then the node numbers: the edges' targets with the self
    loops' appended. -/
def colOf (e : T S2x160000 .i32) : T S180000 .i32 :=
  concatenate S180000 0
    [⟨S160000, (shapeCast S160000 (extractStridedSlice S1x160000 ![1, 0] e slices_S2x160000_S1x160000_1_0 : T S1x160000 .i32)
        shapeCasts_S1x160000_S160000 : T S160000 .i32)⟩,
     ⟨S20000, (iotaInDim S20000 32 0 : T S20000 .i32)⟩]
    concatenates_S160000_S20000_S180000_d0

/-- An index vector made ready for a gather: a negative entry has 20000 added, and the vector becomes
    a column of one-entry index rows. -/
def wrapIdx (r : T S180000 .i32) : T S180000x1 .i32 :=
  broadcastInDim S180000x1 ![0] bcast_S180000_S180000x1_0
    (select (cmpi .slt r (broadcastInDim S180000 ![] bcast_S_S180000 (constantI S_ 32 0#32) : T S180000 .i32))
      (addi r (broadcastInDim S180000 ![] bcast_S_S180000 (constantI S_ 32 20000#32) : T S180000 .i32)) r : T S180000 .i32)

/-- A node's degree: one added per edge (self loops included) whose target it is, from zero. -/
def degOf (col : T S180000 .i32) : T S20000 .f32 :=
  Host.scatterAdd (F := Ideal) (φ := .f32) scatter_S20000_S180000x1_S180000_n_0_0_1
    (broadcastInDim S20000 ![] bcast_S_S20000 (constant (F := Ideal) S_ .f32 0x00000000#32) : T S20000 .f32)
    (broadcastInDim S180000x1 ![0] bcast_S180000_S180000x1_0 col : T S180000x1 .i32)
    (broadcastInDim S180000 ![] bcast_S_S180000 (constant (F := Ideal) S_ .f32 0x3F800000#32) : T S180000 .f32)

/-- A node's factor: the inverse square root of its degree where the degree is positive, else zero. -/
def disOf (col : T S180000 .i32) : T S20000 .f32 :=
  select
    (cmpf (F := Ideal) (φ := .f32) .ogt (degOf col)
      (broadcastInDim S20000 ![] bcast_S_S20000 (constant (F := Ideal) S_ .f32 0x00000000#32) : T S20000 .f32))
    (Host.rsqrt (F := Ideal) (φ := .f32) (degOf col))
    (broadcastInDim S20000 ![] bcast_S_S20000 (constant (F := Ideal) S_ .f32 0x00000000#32) : T S20000 .f32)

/-- The normalisation, per edge: the source's factor times the target's, as a column. -/
def normOf (row col : T S180000 .i32) : T S180000x1 .f32 :=
  broadcastInDim S180000x1 ![0] bcast_S180000_S180000x1_0
    (mulf (F := Ideal) (φ := .f32)
      (Host.gather gather_S20000_S180000x1_S180000_n_0_n_n_0_1_1 (disOf col) (wrapIdx row) : T S180000 .f32)
      (Host.gather gather_S20000_S180000x1_S180000_n_0_n_n_0_1_1 (disOf col) (wrapIdx col) : T S180000 .f32) : T S180000 .f32)

/-- One propagation step: `h`'s rows at the edges' sources, each scaled by its edge's normalisation,
    added up at the edges' targets from zero. -/
def aggOf (h : T S20000x512 .f32) (row col : T S180000 .i32) (norm : T S180000x1 .f32) : T S20000x512 .f32 :=
  Host.scatterAdd (F := Ideal) (φ := .f32) scatter_S20000x512_S180000x1_S180000x512_1_0_0_1
    (broadcastInDim S20000x512 ![] bcast_S_S20000x512 (constant (F := Ideal) S_ .f32 0x00000000#32) : T S20000x512 .f32)
    (broadcastInDim S180000x1 ![0] bcast_S180000_S180000x1_0 col : T S180000x1 .i32)
    (mulf (F := Ideal) (φ := .f32)
      (Host.gather gather_S20000x512_S180000x1_S180000x512_1_0_n_n_0_1_1512 h (wrapIdx row) : T S180000x512 .f32)
      (broadcastInDim S180000x512 ![0, 1] bcast_S180000x1_S180000x512_0_1 norm : T S180000x512 .f32) : T S180000x512 .f32)

/-- Layer 0's weight matrix. -/
def wsl0 (w : T S4x512x512 .f32) : T S512x512 .f32 :=
  shapeCast S512x512 (extractStridedSlice S1x512x512 ![0, 0, 0] w slices_S4x512x512_S1x512x512_0_0_0 : T S1x512x512 .f32)
    shapeCasts_S1x512x512_S512x512
/-- Layer 1's weight matrix. -/
def wsl1 (w : T S4x512x512 .f32) : T S512x512 .f32 :=
  shapeCast S512x512 (extractStridedSlice S1x512x512 ![1, 0, 0] w slices_S4x512x512_S1x512x512_1_0_0 : T S1x512x512 .f32)
    shapeCasts_S1x512x512_S512x512
/-- Layer 2's weight matrix. -/
def wsl2 (w : T S4x512x512 .f32) : T S512x512 .f32 :=
  shapeCast S512x512 (extractStridedSlice S1x512x512 ![2, 0, 0] w slices_S4x512x512_S1x512x512_2_0_0 : T S1x512x512 .f32)
    shapeCasts_S1x512x512_S512x512
/-- Layer 3's weight matrix. -/
def wsl3 (w : T S4x512x512 .f32) : T S512x512 .f32 :=
  shapeCast S512x512 (extractStridedSlice S1x512x512 ![3, 0, 0] w slices_S4x512x512_S1x512x512_3_0_0 : T S1x512x512 .f32)
    shapeCasts_S1x512x512_S512x512

/-- Layer 0's bias row. -/
def bsl0 (b : T S4x512 .f32) : T S512 .f32 :=
  shapeCast S512 (extractStridedSlice S1x512 ![0, 0] b slices_S4x512_S1x512_0_0 : T S1x512 .f32) shapeCasts_S1x512_S512
/-- Layer 1's bias row. -/
def bsl1 (b : T S4x512 .f32) : T S512 .f32 :=
  shapeCast S512 (extractStridedSlice S1x512 ![1, 0] b slices_S4x512_S1x512_1_0 : T S1x512 .f32) shapeCasts_S1x512_S512
/-- Layer 2's bias row. -/
def bsl2 (b : T S4x512 .f32) : T S512 .f32 :=
  shapeCast S512 (extractStridedSlice S1x512 ![2, 0] b slices_S4x512_S1x512_2_0 : T S1x512 .f32) shapeCasts_S1x512_S512
/-- Layer 3's bias row. -/
def bsl3 (b : T S4x512 .f32) : T S512 .f32 :=
  shapeCast S512 (extractStridedSlice S1x512 ![3, 0] b slices_S4x512_S1x512_3_0 : T S1x512 .f32) shapeCasts_S1x512_S512

/-- The layer's matrix product, contracting `x`'s columns with `w`'s rows. -/
def refDense (x : T S20000x512 .f32) (w : T S512x512 .f32) : T S20000x512 .f32 :=
  Host.dotGeneral (F := Ideal) (φ₁ := .f32) (φ₂ := .f32) dot_S20000x512_S512x512_S20000x512_1_0_0_1_n_n none x w

/-- The leaky rectifier with slope `0x3C23D70A` (the float nearest 0.01): an entry at least zero is
    kept, any other is multiplied by the slope. -/
def leaky (z : T S20000x512 .f32) : T S20000x512 .f32 :=
  select
    (cmpf (F := Ideal) (φ := .f32) .oge z
      (broadcastInDim S20000x512 ![] bcast_S_S20000x512 (constant (F := Ideal) S_ .f32 0x00000000#32) : T S20000x512 .f32))
    z
    (mulf (F := Ideal) (φ := .f32)
      (broadcastInDim S20000x512 ![] bcast_S_S20000x512 (constant (F := Ideal) S_ .f32 0x3C23D70A#32) : T S20000x512 .f32) z)

/-- The bias row added to every row of `a`, then the leaky rectifier. -/
def refAct (a : T S20000x512 .f32) (bv : T S512 .f32) : T S20000x512 .f32 :=
  leaky (addf (F := Ideal) (φ := .f32) a
    (broadcastInDim S20000x512 ![0, 1] bcast_S1x512_S20000x512_0_1
      (broadcastInDim S1x512 ![1] bcast_S512_S1x512_1 bv : T S1x512 .f32) : T S20000x512 .f32))

/-- One layer: the matrix product, the propagation step, the bias and rectifier. -/
def refLayer (x : T S20000x512 .f32) (w : T S512x512 .f32) (bv : T S512 .f32) (row col : T S180000 .i32)
    (norm : T S180000x1 .f32) : T S20000x512 .f32 :=
  refAct (aggOf (refDense x w) row col norm) bv

/-- The reference's result: four layers over the same edges and normalisation, each with its own
    weight matrix and bias row. -/
def refOut (x : T S20000x512 .f32) (e : T S2x160000 .i32) (w : T S4x512x512 .f32) (b : T S4x512 .f32) : T S20000x512 .f32 :=
  refLayer (refLayer (refLayer (refLayer x (wsl0 w) (bsl0 b) (rowOf e) (colOf e) (normOf (rowOf e) (colOf e))) (wsl1 w) (bsl1 b) (rowOf e) (colOf e) (normOf (rowOf e) (colOf e))) (wsl2 w) (bsl2 b) (rowOf e) (colOf e) (normOf (rowOf e) (colOf e))) (wsl3 w) (bsl3 b) (rowOf e) (colOf e) (normOf (rowOf e) (colOf e))

end Cert.GcnSpec

end
-- ==== Proof.Live.lean ====
/-
  What stays put while the kernel program runs. The two edge lists (sources and targets, self loops appended), the
  per-edge normalisation and the stacked weights and biases are written once, before the first region, and no later host
  operation or region writes them: at every later boundary between segments of @main the five buffers hold the same
  functions of the arguments. One statement per boundary, each from the one before it: a region leaves every buffer
  other than its three arrays as it found it, and a host stretch leaves every buffer none of its operations writes.
-/
import proofs.«177265_j7464653160644_1_alg».proof.Proof.Gen.KernelIdeal.Frame
import proofs.«177265_j7464653160644_1_alg».proof.Proof.Gen.ReferenceIdeal
import proofs.«177265_j7464653160644_1_alg».proof.Proof.HostSpec
import Idealize.ShloMosaic.Lib.StableHlo.Run

noncomputable section

namespace Cert.KernelIdeal.Chain

open Cert.KernelIdeal Cert.KernelIdeal.Gen Cert.GcnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- The five buffers every layer reads, at their functions of the edge table `e`, the weights `a2` and the biases `a3`. -/
structure Live (W : Valuation τ sig (Elt Ideal)) (e : T S2x160000 .i32) (a2 : T S4x512x512 .f32) (a3 : T S4x512 .f32) : Prop where
  row : W (Proc.devRef .tc main_v3) = rowOf e
  col : W (Proc.devRef .tc main_v6) = colOf e
  norm : W (Proc.devRef .tc main_v30) = normOf (rowOf e) (colOf e)
  w : W (Proc.devRef .tc main_arg2) = a2
  b : W (Proc.devRef .tc main_arg3) = a3

/-- At the first region's entry: the host operations before it compute the edge lists and the normalisation from the edge
    table and write neither the weights nor the biases. -/
theorem live3 (c : Dev nD) : Live (W3 m ρ c) (m ((c.tc : Thread nD τ).loc main_arg1)) (m ((c.tc : Thread nD τ).loc main_arg2))
    (m ((c.tc : Thread nD τ).loc main_arg3)) := by
  refine ⟨?_, ?_, ?_, ?_, ?_⟩ <;>
  · show StableHlo.after (hostOps0_2 (F := Ideal)) (StableHlo.after (hostOps0_1 (F := Ideal)) (StableHlo.after (hostOps0 (F := Ideal)) (W0 m ρ c))) _ = _
    generalize hW : W0 m ρ c = W
    after_results_simp
    subst hW
    try simp only [cast_eq, id]
    try rfl

/-- Region 0 writes only its result array. -/
theorem live4 (c : Dev nD) {e : T S2x160000 .i32} {a2 : T S4x512x512 .f32} {a3 : T S4x512 .f32}
    (h : Live (W3 m ρ c) e a2 a3) : Live (W4 m ρ c) e a2 a3 :=
  ⟨(W4_of_ne m ρ c main_v3 (by decide)).trans h.row,
   (W4_of_ne m ρ c main_v6 (by decide)).trans h.col,
   (W4_of_ne m ρ c main_v30 (by decide)).trans h.norm,
   (W4_of_ne m ρ c main_arg2 (by decide)).trans h.w,
   (W4_of_ne m ρ c main_arg3 (by decide)).trans h.b⟩

/-- No operation of the host stretch before region 1 writes one of the five. -/
theorem live5 (c : Dev nD) {e : T S2x160000 .i32} {a2 : T S4x512x512 .f32} {a3 : T S4x512 .f32}
    (h : Live (W4 m ρ c) e a2 a3) : Live (W5 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps1 (W4 m ρ c) _ = _
    generalize W4 m ρ c = W
    after_results_simp

/-- Region 1 writes only its result array. -/
theorem live6 (c : Dev nD) {e : T S2x160000 .i32} {a2 : T S4x512x512 .f32} {a3 : T S4x512 .f32}
    (h : Live (W5 m ρ c) e a2 a3) : Live (W6 m ρ c) e a2 a3 :=
  ⟨(W6_of_ne m ρ c main_v3 (by decide)).trans h.row,
   (W6_of_ne m ρ c main_v6 (by decide)).trans h.col,
   (W6_of_ne m ρ c main_v30 (by decide)).trans h.norm,
   (W6_of_ne m ρ c main_arg2 (by decide)).trans h.w,
   (W6_of_ne m ρ c main_arg3 (by decide)).trans h.b⟩

/-- No operation of the host stretch before region 2 writes one of the five. -/
theorem live7 (c : Dev nD) {e : T S2x160000 .i32} {a2 : T S4x512x512 .f32} {a3 : T S4x512 .f32}
    (h : Live (W6 m ρ c) e a2 a3) : Live (W7 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps2 (W6 m ρ c) _ = _
    generalize W6 m ρ c = W
    after_results_simp

/-- Region 2 writes only its result array. -/
theorem live8 (c : Dev nD) {e : T S2x160000 .i32} {a2 : T S4x512x512 .f32} {a3 : T S4x512 .f32}
    (h : Live (W7 m ρ c) e a2 a3) : Live (W8 m ρ c) e a2 a3 :=
  ⟨(W8_of_ne m ρ c main_v3 (by decide)).trans h.row,
   (W8_of_ne m ρ c main_v6 (by decide)).trans h.col,
   (W8_of_ne m ρ c main_v30 (by decide)).trans h.norm,
   (W8_of_ne m ρ c main_arg2 (by decide)).trans h.w,
   (W8_of_ne m ρ c main_arg3 (by decide)).trans h.b⟩

/-- No operation of the host stretch before region 3 writes one of the five. -/
theorem live9 (c : Dev nD) {e : T S2x160000 .i32} {a2 : T S4x512x512 .f32} {a3 : T S4x512 .f32}
    (h : Live (W8 m ρ c) e a2 a3) : Live (W9 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps3 (W8 m ρ c) _ = _
    generalize W8 m ρ c = W
    after_results_simp

/-- Region 3 writes only its result array. -/
theorem live10 (c : Dev nD) {e : T S2x160000 .i32} {a2 : T S4x512x512 .f32} {a3 : T S4x512 .f32}
    (h : Live (W9 m ρ c) e a2 a3) : Live (W10 m ρ c) e a2 a3 :=
  ⟨(W10_of_ne m ρ c main_v3 (by decide)).trans h.row,
   (W10_of_ne m ρ c main_v6 (by decide)).trans h.col,
   (W10_of_ne m ρ c main_v30 (by decide)).trans h.norm,
   (W10_of_ne m ρ c main_arg2 (by decide)).trans h.w,
   (W10_of_ne m ρ c main_arg3 (by decide)).trans h.b⟩

/-- No operation of the host stretch before region 4 writes one of the five. -/
theorem live11 (c : Dev nD) {e : T S2x160000 .i32} {a2 : T S4x512x512 .f32} {a3 : T S4x512 .f32}
    (h : Live (W10 m ρ c) e a2 a3) : Live (W11 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps4 (W10 m ρ c) _ = _
    generalize W10 m ρ c = W
    after_results_simp

/-- Region 4 writes only its result array. -/
theorem live12 (c : Dev nD) {e : T S2x160000 .i32} {a2 : T S4x512x512 .f32} {a3 : T S4x512 .f32}
    (h : Live (W11 m ρ c) e a2 a3) : Live (W12 m ρ c) e a2 a3 :=
  ⟨(W12_of_ne m ρ c main_v3 (by decide)).trans h.row,
   (W12_of_ne m ρ c main_v6 (by decide)).trans h.col,
   (W12_of_ne m ρ c main_v30 (by decide)).trans h.norm,
   (W12_of_ne m ρ c main_arg2 (by decide)).trans h.w,
   (W12_of_ne m ρ c main_arg3 (by decide)).trans h.b⟩

/-- No operation of the host stretch before region 5 writes one of the five. -/
theorem live13 (c : Dev nD) {e : T S2x160000 .i32} {a2 : T S4x512x512 .f32} {a3 : T S4x512 .f32}
    (h : Live (W12 m ρ c) e a2 a3) : Live (W13 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps5 (W12 m ρ c) _ = _
    generalize W12 m ρ c = W
    after_results_simp

/-- Region 5 writes only its result array. -/
theorem live14 (c : Dev nD) {e : T S2x160000 .i32} {a2 : T S4x512x512 .f32} {a3 : T S4x512 .f32}
    (h : Live (W13 m ρ c) e a2 a3) : Live (W14 m ρ c) e a2 a3 :=
  ⟨(W14_of_ne m ρ c main_v3 (by decide)).trans h.row,
   (W14_of_ne m ρ c main_v6 (by decide)).trans h.col,
   (W14_of_ne m ρ c main_v30 (by decide)).trans h.norm,
   (W14_of_ne m ρ c main_arg2 (by decide)).trans h.w,
   (W14_of_ne m ρ c main_arg3 (by decide)).trans h.b⟩

/-- No operation of the host stretch before region 6 writes one of the five. -/
theorem live15 (c : Dev nD) {e : T S2x160000 .i32} {a2 : T S4x512x512 .f32} {a3 : T S4x512 .f32}
    (h : Live (W14 m ρ c) e a2 a3) : Live (W15 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps6 (W14 m ρ c) _ = _
    generalize W14 m ρ c = W
    after_results_simp

/-- Region 6 writes only its result array. -/
theorem live16 (c : Dev nD) {e : T S2x160000 .i32} {a2 : T S4x512x512 .f32} {a3 : T S4x512 .f32}
    (h : Live (W15 m ρ c) e a2 a3) : Live (W16 m ρ c) e a2 a3 :=
  ⟨(W16_of_ne m ρ c main_v3 (by decide)).trans h.row,
   (W16_of_ne m ρ c main_v6 (by decide)).trans h.col,
   (W16_of_ne m ρ c main_v30 (by decide)).trans h.norm,
   (W16_of_ne m ρ c main_arg2 (by decide)).trans h.w,
   (W16_of_ne m ρ c main_arg3 (by decide)).trans h.b⟩

/-- No operation of the host stretch before region 7 writes one of the five. -/
theorem live17 (c : Dev nD) {e : T S2x160000 .i32} {a2 : T S4x512x512 .f32} {a3 : T S4x512 .f32}
    (h : Live (W16 m ρ c) e a2 a3) : Live (W17 m ρ c) e a2 a3 := by
  obtain ⟨h1, h2, h3, h4, h5⟩ := h
  refine ⟨Eq.trans ?_ h1, Eq.trans ?_ h2, Eq.trans ?_ h3, Eq.trans ?_ h4, Eq.trans ?_ h5⟩ <;>
  · show StableHlo.after hostOps7 (W16 m ρ c) _ = _
    generalize W16 m ρ c = W
    after_results_simp

/-- Region 7 writes only its result array. -/
theorem live18 (c : Dev nD) {e : T S2x160000 .i32} {a2 : T S4x512x512 .f32} {a3 : T S4x512 .f32}
    (h : Live (W17 m ρ c) e a2 a3) : Live (W18 m ρ c) e a2 a3 :=
  ⟨(W18_of_ne m ρ c main_v3 (by decide)).trans h.row,
   (W18_of_ne m ρ c main_v6 (by decide)).trans h.col,
   (W18_of_ne m ρ c main_v30 (by decide)).trans h.norm,
   (W18_of_ne m ρ c main_arg2 (by decide)).trans h.w,
   (W18_of_ne m ρ c main_arg3 (by decide)).trans h.b⟩

end Cert.KernelIdeal.Chain

end
-- ==== Proof.MathSpec.lean ====
/-
  The two pieces of arithmetic a graph-convolution layer has beyond its gather and scatter, as functions of whole arrays
  on the extended reals, index by index:
    * the dense product of the [20000, 512] node features with a [512, 512] weight: entry (p, q) is the sum over k of
      x (p, k) * w (k, q);
    * the bias and the leaky rectifier: entry (p, q) is r (a (p, q) + b q) with r v = v when 0 < v and s * v otherwise,
      s the f32 nearest to 1/100 (kept as its bit pattern, never evaluated).
  The rectifier is written with the strict comparison; with the weak one it is the same function, because at v = 0 both
  branches are 0 (`lrelu_ge`).
-/
import Idealize.ShloMosaic.PureOps.Ideal.Laws
import Idealize.ShloMosaic.Lib.ValueIdx

noncomputable section

namespace Cert.GcnMath

open Idealize.ShloMosaic Idealize.ShloMosaic.ValueIdx

abbrev SN : Shape := ⟨2, ![20000, 512]⟩
abbrev SW : Shape := ⟨2, ![512, 512]⟩

/-- Entry (p, q) of the product of the features with a weight. -/
def mmAt (x : SN.Idx → EReal) (w : SW.Idx → EReal) (p : Fin 20000) (q : Fin 512) : EReal :=
  ∑ k : Fin 512, x (ix2 p k) * w (ix2 k q)

/-- The product as a whole array. -/
def mm (x : SN.Idx → EReal) (w : SW.Idx → EReal) : SN.Idx → EReal := fun j => mmAt x w (j 0) (j 1)

theorem mm_ix2 (x : SN.Idx → EReal) (w : SW.Idx → EReal) (p : Fin 20000) (q : Fin 512) :
    mm x w (ix2 p q) = mmAt x w p q := rfl

/-- The zero and the slope of the rectifier, as the values their f32 patterns denote. -/
abbrev zeroF : EReal := Ideal.ofBits .f32 0x00000000#32
abbrev slopeF : EReal := Ideal.ofBits .f32 0x3C23D70A#32

/-- The leaky rectifier with the strict comparison. -/
def lrelu (v : EReal) : EReal := Scalar.select (Ideal.cmp .ogt v zeroF) v (slopeF * v)

/-- With the weak comparison it is the same function: the two differ only at v = 0, where both branches are 0. -/
theorem lrelu_ge (v : EReal) : Scalar.select (Ideal.cmp .oge v zeroF) v (slopeF * v) = lrelu v := by
  unfold lrelu Ideal.cmp
  have hz : zeroF = 0 := Ideal.ofBits_zero_f32
  rw [hz]
  by_cases h : (0 : EReal) < v
  · have h' : (0 : EReal) ≤ v := le_of_lt h
    simp only [h, h', decide_true, BitVec.ofBool_true, select_one]
  · by_cases h0 : v = 0
    · subst h0
      simp [Scalar.select]
    · have h' : ¬ (0 : EReal) ≤ v := fun hle => h (lt_of_le_of_ne hle (Ne.symm h0))
      simp only [h, h', decide_false, BitVec.ofBool_false, select_zero]

/-- Entry (p, q) of the bias and rectifier. -/
def actAt (a : SN.Idx → EReal) (b : Fin 512 → EReal) (p : Fin 20000) (q : Fin 512) : EReal := lrelu (a (ix2 p q) + b q)

/-- The bias and rectifier as a whole array. -/
def act (a : SN.Idx → EReal) (b : Fin 512 → EReal) : SN.Idx → EReal := fun j => actAt a b (j 0) (j 1)

theorem act_ix2 (a : SN.Idx → EReal) (b : Fin 512 → EReal) (p : Fin 20000) (q : Fin 512) :
    act a b (ix2 p q) = actAt a b p q := rfl

end Cert.GcnMath

end
-- ==== Proof.LibDot2D.lean ====
/-
  The host's dot_general of two matrices, rows by columns — [M, K] against [K, N], the left operand's axis 1 contracted
  with the right operand's axis 0, no batch axis — read at an output entry on the extended reals: entry (m, n) is the
  sum over k of lhs (m, k) * rhs (k, n), whatever the precision attribute and the schedule key. The general form, for
  any dimension record with ONE contracted axis of extent K, takes the operand indices at contraction coordinate k as
  two families with the two equations that say so. The dimension record of the matrix form is the one built from the
  literal axis lists; its well-formedness proof is a parameter. Over any extents M, K, N.
-/
import Idealize.ShloMosaic.PureOps.Ideal.Laws
import Idealize.ShloMosaic.Lib.ValueIdx

namespace Cert.LibDot2D

open Idealize.ShloMosaic Idealize.ShloMosaic.ValueIdx

/-- A host dot_general with one contracted axis of extent `K`: at output index `j` it is
    `∑ k : Fin K, lhs (li k) * rhs (ri k)`, where `li k` / `ri k` are the operand indices the dimension record gives at
    `j` and contraction coordinate `k` (`hl`, `hr`). -/
theorem dotGeneral_sum {sl sr so : Shape} {φ₁ φ₂ : FTy} (D : DotDims sl sr so) (prec : Option ContractPrecision)
    (sched : HostSchedule) (K : Nat) (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.dotGeneral D prec sched lhs rhs j = ∑ k : Fin K, lhs (li k) * rhs (ri k) := by
  rw [Ideal.dotGeneral_apply, ← Equiv.sum_comp (contrEquiv1 D K hrank hsize).symm]
  exact Finset.sum_congr rfl fun k _ => by rw [hl k, hr k]

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (sched : HostSchedule)
    (lhs : FVec Ideal (⟨2, ![M, K]⟩ : Shape) φ₁) (rhs : FVec Ideal (⟨2, ![K, N]⟩ : Shape) φ₂)
    (m : Fin M) (n : Fin N) :
    FloatOps.dotGeneral (⟨[1], [0], [0], [1], [], [], wf⟩ : DotDims (⟨2, ![M, K]⟩ : Shape) (⟨2, ![K, N]⟩ : Shape) (⟨2, ![M, N]⟩ : Shape))
        prec sched lhs rhs (ix2 m n)
      = ∑ k : Fin K, lhs (ix2 m k) * rhs (ix2 k n) := by
  refine dotGeneral_sum _ prec sched K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

end Cert.LibDot2D
-- ==== Proof.Bridge.lean ====
/-
  One layer as the kernel program computes it against one layer as the reference computes it, on the extended reals.
  Both gather, scale and scatter the same way (one shared function of the dense product, the edge lists and the
  normalisation); they differ in two places, and agree there:
    * the dense product — the reference's host dot_general of the features with the weight is, entry by entry, the sum
      over the contracted columns, which is the whole-array product the kernel's row tiles add up to;
    * the bias and rectifier — the reference broadcasts the bias vector to a row and the row down the 20000 rows, adds,
      and keeps an entry that is at least zero (else multiplies it by the slope); the kernel's tiles keep an entry that
      is strictly above zero. At zero both give zero, so the two are one function.
  So a layer, and then the four layers in turn, are the same function of the arguments.
-/
import proofs.«177265_j7464653160644_1_alg».proof.Proof.HostSpec
import proofs.«177265_j7464653160644_1_alg».proof.Proof.MathSpec
import proofs.«177265_j7464653160644_1_alg».proof.Proof.LibDot2D
import Idealize.ShloMosaic.Lib.Pipeline.Value
import Idealize.ShloMosaic.Lib.ValueLayout

noncomputable section

namespace Cert.GcnSpec

open Cert.ReferenceIdeal Idealize.ShloMosaic Idealize.ShloMosaic.ValueIdx Cert.GcnMath
open Cert.ReferenceIdeal.Facts₀

variable [Cert.ReferenceIdeal.Facts]

/-- One layer with the dense product and the bias-and-rectifier as whole-array functions, the propagation step shared. -/
def kerLayer (x : T S20000x512 .f32) (w : T S512x512 .f32) (bv : T S512 .f32) (row col : T S180000 .i32)
    (norm : T S180000x1 .f32) : T S20000x512 .f32 :=
  act (aggOf (mm x w) row col norm) (fun q => bv (ix1 q))

/-- The four layers in turn, each with its own weight matrix and bias row. -/
def kerOut (x : T S20000x512 .f32) (e : T S2x160000 .i32) (w : T S4x512x512 .f32) (b : T S4x512 .f32) : T S20000x512 .f32 :=
  kerLayer (kerLayer (kerLayer (kerLayer x (wsl0 w) (bsl0 b) (rowOf e) (colOf e) (normOf (rowOf e) (colOf e))) (wsl1 w) (bsl1 b) (rowOf e) (colOf e) (normOf (rowOf e) (colOf e))) (wsl2 w) (bsl2 b) (rowOf e) (colOf e) (normOf (rowOf e) (colOf e))) (wsl3 w) (bsl3 b) (rowOf e) (colOf e) (normOf (rowOf e) (colOf e))

/-- The host's dot_general of the features with a weight is the whole-array product. -/
theorem refDense_eq (x : T S20000x512 .f32) (w : T S512x512 .f32) : refDense x w = mm x w := by
  funext j
  obtain ⟨p, q, rfl⟩ : ∃ (p : Fin 20000) (q : Fin 512), j = ix2 p q := ⟨j 0, j 1, eq_ix2 (n0 := 20000) (n1 := 512) j⟩
  rw [mm_ix2]
  unfold refDense mmAt
  exact Cert.LibDot2D.rows_cols dot_S20000x512_S512x512_S20000x512_1_0_0_1_n_n_wf none .single x w p q

/-- A scalar broadcast to any shape reads, at every index, the scalar. -/
theorem bcast_scalar_apply {α : Type} (s : Shape) (h : S_.BroadcastsInDim s (![] : Fin 0 → Fin s.rank)) (x : S_.Idx → α)
    (j : s.Idx) : broadcastInDim s ![] h x j = x ix0 :=
  broadcastInDim_apply _ h x j ix0 (fun a => a.elim0)

/-- The bias vector broadcast to a row and the row down the rows reads, at (p, q), the vector at q. -/
theorem bias_bcast_apply (bv : T S512 .f32) (p : Fin 20000) (q : Fin 512) :
    (broadcastInDim S20000x512 ![0, 1] bcast_S1x512_S20000x512_0_1
      (broadcastInDim S1x512 ![1] bcast_S512_S1x512_1 bv : T S1x512 .f32) : T S20000x512 .f32) (ix2 p q) = bv (ix1 q) := by
  rw [broadcastInDim_apply _ bcast_S1x512_S20000x512_0_1 _ (ix2 p q) (ix2 (0 : Fin 1) q) (fun a => by
        match a with
        | ⟨0, _⟩ => rfl
        | ⟨1, _⟩ => rfl),
    broadcastInDim_apply _ bcast_S512_S1x512_1 _ (ix2 (0 : Fin 1) q) (ix1 q) (fun a => by
        match a with
        | ⟨0, _⟩ => rfl)]

/-- The reference's bias and rectifier is the whole-array one with the strict comparison. -/
theorem refAct_eq (a : T S20000x512 .f32) (bv : T S512 .f32) : refAct a bv = act a (fun q => bv (ix1 q)) := by
  funext j
  obtain ⟨p, q, rfl⟩ : ∃ (p : Fin 20000) (q : Fin 512), j = ix2 p q := ⟨j 0, j 1, eq_ix2 (n0 := 20000) (n1 := 512) j⟩
  rw [act_ix2]
  unfold refAct leaky actAt
  simp only [select_apply, cmpf_apply, mulf_apply, addf_apply]
  rw [bias_bcast_apply bv p q, bcast_scalar_apply S20000x512 bcast_S_S20000x512 _ (ix2 p q),
    bcast_scalar_apply S20000x512 bcast_S_S20000x512 _ (ix2 p q)]
  exact lrelu_ge _

/-- A layer is the same function either way. -/
theorem kerLayer_eq (x : T S20000x512 .f32) (w : T S512x512 .f32) (bv : T S512 .f32) (row col : T S180000 .i32)
    (norm : T S180000x1 .f32) : kerLayer x w bv row col norm = refLayer x w bv row col norm := by
  unfold kerLayer refLayer
  rw [refDense_eq, refAct_eq]

/-- So are the four layers in turn. -/
theorem kerOut_eq (x : T S20000x512 .f32) (e : T S2x160000 .i32) (w : T S4x512x512 .f32) (b : T S4x512 .f32) :
    kerOut x e w b = refOut x e w b := by
  unfold kerOut refOut
  simp only [kerLayer_eq]

end Cert.GcnSpec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«177265_j7464653160644_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.Dense0.lean ====
/-
  Region 0 of the program is a dense layer's product, tiled by rows: the grid has ten points, point t reads rows
  2000 t … 2000 t + 1999 of the features and the whole weight, and writes the same rows of the result. Here: the
  block product at an entry is the sum over the 512 contracted columns; a features block entry (p, k) of point t is the
  array's entry (2000 t + p, k) and the weight block is the array; so what point t writes back is block t of the
  whole-array product, the ten blocks cover the result, and the result array ends holding the product.
-/
import proofs.«177265_j7464653160644_1_alg».proof.Proof.Gen.KernelIdeal.Frame
import proofs.«177265_j7464653160644_1_alg».proof.Proof.MathSpec
import proofs.«177265_j7464653160644_1_alg».proof.Proof.LibMatmul2D
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the contracted columns (a change of float format is the identity). -/
theorem pay_apply (x0 : Vec Ideal S2000x512 .f32) (x1 : Vec Ideal S512x512 .f32) (p : Fin 2000) (q : Fin 512) :
    k0_pay1 x0 x1 (ix2 p q) = ∑ k : Fin 512, x0 (ix2 p k) * x1 (ix2 k q) := by
  unfold k0_pay1
  simp only [shapeCast_self]
  exact Cert.LibMatmul2D.rows_cols Facts₀.dot_S2000x512_S512x512_S2000x512_1_0_0_1_n_n_wf none x0 x1 p q

/-- The index maps over the grid: the features' and the result's blocks move together down the rows, every other block
    index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- A features block at a local entry is the array at the block's rows. -/
theorem x_blk (c : Dev nD) (t : Fin cfg0.N) (p : Fin 2000) (k : Fin 512) (P : Fin 20000)
    (hP : P.val = win0_2.index t (0 : Fin 2) * 2000 + p.val) :
    iblk0 V c 0 t (ix2 p k) = V c main_arg0 (ix2 P k) := by
  obtain ⟨e0, e1, e2, e3, e4, e5⟩ := idx_facts t
  unfold iblk0
  rw [View.read_apply]
  show V c main_arg0 (((cfg0.win 0).blk t).view.emb (ix2 p k)) = V c main_arg0 (ix2 P k)
  refine congrArg (V c main_arg0) ?_
  funext a; apply Fin.ext
  match a with
  | ⟨0, _⟩ => show win0_0.index t (0 : Fin 2) * 2000 + 1 * p.val = P.val; omega
  | ⟨1, _⟩ => show win0_0.index t (1 : Fin 2) * 512 + 1 * k.val = k.val; omega

/-- The weight block is the weight array. -/
theorem w_blk (c : Dev nD) (t : Fin cfg0.N) (k : Fin 512) (q : Fin 512) :
    iblk0 V c 1 t (ix2 k q) = V c main_v32 (ix2 k q) := by
  obtain ⟨e0, e1, e2, e3, e4, e5⟩ := idx_facts t
  unfold iblk0
  rw [View.read_apply]
  show V c main_v32 (((cfg0.win 1).blk t).view.emb (ix2 k q)) = V c main_v32 (ix2 k q)
  refine congrArg (V c main_v32) ?_
  funext a; apply Fin.ext
  match a with
  | ⟨0, _⟩ => show win0_1.index t (0 : Fin 2) * 512 + 1 * k.val = k.val; omega
  | ⟨1, _⟩ => show win0_1.index t (1 : Fin 2) * 512 + 1 * q.val = q.val; omega

/-- What point t writes back is block t of the whole-array product. -/
theorem flushed_eq (c : Dev nD) (t : Fin cfg0.N) :
    (dat0 V c).flushed 2 t = ((cfg0.win 2).blk t).view.read (Elt Ideal) (mm (V c main_arg0) (V c main_v32)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k0_pay1 (iblk0 V c 0 t) (iblk0 V c 1 t) (ix2 p q)
    = mm (V c main_arg0) (V c main_v32) (((cfg0.win 2).blk t).view.emb (ix2 p q))
  have hP : win0_2.index t (0 : Fin 2) * 2000 + p.val < 20000 := by have := p.isLt; omega
  have hemb : ((cfg0.win 2).blk t).view.emb (ix2 p q)
      = ix2 (⟨win0_2.index t (0 : Fin 2) * 2000 + p.val, hP⟩ : Fin 20000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 512 + 1 * q.val = q.val; omega
  rw [hemb, mm_ix2, pay_apply]
  unfold mmAt
  refine Finset.sum_congr rfl fun k _ => ?_
  rw [x_blk V c t p k ⟨_, hP⟩ rfl, w_blk V c t k q]

/-- An index of the result is in point t's block iff its row is among the block's rows. -/
theorem mem_blk (t : Fin cfg0.N) (i : S20000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v33).slice (win0_2.rect t)).set ↔ _
  rw [View.set_slice_whole, Rect.mem_set_unit]
  exact Iff.rfl

/-- Row r of the result lies in the block of point r / 2000. -/
theorem cover (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 512 ≤ (i 1).val ∧ (i 1).val < win0_2.index t (1 : Fin 2) * 512 + 512
    omega

/-- After the region the result array holds the product of the features and the weight as the region found them. -/
theorem final (c : Dev nD) : (dat0 V c).arrAt 2 cfg0.N = mm (V c main_arg0) (V c main_v32) :=
  (dat0 V c).arrAt_eq_of_cover 2 _ (fun t _ => flushed_eq V c t) cover

end Cert.KernelIdeal.Dense0

end
-- ==== Proof.Act1.lean ====
/-
  Region 1 of the program adds a layer's bias row to the aggregated features and applies the leaky rectifier, tiled by
  rows: the grid has ten points, point t reads rows 2000 t … 2000 t + 1999 of the aggregate and the one bias row, and
  writes the same rows of the result. Here: the block's value at an entry (p, q) is the rectifier of the aggregate's
  entry plus the bias at q; an aggregate block entry (p, q) of point t is the array's entry (2000 t + p, q) and the bias
  block is the bias row; so what point t writes back is block t of the whole-array function, the ten blocks cover the
  result, and the result array ends holding that function.
-/
import proofs.«177265_j7464653160644_1_alg».proof.Proof.Gen.KernelIdeal.Frame
import proofs.«177265_j7464653160644_1_alg».proof.Proof.MathSpec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Act1

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's value at an entry: the rectifier of the aggregate's entry plus the bias row's entry in that column. -/
theorem pay_apply (x0 : Vec Ideal S2000x512 .f32) (x1 : Vec Ideal S1x512 .f32) (p : Fin 2000) (q : Fin 512) :
    k1_pay1 x0 x1 (ix2 p q) = lrelu (x0 (ix2 p q) + x1 (ix2 (0 : Fin 1) q)) := by
  unfold k1_pay1
  simp only [shapeCast_self, select_apply, cmpf_apply, mulf_apply, addf_apply, broadcast_apply,
    broadcastTo_1b_ab_apply x1 Facts₀.broadcasts_S1x512_S2000x512 p q]
  rfl

/-- The index maps over the grid: the aggregate's and the result's blocks move together down the rows, every other
    block index is 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block of the result is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- An aggregate block at a local entry is the array at the block's rows. -/
theorem x_blk (c : Dev nD) (t : Fin cfg1.N) (p : Fin 2000) (q : Fin 512) (P : Fin 20000)
    (hP : P.val = win1_2.index t (0 : Fin 2) * 2000 + p.val) :
    iblk1 V c 0 t (ix2 p q) = V c main_v45 (ix2 P q) := by
  obtain ⟨e0, e1, e2, e3, e4, e5⟩ := idx_facts t
  unfold iblk1
  rw [View.read_apply]
  show V c main_v45 (((cfg1.win 0).blk t).view.emb (ix2 p q)) = V c main_v45 (ix2 P q)
  refine congrArg (V c main_v45) ?_
  funext a; apply Fin.ext
  match a with
  | ⟨0, _⟩ => show win1_0.index t (0 : Fin 2) * 2000 + 1 * p.val = P.val; omega
  | ⟨1, _⟩ => show win1_0.index t (1 : Fin 2) * 512 + 1 * q.val = q.val; omega

/-- The bias block is the bias row. -/
theorem b_blk (c : Dev nD) (t : Fin cfg1.N) (q : Fin 512) :
    iblk1 V c 1 t (ix2 (0 : Fin 1) q) = V c main_v48 (ix2 (0 : Fin 1) q) := by
  obtain ⟨e0, e1, e2, e3, e4, e5⟩ := idx_facts t
  unfold iblk1
  rw [View.read_apply]
  show V c main_v48 (((cfg1.win 1).blk t).view.emb (ix2 (0 : Fin 1) q)) = V c main_v48 (ix2 (0 : Fin 1) q)
  refine congrArg (V c main_v48) ?_
  funext a; apply Fin.ext
  match a with
  | ⟨0, _⟩ => show win1_1.index t (0 : Fin 2) * 1 + 1 * 0 = 0; omega
  | ⟨1, _⟩ => show win1_1.index t (1 : Fin 2) * 512 + 1 * q.val = q.val; omega

/-- What point t writes back is block t of the whole-array bias-and-rectifier. -/
theorem flushed_eq (c : Dev nD) (t : Fin cfg1.N) :
    (dat1 V c).flushed 2 t
      = ((cfg1.win 2).blk t).view.read (Elt Ideal) (act (V c main_v45) (fun q => V c main_v48 (ix2 (0 : Fin 1) q))) := by
  show (cfg1.win 2).cut (grid1.coords t) ((dat1 V c).after 2 t) = _
  rw [after1_2]
  unfold out1_2
  rw [View.canon_unit_zero hz]
  simp only [View.ld_unit_zero (S := S2000x512) hz, View.ld_unit_zero (S := S1x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k1_pay1 (iblk1 V c 0 t) (iblk1 V c 1 t) (ix2 p q)
    = act (V c main_v45) (fun q => V c main_v48 (ix2 (0 : Fin 1) q)) (((cfg1.win 2).blk t).view.emb (ix2 p q))
  have hP : win1_2.index t (0 : Fin 2) * 2000 + p.val < 20000 := by have := p.isLt; omega
  have hemb : ((cfg1.win 2).blk t).view.emb (ix2 p q)
      = ix2 (⟨win1_2.index t (0 : Fin 2) * 2000 + p.val, hP⟩ : Fin 20000) q := by
    funext a; apply Fin.ext
    match a with
    | ⟨0, _⟩ => show win1_2.index t (0 : Fin 2) * 2000 + 1 * p.val = win1_2.index t (0 : Fin 2) * 2000 + p.val; omega
    | ⟨1, _⟩ => show win1_2.index t (1 : Fin 2) * 512 + 1 * q.val = q.val; omega
  rw [hemb, act_ix2, pay_apply]
  unfold actAt
  rw [x_blk V c t p q ⟨_, hP⟩ rfl, b_blk V c t q]

/-- An index of the result is in point t's block iff its row is among the block's rows. -/
theorem mem_blk (t : Fin cfg1.N) (i : S20000x512.Idx) :
    i ∈ ((cfg1.win 2).blk t).view.set ↔ ∀ a : Fin 2, win1_2.index t a * S2000x512.size a ≤ (i a).val
      ∧ (i a).val < win1_2.index t a * S2000x512.size a + S2000x512.size a := by
  show i ∈ ((View.whole main_v49).slice (win1_2.rect t)).set ↔ _
  rw [View.set_slice_whole, Rect.mem_set_unit]
  exact Iff.rfl

/-- Row r of the result lies in the block of point r / 2000. -/
theorem cover (i : S20000x512.Idx) :
    ∃ t : Fin cfg1.N, (cfg1.win 2).flush t = true ∧ i ∈ ((cfg1.win 2).blk t).view.set := by
  have hi0 : (i 0).val < 20000 := (i 0).isLt
  have hi1 : (i 1).val < 512 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 512 ≤ (i 1).val ∧ (i 1).val < win1_2.index t (1 : Fin 2) * 512 + 512
    omega

/-- After the region the result array holds the rectifier of the aggregate plus the bias row, as the region found them. -/
theorem final (c : Dev nD) :
    (dat1 V c).arrAt 2 cfg1.N = act (V c main_v45) (fun q => V c main_v48 (ix2 (0 : Fin 1) q)) :=
  (dat1 V c).arrAt_eq_of_cover 2 _ (fun t _ => flushed_eq V c t) cover

end Cert.KernelIdeal.Act1

end
-- ==== Proof.Layer0.lean ====
/-
  Layer 0 of the kernel program, read off the boundaries of its segments: the host stretch that slices the layer's
  weight out of the stack (for this first layer, the stretch that also prepares the edge lists and the normalisation),
  the region of the dense product, the host stretch that gathers the product's rows at the edges' sources, scales them,
  adds them up at the targets and cuts the layer's bias row, and the region of the bias and rectifier. The features the
  next layer reads are the layer function of the features this layer read.
-/
import proofs.«177265_j7464653160644_1_alg».proof.Proof.Live
import proofs.«177265_j7464653160644_1_alg».proof.Proof.Bridge
import proofs.«177265_j7464653160644_1_alg».proof.Proof.Dense0
import proofs.«177265_j7464653160644_1_alg».proof.Proof.Act1
import Idealize.ShloMosaic.Lib.ValueLayout

noncomputable section

namespace Cert.KernelIdeal.Chain

open Cert.KernelIdeal Cert.KernelIdeal.Gen Cert.GcnSpec Cert.GcnMath
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- After region 1 its result array holds layer 0 of the node features as launched. -/
theorem layer0 (c : Dev nD) :
    W6 m ρ c (Proc.devRef .tc main_v49)
      = kerLayer (m ((c.tc : Thread nD τ).loc main_arg0)) (wsl0 (m ((c.tc : Thread nD τ).loc main_arg2)))
          (bsl0 (m ((c.tc : Thread nD τ).loc main_arg3))) (rowOf (m ((c.tc : Thread nD τ).loc main_arg1)))
          (colOf (m ((c.tc : Thread nD τ).loc main_arg1)))
          (normOf (rowOf (m ((c.tc : Thread nD τ).loc main_arg1))) (colOf (m ((c.tc : Thread nD τ).loc main_arg1)))) := by
  have LE := live3 m ρ c
  have LD := live4 m ρ c LE
  generalize m ((c.tc : Thread nD τ).loc main_arg1) = e at LE LD ⊢
  generalize ha2 : m ((c.tc : Thread nD τ).loc main_arg2) = a2 at LE LD ⊢
  generalize ha3 : m ((c.tc : Thread nD τ).loc main_arg3) = a3 at LE LD ⊢
  -- the features are an argument, which no host operation before the region writes; the weight is sliced from the stack
  have hxE : W3 m ρ c (Proc.devRef .tc main_arg0) = m ((c.tc : Thread nD τ).loc main_arg0) := by
    show StableHlo.after (hostOps0_2 (F := Ideal)) (StableHlo.after (hostOps0_1 (F := Ideal)) (StableHlo.after (hostOps0 (F := Ideal)) (W0 m ρ c))) _ = _
    generalize hW : W0 m ρ c = W
    after_results_simp
    subst hW
    try simp only [cast_eq, id]
    try rfl
  generalize m ((c.tc : Thread nD τ).loc main_arg0) = x at hxE ⊢
  have hwE : W3 m ρ c (Proc.devRef .tc main_v32) = wsl0 a2 := by
    refine Eq.trans ?_ (congrArg wsl0 LE.w)
    show StableHlo.after (hostOps0_2 (F := Ideal)) (StableHlo.after (hostOps0_1 (F := Ideal)) (StableHlo.after (hostOps0 (F := Ideal)) (W0 m ρ c))) _ = _
    generalize hW : W0 m ρ c = W
    after_results_simp
    subst hW
    rfl
  -- the region of the dense product
  have hh : W4 m ρ c (Proc.devRef .tc main_v33) = mm x (wsl0 a2) := by
    refine ((W4_arr m ρ c 2).trans (Dense0.final (V3 m ρ) c)).trans ?_
    show mm (W3 m ρ c (Proc.devRef .tc main_arg0)) (W3 m ρ c (Proc.devRef .tc main_v32)) = _
    rw [hxE, hwE]
  -- the propagation step and the bias row, by the host stretch after it
  have hg : W5 m ρ c (Proc.devRef .tc main_v45) = aggOf (mm x (wsl0 a2)) (rowOf e) (colOf e) (normOf (rowOf e) (colOf e)) := by
    have hraw : W5 m ρ c (Proc.devRef .tc main_v45) = aggOf (W4 m ρ c (Proc.devRef .tc main_v33)) (W4 m ρ c (Proc.devRef .tc main_v3))
        (W4 m ρ c (Proc.devRef .tc main_v6)) (W4 m ρ c (Proc.devRef .tc main_v30)) := by
      show StableHlo.after hostOps1 (W4 m ρ c) _ = _
      generalize W4 m ρ c = W
      after_results_simp
      rfl
    rw [hraw, hh, LD.row, LD.col, LD.norm]
  have hb : W5 m ρ c (Proc.devRef .tc main_v48) = shapeCast S1x512 (bsl0 a3) Facts₀.shapeCasts_S512_S1x512 := by
    refine Eq.trans ?_ (congrArg (fun z => shapeCast S1x512 (bsl0 z) Facts₀.shapeCasts_S512_S1x512) LD.b)
    show StableHlo.after hostOps1 (W4 m ρ c) _ = _
    generalize W4 m ρ c = W
    after_results_simp
    rfl
  -- the region of the bias and rectifier; the bias row is the bias vector given a leading unit axis
  refine ((W6_arr m ρ c 2).trans (Act1.final (V5 m ρ) c)).trans ?_
  show act (W5 m ρ c (Proc.devRef .tc main_v45)) (fun q => W5 m ρ c (Proc.devRef .tc main_v48) (ix2 (0 : Fin 1) q)) = _
  rw [hg, hb]
  unfold kerLayer
  refine congrArg (act _) (funext fun q => ?_)
  exact shapeCast_a_1a_apply _ _ 0 q

end Cert.KernelIdeal.Chain

end
-- ==== Proof.Dense2.lean ====
/-
  Region 2 of the program is a dense layer's product, tiled by rows: the grid has ten points, point t reads rows
  2000 t … 2000 t + 1999 of the features and the whole weight, and writes the same rows of the result. Here: the
  block product at an entry is the sum over the 512 contracted columns; a features block entry (p, k) of point t is the
  array's entry (2000 t + p, k) and the weight block is the array; so what point t writes back is block t of the
  whole-array product, the ten blocks cover the result, and the result array ends holding the product.
-/
import proofs.«177265_j7464653160644_1_alg».proof.Proof.Gen.KernelIdeal.Frame
import proofs.«177265_j7464653160644_1_alg».proof.Proof.MathSpec
import proofs.«177265_j7464653160644_1_alg».proof.Proof.LibMatmul2D
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the contracted columns (a change of float format is the identity). -/
theorem pay_apply (x0 : Vec Ideal S2000x512 .f32) (x1 : Vec Ideal S512x512 .f32) (p : Fin 2000) (q : Fin 512) :
    k2_pay1 x0 x1 (ix2 p q) = ∑ k : Fin 512, x0 (ix2 p k) * x1 (ix2 k q) := by
  unfold k2_pay1
  simp only [shapeCast_self]
  exact Cert.LibMatmul2D.rows_cols Facts₀.dot_S2000x512_S512x512_S2000x512_1_0_0_1_n_n_wf none x0 x1 p q

/-- The index maps over the grid: the features' and the result's blocks move together down the rows, every other block
    index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- A features block at a local entry is the array at the block's rows. -/
theorem x_blk (c : Dev nD) (t : Fin cfg2.N) (p : Fin 2000) (k : Fin 512) (P : Fin 20000)
    (hP : P.val = win2_2.index t (0 : Fin 2) * 2000 + p.val) :
    iblk2 V c 0 t (ix2 p k) = V c main_v49 (ix2 P k) := by
  obtain ⟨e0, e1, e2, e3, e4, e5⟩ := idx_facts t
  unfold iblk2
  rw [View.read_apply]
  show V c main_v49 (((cfg2.win 0).blk t).view.emb (ix2 p k)) = V c main_v49 (ix2 P k)
  refine congrArg (V c main_v49) ?_
  funext a; apply Fin.ext
  match a with
  | ⟨0, _⟩ => show win2_0.index t (0 : Fin 2) * 2000 + 1 * p.val = P.val; omega
  | ⟨1, _⟩ => show win2_0.index t (1 : Fin 2) * 512 + 1 * k.val = k.val; omega

/-- The weight block is the weight array. -/
theorem w_blk (c : Dev nD) (t : Fin cfg2.N) (k : Fin 512) (q : Fin 512) :
    iblk2 V c 1 t (ix2 k q) = V c main_v51 (ix2 k q) := by
  obtain ⟨e0, e1, e2, e3, e4, e5⟩ := idx_facts t
  unfold iblk2
  rw [View.read_apply]
  show V c main_v51 (((cfg2.win 1).blk t).view.emb (ix2 k q)) = V c main_v51 (ix2 k q)
  refine congrArg (V c main_v51) ?_
  funext a; apply Fin.ext
  match a with
  | ⟨0, _⟩ => show win2_1.index t (0 : Fin 2) * 512 + 1 * k.val = k.val; omega
  | ⟨1, _⟩ => show win2_1.index t (1 : Fin 2) * 512 + 1 * q.val = q.val; omega

/-- What point t writes back is block t of the whole-array product. -/
theorem flushed_eq (c : Dev nD) (t : Fin cfg2.N) :
    (dat2 V c).flushed 2 t = ((cfg2.win 2).blk t).view.read (Elt Ideal) (mm (V c main_v49) (V c main_v51)) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k2_pay1 (iblk2 V c 0 t) (iblk2 V c 1 t) (ix2 p q)
    = mm (V c main_v49) (V c main_v51) (((cfg2.win 2).blk t).view.emb (ix2 p q))
  have hP : win2_2.index t (0 : Fin 2) * 2000 + p.val < 20000 := by have := p.isLt; omega
  have hemb : ((cfg2.win 2).blk t).view.emb (ix2 p q)
      = ix2 (⟨win2_2.index t (0 : Fin 2) * 2000 + p.val, hP⟩ : Fin 20000) q := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 512 + 1 * q.val = q.val; omega
  rw [hemb, mm_ix2, pay_apply]
  unfold mmAt
  refine Finset.sum_congr rfl fun k _ => ?_
  rw [x_blk V c t p k ⟨_, hP⟩ rfl, w_blk V c t k q]

/-- An index of the result is in point t's block iff its row is among the block's rows. -/
theorem mem_blk (t : Fin cfg2.N) (i : S20000x512.Idx) :
    i ∈ ((cfg2.win 2).blk t).view.set ↔ ∀ a : Fin 2, win2_2.index t a * S2000x512.size a ≤ (i a).val
      ∧ (i a).val < win2_2.index t a * S2000x512.size a + S2000x512.size a := by
  show i ∈ ((View.whole main_v52).slice (win2_2.rect t)).set ↔ _
  rw [View.set_slice_whole, Rect.mem_set_unit]
  exact Iff.rfl

/-- Row r of the result lies in the block of point r / 2000. -/
theorem cover (i : S20000x512.Idx) :
    ∃ t : Fin cfg2.N, (cfg2.win 2).flush t = true ∧ i ∈ ((cfg2.win 2).blk t).view.set := by
  have hi0 : (i 0).val < 20000 := (i 0).isLt
  have hi1 : (i 1).val < 512 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 512 ≤ (i 1).val ∧ (i 1).val < win2_2.index t (1 : Fin 2) * 512 + 512
    omega

/-- After the region the result array holds the product of the features and the weight as the region found them. -/
theorem final (c : Dev nD) : (dat2 V c).arrAt 2 cfg2.N = mm (V c main_v49) (V c main_v51) :=
  (dat2 V c).arrAt_eq_of_cover 2 _ (fun t _ => flushed_eq V c t) cover

end Cert.KernelIdeal.Dense2

end
-- ==== Proof.Act3.lean ====
/-
  Region 3 of the program adds a layer's bias row to the aggregated features and applies the leaky rectifier, tiled by
  rows: the grid has ten points, point t reads rows 2000 t … 2000 t + 1999 of the aggregate and the one bias row, and
  writes the same rows of the result. Here: the block's value at an entry (p, q) is the rectifier of the aggregate's
  entry plus the bias at q; an aggregate block entry (p, q) of point t is the array's entry (2000 t + p, q) and the bias
  block is the bias row; so what point t writes back is block t of the whole-array function, the ten blocks cover the
  result, and the result array ends holding that function.
-/
import proofs.«177265_j7464653160644_1_alg».proof.Proof.Gen.KernelIdeal.Frame
import proofs.«177265_j7464653160644_1_alg».proof.Proof.MathSpec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Act3

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's value at an entry: the rectifier of the aggregate's entry plus the bias row's entry in that column. -/
theorem pay_apply (x0 : Vec Ideal S2000x512 .f32) (x1 : Vec Ideal S1x512 .f32) (p : Fin 2000) (q : Fin 512) :
    k3_pay1 x0 x1 (ix2 p q) = lrelu (x0 (ix2 p q) + x1 (ix2 (0 : Fin 1) q)) := by
  unfold k3_pay1
  simp only [shapeCast_self, select_apply, cmpf_apply, mulf_apply, addf_apply, broadcast_apply,
    broadcastTo_1b_ab_apply x1 Facts₀.broadcasts_S1x512_S2000x512 p q]
  rfl

/-- The index maps over the grid: the aggregate's and the result's blocks move together down the rows, every other
    block index is 0. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block of the result is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- An aggregate block at a local entry is the array at the block's rows. -/
theorem x_blk (c : Dev nD) (t : Fin cfg3.N) (p : Fin 2000) (q : Fin 512) (P : Fin 20000)
    (hP : P.val = win3_2.index t (0 : Fin 2) * 2000 + p.val) :
    iblk3 V c 0 t (ix2 p q) = V c main_v64 (ix2 P q) := by
  obtain ⟨e0, e1, e2, e3, e4, e5⟩ := idx_facts t
  unfold iblk3
  rw [View.read_apply]
  show V c main_v64 (((cfg3.win 0).blk t).view.emb (ix2 p q)) = V c main_v64 (ix2 P q)
  refine congrArg (V c main_v64) ?_
  funext a; apply Fin.ext
  match a with
  | ⟨0, _⟩ => show win3_0.index t (0 : Fin 2) * 2000 + 1 * p.val = P.val; omega
  | ⟨1, _⟩ => show win3_0.index t (1 : Fin 2) * 512 + 1 * q.val = q.val; omega

/-- The bias block is the bias row. -/
theorem b_blk (c : Dev nD) (t : Fin cfg3.N) (q : Fin 512) :
    iblk3 V c 1 t (ix2 (0 : Fin 1) q) = V c main_v67 (ix2 (0 : Fin 1) q) := by
  obtain ⟨e0, e1, e2, e3, e4, e5⟩ := idx_facts t
  unfold iblk3
  rw [View.read_apply]
  show V c main_v67 (((cfg3.win 1).blk t).view.emb (ix2 (0 : Fin 1) q)) = V c main_v67 (ix2 (0 : Fin 1) q)
  refine congrArg (V c main_v67) ?_
  funext a; apply Fin.ext
  match a with
  | ⟨0, _⟩ => show win3_1.index t (0 : Fin 2) * 1 + 1 * 0 = 0; omega
  | ⟨1, _⟩ => show win3_1.index t (1 : Fin 2) * 512 + 1 * q.val = q.val; omega

/-- What point t writes back is block t of the whole-array bias-and-rectifier. -/
theorem flushed_eq (c : Dev nD) (t : Fin cfg3.N) :
    (dat3 V c).flushed 2 t
      = ((cfg3.win 2).blk t).view.read (Elt Ideal) (act (V c main_v64) (fun q => V c main_v67 (ix2 (0 : Fin 1) q))) := by
  show (cfg3.win 2).cut (grid3.coords t) ((dat3 V c).after 2 t) = _
  rw [after3_2]
  unfold out3_2
  rw [View.canon_unit_zero hz]
  simp only [View.ld_unit_zero (S := S2000x512) hz, View.ld_unit_zero (S := S1x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k3_pay1 (iblk3 V c 0 t) (iblk3 V c 1 t) (ix2 p q)
    = act (V c main_v64) (fun q => V c main_v67 (ix2 (0 : Fin 1) q)) (((cfg3.win 2).blk t).view.emb (ix2 p q))
  have hP : win3_2.index t (0 : Fin 2) * 2000 + p.val < 20000 := by have := p.isLt; omega
  have hemb : ((cfg3.win 2).blk t).view.emb (ix2 p q)
      = ix2 (⟨win3_2.index t (0 : Fin 2) * 2000 + p.val, hP⟩ : Fin 20000) q := by
    funext a; apply Fin.ext
    match a with
    | ⟨0, _⟩ => show win3_2.index t (0 : Fin 2) * 2000 + 1 * p.val = win3_2.index t (0 : Fin 2) * 2000 + p.val; omega
    | ⟨1, _⟩ => show win3_2.index t (1 : Fin 2) * 512 + 1 * q.val = q.val; omega
  rw [hemb, act_ix2, pay_apply]
  unfold actAt
  rw [x_blk V c t p q ⟨_, hP⟩ rfl, b_blk V c t q]

/-- An index of the result is in point t's block iff its row is among the block's rows. -/
theorem mem_blk (t : Fin cfg3.N) (i : S20000x512.Idx) :
    i ∈ ((cfg3.win 2).blk t).view.set ↔ ∀ a : Fin 2, win3_2.index t a * S2000x512.size a ≤ (i a).val
      ∧ (i a).val < win3_2.index t a * S2000x512.size a + S2000x512.size a := by
  show i ∈ ((View.whole main_v68).slice (win3_2.rect t)).set ↔ _
  rw [View.set_slice_whole, Rect.mem_set_unit]
  exact Iff.rfl

/-- Row r of the result lies in the block of point r / 2000. -/
theorem cover (i : S20000x512.Idx) :
    ∃ t : Fin cfg3.N, (cfg3.win 2).flush t = true ∧ i ∈ ((cfg3.win 2).blk t).view.set := by
  have hi0 : (i 0).val < 20000 := (i 0).isLt
  have hi1 : (i 1).val < 512 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 512 ≤ (i 1).val ∧ (i 1).val < win3_2.index t (1 : Fin 2) * 512 + 512
    omega

/-- After the region the result array holds the rectifier of the aggregate plus the bias row, as the region found them. -/
theorem final (c : Dev nD) :
    (dat3 V c).arrAt 2 cfg3.N = act (V c main_v64) (fun q => V c main_v67 (ix2 (0 : Fin 1) q)) :=
  (dat3 V c).arrAt_eq_of_cover 2 _ (fun t _ => flushed_eq V c t) cover

end Cert.KernelIdeal.Act3

end
-- ==== Proof.Layer1.lean ====
/-
  Layer 1 of the kernel program, read off the boundaries of its segments: the host stretch that slices the layer's
  weight out of the stack and leaves the features alone,
  the region of the dense product, the host stretch that gathers the product's rows at the edges' sources, scales them,
  adds them up at the targets and cuts the layer's bias row, and the region of the bias and rectifier. The features the
  next layer reads are the layer function of the features this layer read.
-/
import proofs.«177265_j7464653160644_1_alg».proof.Proof.Live
import proofs.«177265_j7464653160644_1_alg».proof.Proof.Bridge
import proofs.«177265_j7464653160644_1_alg».proof.Proof.Dense2
import proofs.«177265_j7464653160644_1_alg».proof.Proof.Act3
import Idealize.ShloMosaic.Lib.ValueLayout

noncomputable section

namespace Cert.KernelIdeal.Chain

open Cert.KernelIdeal Cert.KernelIdeal.Gen Cert.GcnSpec Cert.GcnMath
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- If region 1's result array holds `x`, then after region 3 its result array holds layer 1 of `x`. -/
theorem layer1 (c : Dev nD) {e : T S2x160000 .i32} {a2 : T S4x512x512 .f32} {a3 : T S4x512 .f32} {x : T S20000x512 .f32}
    (hL : Live (W6 m ρ c) e a2 a3) (hx : W6 m ρ c (Proc.devRef .tc main_v49) = x) :
    W10 m ρ c (Proc.devRef .tc main_v68)
      = kerLayer x (wsl1 a2) (bsl1 a3) (rowOf e) (colOf e) (normOf (rowOf e) (colOf e)) := by
  have LE := live7 m ρ c hL
  have LD := live8 m ρ c LE
  -- the features pass through the host stretch, which slices the layer's weight from the stack
  have hxE : W7 m ρ c (Proc.devRef .tc main_v49) = x := by
    refine Eq.trans ?_ hx
    show StableHlo.after hostOps2 (W6 m ρ c) _ = _
    generalize W6 m ρ c = W
    after_results_simp
  have hwE : W7 m ρ c (Proc.devRef .tc main_v51) = wsl1 a2 := by
    refine Eq.trans ?_ (congrArg wsl1 hL.w)
    show StableHlo.after hostOps2 (W6 m ρ c) _ = _
    generalize W6 m ρ c = W
    after_results_simp
    rfl
  -- the region of the dense product
  have hh : W8 m ρ c (Proc.devRef .tc main_v52) = mm x (wsl1 a2) := by
    refine ((W8_arr m ρ c 2).trans (Dense2.final (V7 m ρ) c)).trans ?_
    show mm (W7 m ρ c (Proc.devRef .tc main_v49)) (W7 m ρ c (Proc.devRef .tc main_v51)) = _
    rw [hxE, hwE]
  -- the propagation step and the bias row, by the host stretch after it
  have hg : W9 m ρ c (Proc.devRef .tc main_v64) = aggOf (mm x (wsl1 a2)) (rowOf e) (colOf e) (normOf (rowOf e) (colOf e)) := by
    have hraw : W9 m ρ c (Proc.devRef .tc main_v64) = aggOf (W8 m ρ c (Proc.devRef .tc main_v52)) (W8 m ρ c (Proc.devRef .tc main_v3))
        (W8 m ρ c (Proc.devRef .tc main_v6)) (W8 m ρ c (Proc.devRef .tc main_v30)) := by
      show StableHlo.after hostOps3 (W8 m ρ c) _ = _
      generalize W8 m ρ c = W
      after_results_simp
      rfl
    rw [hraw, hh, LD.row, LD.col, LD.norm]
  have hb : W9 m ρ c (Proc.devRef .tc main_v67) = shapeCast S1x512 (bsl1 a3) Facts₀.shapeCasts_S512_S1x512 := by
    refine Eq.trans ?_ (congrArg (fun z => shapeCast S1x512 (bsl1 z) Facts₀.shapeCasts_S512_S1x512) LD.b)
    show StableHlo.after hostOps3 (W8 m ρ c) _ = _
    generalize W8 m ρ c = W
    after_results_simp
    rfl
  -- the region of the bias and rectifier; the bias row is the bias vector given a leading unit axis
  refine ((W10_arr m ρ c 2).trans (Act3.final (V9 m ρ) c)).trans ?_
  show act (W9 m ρ c (Proc.devRef .tc main_v64)) (fun q => W9 m ρ c (Proc.devRef .tc main_v67) (ix2 (0 : Fin 1) q)) = _
  rw [hg, hb]
  unfold kerLayer
  refine congrArg (act _) (funext fun q => ?_)
  exact shapeCast_a_1a_apply _ _ 0 q

end Cert.KernelIdeal.Chain

end
-- ==== Proof.Dense4.lean ====
/-
  Region 4 of the program is a dense layer's product, tiled by rows: the grid has ten points, point t reads rows
  2000 t … 2000 t + 1999 of the features and the whole weight, and writes the same rows of the result. Here: the
  block product at an entry is the sum over the 512 contracted columns; a features block entry (p, k) of point t is the
  array's entry (2000 t + p, k) and the weight block is the array; so what point t writes back is block t of the
  whole-array product, the ten blocks cover the result, and the result array ends holding the product.
-/
import proofs.«177265_j7464653160644_1_alg».proof.Proof.Gen.KernelIdeal.Frame
import proofs.«177265_j7464653160644_1_alg».proof.Proof.MathSpec
import proofs.«177265_j7464653160644_1_alg».proof.Proof.LibMatmul2D
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense4

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the contracted columns (a change of float format is the identity). -/
theorem pay_apply (x0 : Vec Ideal S2000x512 .f32) (x1 : Vec Ideal S512x512 .f32) (p : Fin 2000) (q : Fin 512) :
    k4_pay1 x0 x1 (ix2 p q) = ∑ k : Fin 512, x0 (ix2 p k) * x1 (ix2 k q) := by
  unfold k4_pay1
  simp only [shapeCast_self]
  exact Cert.LibMatmul2D.rows_cols Facts₀.dot_S2000x512_S512x512_S2000x512_1_0_0_1_n_n_wf none x0 x1 p q

/-- The index maps over the grid: the features' and the result's blocks move together down the rows, every other block
    index is 0. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block of the result is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- A features block at a local entry is the array at the block's rows. -/
theorem x_blk (c : Dev nD) (t : Fin cfg4.N) (p : Fin 2000) (k : Fin 512) (P : Fin 20000)
    (hP : P.val = win4_2.index t (0 : Fin 2) * 2000 + p.val) :
    iblk4 V c 0 t (ix2 p k) = V c main_v68 (ix2 P k) := by
  obtain ⟨e0, e1, e2, e3, e4, e5⟩ := idx_facts t
  unfold iblk4
  rw [View.read_apply]
  show V c main_v68 (((cfg4.win 0).blk t).view.emb (ix2 p k)) = V c main_v68 (ix2 P k)
  refine congrArg (V c main_v68) ?_
  funext a; apply Fin.ext
  match a with
  | ⟨0, _⟩ => show win4_0.index t (0 : Fin 2) * 2000 + 1 * p.val = P.val; omega
  | ⟨1, _⟩ => show win4_0.index t (1 : Fin 2) * 512 + 1 * k.val = k.val; omega

/-- The weight block is the weight array. -/
theorem w_blk (c : Dev nD) (t : Fin cfg4.N) (k : Fin 512) (q : Fin 512) :
    iblk4 V c 1 t (ix2 k q) = V c main_v70 (ix2 k q) := by
  obtain ⟨e0, e1, e2, e3, e4, e5⟩ := idx_facts t
  unfold iblk4
  rw [View.read_apply]
  show V c main_v70 (((cfg4.win 1).blk t).view.emb (ix2 k q)) = V c main_v70 (ix2 k q)
  refine congrArg (V c main_v70) ?_
  funext a; apply Fin.ext
  match a with
  | ⟨0, _⟩ => show win4_1.index t (0 : Fin 2) * 512 + 1 * k.val = k.val; omega
  | ⟨1, _⟩ => show win4_1.index t (1 : Fin 2) * 512 + 1 * q.val = q.val; omega

/-- What point t writes back is block t of the whole-array product. -/
theorem flushed_eq (c : Dev nD) (t : Fin cfg4.N) :
    (dat4 V c).flushed 2 t = ((cfg4.win 2).blk t).view.read (Elt Ideal) (mm (V c main_v68) (V c main_v70)) := by
  show (cfg4.win 2).cut (grid4.coords t) ((dat4 V c).after 2 t) = _
  rw [after4_2]
  unfold out4_2
  rw [View.canon_unit_zero hz]
  simp only [View.ld_unit_zero (S := S2000x512) hz, View.ld_unit_zero (S := S512x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k4_pay1 (iblk4 V c 0 t) (iblk4 V c 1 t) (ix2 p q)
    = mm (V c main_v68) (V c main_v70) (((cfg4.win 2).blk t).view.emb (ix2 p q))
  have hP : win4_2.index t (0 : Fin 2) * 2000 + p.val < 20000 := by have := p.isLt; omega
  have hemb : ((cfg4.win 2).blk t).view.emb (ix2 p q)
      = ix2 (⟨win4_2.index t (0 : Fin 2) * 2000 + p.val, hP⟩ : Fin 20000) q := by
    funext a; apply Fin.ext
    match a with
    | ⟨0, _⟩ => show win4_2.index t (0 : Fin 2) * 2000 + 1 * p.val = win4_2.index t (0 : Fin 2) * 2000 + p.val; omega
    | ⟨1, _⟩ => show win4_2.index t (1 : Fin 2) * 512 + 1 * q.val = q.val; omega
  rw [hemb, mm_ix2, pay_apply]
  unfold mmAt
  refine Finset.sum_congr rfl fun k _ => ?_
  rw [x_blk V c t p k ⟨_, hP⟩ rfl, w_blk V c t k q]

/-- An index of the result is in point t's block iff its row is among the block's rows. -/
theorem mem_blk (t : Fin cfg4.N) (i : S20000x512.Idx) :
    i ∈ ((cfg4.win 2).blk t).view.set ↔ ∀ a : Fin 2, win4_2.index t a * S2000x512.size a ≤ (i a).val
      ∧ (i a).val < win4_2.index t a * S2000x512.size a + S2000x512.size a := by
  show i ∈ ((View.whole main_v71).slice (win4_2.rect t)).set ↔ _
  rw [View.set_slice_whole, Rect.mem_set_unit]
  exact Iff.rfl

/-- Row r of the result lies in the block of point r / 2000. -/
theorem cover (i : S20000x512.Idx) :
    ∃ t : Fin cfg4.N, (cfg4.win 2).flush t = true ∧ i ∈ ((cfg4.win 2).blk t).view.set := by
  have hi0 : (i 0).val < 20000 := (i 0).isLt
  have hi1 : (i 1).val < 512 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 512 ≤ (i 1).val ∧ (i 1).val < win4_2.index t (1 : Fin 2) * 512 + 512
    omega

/-- After the region the result array holds the product of the features and the weight as the region found them. -/
theorem final (c : Dev nD) : (dat4 V c).arrAt 2 cfg4.N = mm (V c main_v68) (V c main_v70) :=
  (dat4 V c).arrAt_eq_of_cover 2 _ (fun t _ => flushed_eq V c t) cover

end Cert.KernelIdeal.Dense4

end
-- ==== Proof.Act5.lean ====
/-
  Region 5 of the program adds a layer's bias row to the aggregated features and applies the leaky rectifier, tiled by
  rows: the grid has ten points, point t reads rows 2000 t … 2000 t + 1999 of the aggregate and the one bias row, and
  writes the same rows of the result. Here: the block's value at an entry (p, q) is the rectifier of the aggregate's
  entry plus the bias at q; an aggregate block entry (p, q) of point t is the array's entry (2000 t + p, q) and the bias
  block is the bias row; so what point t writes back is block t of the whole-array function, the ten blocks cover the
  result, and the result array ends holding that function.
-/
import proofs.«177265_j7464653160644_1_alg».proof.Proof.Gen.KernelIdeal.Frame
import proofs.«177265_j7464653160644_1_alg».proof.Proof.MathSpec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Act5

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's value at an entry: the rectifier of the aggregate's entry plus the bias row's entry in that column. -/
theorem pay_apply (x0 : Vec Ideal S2000x512 .f32) (x1 : Vec Ideal S1x512 .f32) (p : Fin 2000) (q : Fin 512) :
    k5_pay1 x0 x1 (ix2 p q) = lrelu (x0 (ix2 p q) + x1 (ix2 (0 : Fin 1) q)) := by
  unfold k5_pay1
  simp only [shapeCast_self, select_apply, cmpf_apply, mulf_apply, addf_apply, broadcast_apply,
    broadcastTo_1b_ab_apply x1 Facts₀.broadcasts_S1x512_S2000x512 p q]
  rfl

/-- The index maps over the grid: the aggregate's and the result's blocks move together down the rows, every other
    block index is 0. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block of the result is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- An aggregate block at a local entry is the array at the block's rows. -/
theorem x_blk (c : Dev nD) (t : Fin cfg5.N) (p : Fin 2000) (q : Fin 512) (P : Fin 20000)
    (hP : P.val = win5_2.index t (0 : Fin 2) * 2000 + p.val) :
    iblk5 V c 0 t (ix2 p q) = V c main_v83 (ix2 P q) := by
  obtain ⟨e0, e1, e2, e3, e4, e5⟩ := idx_facts t
  unfold iblk5
  rw [View.read_apply]
  show V c main_v83 (((cfg5.win 0).blk t).view.emb (ix2 p q)) = V c main_v83 (ix2 P q)
  refine congrArg (V c main_v83) ?_
  funext a; apply Fin.ext
  match a with
  | ⟨0, _⟩ => show win5_0.index t (0 : Fin 2) * 2000 + 1 * p.val = P.val; omega
  | ⟨1, _⟩ => show win5_0.index t (1 : Fin 2) * 512 + 1 * q.val = q.val; omega

/-- The bias block is the bias row. -/
theorem b_blk (c : Dev nD) (t : Fin cfg5.N) (q : Fin 512) :
    iblk5 V c 1 t (ix2 (0 : Fin 1) q) = V c main_v86 (ix2 (0 : Fin 1) q) := by
  obtain ⟨e0, e1, e2, e3, e4, e5⟩ := idx_facts t
  unfold iblk5
  rw [View.read_apply]
  show V c main_v86 (((cfg5.win 1).blk t).view.emb (ix2 (0 : Fin 1) q)) = V c main_v86 (ix2 (0 : Fin 1) q)
  refine congrArg (V c main_v86) ?_
  funext a; apply Fin.ext
  match a with
  | ⟨0, _⟩ => show win5_1.index t (0 : Fin 2) * 1 + 1 * 0 = 0; omega
  | ⟨1, _⟩ => show win5_1.index t (1 : Fin 2) * 512 + 1 * q.val = q.val; omega

/-- What point t writes back is block t of the whole-array bias-and-rectifier. -/
theorem flushed_eq (c : Dev nD) (t : Fin cfg5.N) :
    (dat5 V c).flushed 2 t
      = ((cfg5.win 2).blk t).view.read (Elt Ideal) (act (V c main_v83) (fun q => V c main_v86 (ix2 (0 : Fin 1) q))) := by
  show (cfg5.win 2).cut (grid5.coords t) ((dat5 V c).after 2 t) = _
  rw [after5_2]
  unfold out5_2
  rw [View.canon_unit_zero hz]
  simp only [View.ld_unit_zero (S := S2000x512) hz, View.ld_unit_zero (S := S1x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k5_pay1 (iblk5 V c 0 t) (iblk5 V c 1 t) (ix2 p q)
    = act (V c main_v83) (fun q => V c main_v86 (ix2 (0 : Fin 1) q)) (((cfg5.win 2).blk t).view.emb (ix2 p q))
  have hP : win5_2.index t (0 : Fin 2) * 2000 + p.val < 20000 := by have := p.isLt; omega
  have hemb : ((cfg5.win 2).blk t).view.emb (ix2 p q)
      = ix2 (⟨win5_2.index t (0 : Fin 2) * 2000 + p.val, hP⟩ : Fin 20000) q := by
    funext a; apply Fin.ext
    match a with
    | ⟨0, _⟩ => show win5_2.index t (0 : Fin 2) * 2000 + 1 * p.val = win5_2.index t (0 : Fin 2) * 2000 + p.val; omega
    | ⟨1, _⟩ => show win5_2.index t (1 : Fin 2) * 512 + 1 * q.val = q.val; omega
  rw [hemb, act_ix2, pay_apply]
  unfold actAt
  rw [x_blk V c t p q ⟨_, hP⟩ rfl, b_blk V c t q]

/-- An index of the result is in point t's block iff its row is among the block's rows. -/
theorem mem_blk (t : Fin cfg5.N) (i : S20000x512.Idx) :
    i ∈ ((cfg5.win 2).blk t).view.set ↔ ∀ a : Fin 2, win5_2.index t a * S2000x512.size a ≤ (i a).val
      ∧ (i a).val < win5_2.index t a * S2000x512.size a + S2000x512.size a := by
  show i ∈ ((View.whole main_v87).slice (win5_2.rect t)).set ↔ _
  rw [View.set_slice_whole, Rect.mem_set_unit]
  exact Iff.rfl

/-- Row r of the result lies in the block of point r / 2000. -/
theorem cover (i : S20000x512.Idx) :
    ∃ t : Fin cfg5.N, (cfg5.win 2).flush t = true ∧ i ∈ ((cfg5.win 2).blk t).view.set := by
  have hi0 : (i 0).val < 20000 := (i 0).isLt
  have hi1 : (i 1).val < 512 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 512 ≤ (i 1).val ∧ (i 1).val < win5_2.index t (1 : Fin 2) * 512 + 512
    omega

/-- After the region the result array holds the rectifier of the aggregate plus the bias row, as the region found them. -/
theorem final (c : Dev nD) :
    (dat5 V c).arrAt 2 cfg5.N = act (V c main_v83) (fun q => V c main_v86 (ix2 (0 : Fin 1) q)) :=
  (dat5 V c).arrAt_eq_of_cover 2 _ (fun t _ => flushed_eq V c t) cover

end Cert.KernelIdeal.Act5

end
-- ==== Proof.Layer2.lean ====
/-
  Layer 2 of the kernel program, read off the boundaries of its segments: the host stretch that slices the layer's
  weight out of the stack and leaves the features alone,
  the region of the dense product, the host stretch that gathers the product's rows at the edges' sources, scales them,
  adds them up at the targets and cuts the layer's bias row, and the region of the bias and rectifier. The features the
  next layer reads are the layer function of the features this layer read.
-/
import proofs.«177265_j7464653160644_1_alg».proof.Proof.Live
import proofs.«177265_j7464653160644_1_alg».proof.Proof.Bridge
import proofs.«177265_j7464653160644_1_alg».proof.Proof.Dense4
import proofs.«177265_j7464653160644_1_alg».proof.Proof.Act5
import Idealize.ShloMosaic.Lib.ValueLayout

noncomputable section

namespace Cert.KernelIdeal.Chain

open Cert.KernelIdeal Cert.KernelIdeal.Gen Cert.GcnSpec Cert.GcnMath
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- If region 3's result array holds `x`, then after region 5 its result array holds layer 2 of `x`. -/
theorem layer2 (c : Dev nD) {e : T S2x160000 .i32} {a2 : T S4x512x512 .f32} {a3 : T S4x512 .f32} {x : T S20000x512 .f32}
    (hL : Live (W10 m ρ c) e a2 a3) (hx : W10 m ρ c (Proc.devRef .tc main_v68) = x) :
    W14 m ρ c (Proc.devRef .tc main_v87)
      = kerLayer x (wsl2 a2) (bsl2 a3) (rowOf e) (colOf e) (normOf (rowOf e) (colOf e)) := by
  have LE := live11 m ρ c hL
  have LD := live12 m ρ c LE
  -- the features pass through the host stretch, which slices the layer's weight from the stack
  have hxE : W11 m ρ c (Proc.devRef .tc main_v68) = x := by
    refine Eq.trans ?_ hx
    show StableHlo.after hostOps4 (W10 m ρ c) _ = _
    generalize W10 m ρ c = W
    after_results_simp
  have hwE : W11 m ρ c (Proc.devRef .tc main_v70) = wsl2 a2 := by
    refine Eq.trans ?_ (congrArg wsl2 hL.w)
    show StableHlo.after hostOps4 (W10 m ρ c) _ = _
    generalize W10 m ρ c = W
    after_results_simp
    rfl
  -- the region of the dense product
  have hh : W12 m ρ c (Proc.devRef .tc main_v71) = mm x (wsl2 a2) := by
    refine ((W12_arr m ρ c 2).trans (Dense4.final (V11 m ρ) c)).trans ?_
    show mm (W11 m ρ c (Proc.devRef .tc main_v68)) (W11 m ρ c (Proc.devRef .tc main_v70)) = _
    rw [hxE, hwE]
  -- the propagation step and the bias row, by the host stretch after it
  have hg : W13 m ρ c (Proc.devRef .tc main_v83) = aggOf (mm x (wsl2 a2)) (rowOf e) (colOf e) (normOf (rowOf e) (colOf e)) := by
    have hraw : W13 m ρ c (Proc.devRef .tc main_v83) = aggOf (W12 m ρ c (Proc.devRef .tc main_v71)) (W12 m ρ c (Proc.devRef .tc main_v3))
        (W12 m ρ c (Proc.devRef .tc main_v6)) (W12 m ρ c (Proc.devRef .tc main_v30)) := by
      show StableHlo.after hostOps5 (W12 m ρ c) _ = _
      generalize W12 m ρ c = W
      after_results_simp
      rfl
    rw [hraw, hh, LD.row, LD.col, LD.norm]
  have hb : W13 m ρ c (Proc.devRef .tc main_v86) = shapeCast S1x512 (bsl2 a3) Facts₀.shapeCasts_S512_S1x512 := by
    refine Eq.trans ?_ (congrArg (fun z => shapeCast S1x512 (bsl2 z) Facts₀.shapeCasts_S512_S1x512) LD.b)
    show StableHlo.after hostOps5 (W12 m ρ c) _ = _
    generalize W12 m ρ c = W
    after_results_simp
    rfl
  -- the region of the bias and rectifier; the bias row is the bias vector given a leading unit axis
  refine ((W14_arr m ρ c 2).trans (Act5.final (V13 m ρ) c)).trans ?_
  show act (W13 m ρ c (Proc.devRef .tc main_v83)) (fun q => W13 m ρ c (Proc.devRef .tc main_v86) (ix2 (0 : Fin 1) q)) = _
  rw [hg, hb]
  unfold kerLayer
  refine congrArg (act _) (funext fun q => ?_)
  exact shapeCast_a_1a_apply _ _ 0 q

end Cert.KernelIdeal.Chain

end
-- ==== Proof.Dense6.lean ====
/-
  Region 6 of the program is a dense layer's product, tiled by rows: the grid has ten points, point t reads rows
  2000 t … 2000 t + 1999 of the features and the whole weight, and writes the same rows of the result. Here: the
  block product at an entry is the sum over the 512 contracted columns; a features block entry (p, k) of point t is the
  array's entry (2000 t + p, k) and the weight block is the array; so what point t writes back is block t of the
  whole-array product, the ten blocks cover the result, and the result array ends holding the product.
-/
import proofs.«177265_j7464653160644_1_alg».proof.Proof.Gen.KernelIdeal.Frame
import proofs.«177265_j7464653160644_1_alg».proof.Proof.MathSpec
import proofs.«177265_j7464653160644_1_alg».proof.Proof.LibMatmul2D
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense6

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the contracted columns (a change of float format is the identity). -/
theorem pay_apply (x0 : Vec Ideal S2000x512 .f32) (x1 : Vec Ideal S512x512 .f32) (p : Fin 2000) (q : Fin 512) :
    k6_pay1 x0 x1 (ix2 p q) = ∑ k : Fin 512, x0 (ix2 p k) * x1 (ix2 k q) := by
  unfold k6_pay1
  simp only [shapeCast_self]
  exact Cert.LibMatmul2D.rows_cols Facts₀.dot_S2000x512_S512x512_S2000x512_1_0_0_1_n_n_wf none x0 x1 p q

/-- The index maps over the grid: the features' and the result's blocks move together down the rows, every other block
    index is 0. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 9 :=
  (by decide +kernel : ∀ t : Fin grid6.N, _)

/-- Every row block of the result is some point's. -/
theorem idx_onto : ∀ q0 : Fin 10, ∃ t : Fin cfg6.N, win6_2.index t = ![q0.val, 0] :=
  (by decide +kernel : ∀ q0 : Fin 10, ∃ t : Fin grid6.N, win6_2.index t = ![q0.val, 0])

/-- A features block at a local entry is the array at the block's rows. -/
theorem x_blk (c : Dev nD) (t : Fin cfg6.N) (p : Fin 2000) (k : Fin 512) (P : Fin 20000)
    (hP : P.val = win6_2.index t (0 : Fin 2) * 2000 + p.val) :
    iblk6 V c 0 t (ix2 p k) = V c main_v87 (ix2 P k) := by
  obtain ⟨e0, e1, e2, e3, e4, e5⟩ := idx_facts t
  unfold iblk6
  rw [View.read_apply]
  show V c main_v87 (((cfg6.win 0).blk t).view.emb (ix2 p k)) = V c main_v87 (ix2 P k)
  refine congrArg (V c main_v87) ?_
  funext a; apply Fin.ext
  match a with
  | ⟨0, _⟩ => show win6_0.index t (0 : Fin 2) * 2000 + 1 * p.val = P.val; omega
  | ⟨1, _⟩ => show win6_0.index t (1 : Fin 2) * 512 + 1 * k.val = k.val; omega

/-- The weight block is the weight array. -/
theorem w_blk (c : Dev nD) (t : Fin cfg6.N) (k : Fin 512) (q : Fin 512) :
    iblk6 V c 1 t (ix2 k q) = V c main_v89 (ix2 k q) := by
  obtain ⟨e0, e1, e2, e3, e4, e5⟩ := idx_facts t
  unfold iblk6
  rw [View.read_apply]
  show V c main_v89 (((cfg6.win 1).blk t).view.emb (ix2 k q)) = V c main_v89 (ix2 k q)
  refine congrArg (V c main_v89) ?_
  funext a; apply Fin.ext
  match a with
  | ⟨0, _⟩ => show win6_1.index t (0 : Fin 2) * 512 + 1 * k.val = k.val; omega
  | ⟨1, _⟩ => show win6_1.index t (1 : Fin 2) * 512 + 1 * q.val = q.val; omega

/-- What point t writes back is block t of the whole-array product. -/
theorem flushed_eq (c : Dev nD) (t : Fin cfg6.N) :
    (dat6 V c).flushed 2 t = ((cfg6.win 2).blk t).view.read (Elt Ideal) (mm (V c main_v87) (V c main_v89)) := by
  show (cfg6.win 2).cut (grid6.coords t) ((dat6 V c).after 2 t) = _
  rw [after6_2]
  unfold out6_2
  rw [View.canon_unit_zero hz]
  simp only [View.ld_unit_zero (S := S2000x512) hz, View.ld_unit_zero (S := S512x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k6_pay1 (iblk6 V c 0 t) (iblk6 V c 1 t) (ix2 p q)
    = mm (V c main_v87) (V c main_v89) (((cfg6.win 2).blk t).view.emb (ix2 p q))
  have hP : win6_2.index t (0 : Fin 2) * 2000 + p.val < 20000 := by have := p.isLt; omega
  have hemb : ((cfg6.win 2).blk t).view.emb (ix2 p q)
      = ix2 (⟨win6_2.index t (0 : Fin 2) * 2000 + p.val, hP⟩ : Fin 20000) q := by
    funext a; apply Fin.ext
    match a with
    | ⟨0, _⟩ => show win6_2.index t (0 : Fin 2) * 2000 + 1 * p.val = win6_2.index t (0 : Fin 2) * 2000 + p.val; omega
    | ⟨1, _⟩ => show win6_2.index t (1 : Fin 2) * 512 + 1 * q.val = q.val; omega
  rw [hemb, mm_ix2, pay_apply]
  unfold mmAt
  refine Finset.sum_congr rfl fun k _ => ?_
  rw [x_blk V c t p k ⟨_, hP⟩ rfl, w_blk V c t k q]

/-- An index of the result is in point t's block iff its row is among the block's rows. -/
theorem mem_blk (t : Fin cfg6.N) (i : S20000x512.Idx) :
    i ∈ ((cfg6.win 2).blk t).view.set ↔ ∀ a : Fin 2, win6_2.index t a * S2000x512.size a ≤ (i a).val
      ∧ (i a).val < win6_2.index t a * S2000x512.size a + S2000x512.size a := by
  show i ∈ ((View.whole main_v90).slice (win6_2.rect t)).set ↔ _
  rw [View.set_slice_whole, Rect.mem_set_unit]
  exact Iff.rfl

/-- Row r of the result lies in the block of point r / 2000. -/
theorem cover (i : S20000x512.Idx) :
    ∃ t : Fin cfg6.N, (cfg6.win 2).flush t = true ∧ i ∈ ((cfg6.win 2).blk t).view.set := by
  have hi0 : (i 0).val < 20000 := (i 0).isLt
  have hi1 : (i 1).val < 512 := (i 1).isLt
  obtain ⟨t, ht⟩ := idx_onto ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_blk]
  intro a
  match a with
  | ⟨0, _⟩ =>
    show win6_2.index t (0 : Fin 2) * 2000 ≤ (i 0).val ∧ (i 0).val < win6_2.index t (0 : Fin 2) * 2000 + 2000
    omega
  | ⟨1, _⟩ =>
    show win6_2.index t (1 : Fin 2) * 512 ≤ (i 1).val ∧ (i 1).val < win6_2.index t (1 : Fin 2) * 512 + 512
    omega

/-- After the region the result array holds the product of the features and the weight as the region found them. -/
theorem final (c : Dev nD) : (dat6 V c).arrAt 2 cfg6.N = mm (V c main_v87) (V c main_v89) :=
  (dat6 V c).arrAt_eq_of_cover 2 _ (fun t _ => flushed_eq V c t) cover

end Cert.KernelIdeal.Dense6

end
-- ==== Proof.Act7.lean ====
/-
  Region 7 of the program adds a layer's bias row to the aggregated features and applies the leaky rectifier, tiled by
  rows: the grid has ten points, point t reads rows 2000 t … 2000 t + 1999 of the aggregate and the one bias row, and
  writes the same rows of the result. Here: the block's value at an entry (p, q) is the rectifier of the aggregate's
  entry plus the bias at q; an aggregate block entry (p, q) of point t is the array's entry (2000 t + p, q) and the bias
  block is the bias row; so what point t writes back is block t of the whole-array function, the ten blocks cover the
  result, and the result array ends holding that function.
-/
import proofs.«177265_j7464653160644_1_alg».proof.Proof.Gen.KernelIdeal.Frame
import proofs.«177265_j7464653160644_1_alg».proof.Proof.MathSpec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Act7

open Cert.KernelIdeal Cert.KernelIdeal.Gen Cert.GcnMath

variable (V : (c : Dev nD) → (b : Ref sig .tc) → Buf (Elt Ideal) ((c : Thread nD τ).loc b))

theorem hz : (![0, 0] : Fin 2 → Nat) = fun _ => 0 := funext fun a => by fin_cases a <;> rfl

/-- One block's value at an entry: the rectifier of the aggregate's entry plus the bias row's entry in that column. -/
theorem pay_apply (x0 : Vec Ideal S2000x512 .f32) (x1 : Vec Ideal S1x512 .f32) (p : Fin 2000) (q : Fin 512) :
    k7_pay1 x0 x1 (ix2 p q) = lrelu (x0 (ix2 p q) + x1 (ix2 (0 : Fin 1) q)) := by
  unfold k7_pay1
  simp only [shapeCast_self, select_apply, cmpf_apply, mulf_apply, addf_apply, broadcast_apply,
    broadcastTo_1b_ab_apply x1 Facts₀.broadcasts_S1x512_S2000x512 p q]
  rfl

/-- The index maps over the grid: the aggregate's and the result's blocks move together down the rows, every other
    block index is 0. -/
theorem idx_facts : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) ≤ 9 :=
  (by decide +kernel : ∀ t : Fin grid7.N, _)

/-- Every row block of the result is some point's. -/
theorem idx_onto : ∀ q0 : Fin 10, ∃ t : Fin cfg7.N, win7_2.index t = ![q0.val, 0] :=
  (by decide +kernel : ∀ q0 : Fin 10, ∃ t : Fin grid7.N, win7_2.index t = ![q0.val, 0])

/-- An aggregate block at a local entry is the array at the block's rows. -/
theorem x_blk (c : Dev nD) (t : Fin cfg7.N) (p : Fin 2000) (q : Fin 512) (P : Fin 20000)
    (hP : P.val = win7_2.index t (0 : Fin 2) * 2000 + p.val) :
    iblk7 V c 0 t (ix2 p q) = V c main_v102 (ix2 P q) := by
  obtain ⟨e0, e1, e2, e3, e4, e5⟩ := idx_facts t
  unfold iblk7
  rw [View.read_apply]
  show V c main_v102 (((cfg7.win 0).blk t).view.emb (ix2 p q)) = V c main_v102 (ix2 P q)
  refine congrArg (V c main_v102) ?_
  funext a; apply Fin.ext
  match a with
  | ⟨0, _⟩ => show win7_0.index t (0 : Fin 2) * 2000 + 1 * p.val = P.val; omega
  | ⟨1, _⟩ => show win7_0.index t (1 : Fin 2) * 512 + 1 * q.val = q.val; omega

/-- The bias block is the bias row. -/
theorem b_blk (c : Dev nD) (t : Fin cfg7.N) (q : Fin 512) :
    iblk7 V c 1 t (ix2 (0 : Fin 1) q) = V c main_v105 (ix2 (0 : Fin 1) q) := by
  obtain ⟨e0, e1, e2, e3, e4, e5⟩ := idx_facts t
  unfold iblk7
  rw [View.read_apply]
  show V c main_v105 (((cfg7.win 1).blk t).view.emb (ix2 (0 : Fin 1) q)) = V c main_v105 (ix2 (0 : Fin 1) q)
  refine congrArg (V c main_v105) ?_
  funext a; apply Fin.ext
  match a with
  | ⟨0, _⟩ => show win7_1.index t (0 : Fin 2) * 1 + 1 * 0 = 0; omega
  | ⟨1, _⟩ => show win7_1.index t (1 : Fin 2) * 512 + 1 * q.val = q.val; omega

/-- What point t writes back is block t of the whole-array bias-and-rectifier. -/
theorem flushed_eq (c : Dev nD) (t : Fin cfg7.N) :
    (dat7 V c).flushed 2 t
      = ((cfg7.win 2).blk t).view.read (Elt Ideal) (act (V c main_v102) (fun q => V c main_v105 (ix2 (0 : Fin 1) q))) := by
  show (cfg7.win 2).cut (grid7.coords t) ((dat7 V c).after 2 t) = _
  rw [after7_2]
  unfold out7_2
  rw [View.canon_unit_zero hz]
  simp only [View.ld_unit_zero (S := S2000x512) hz, View.ld_unit_zero (S := S1x512) hz]
  obtain ⟨e0, e1, e2, e3, e4, e5⟩ := idx_facts t
  funext j
  obtain ⟨p, q, rfl⟩ : ∃ (p : Fin 2000) (q : Fin 512), j = ix2 p q := ⟨j 0, j 1, eq_ix2 (n0 := 2000) (n1 := 512) j⟩
  show k7_pay1 (iblk7 V c 0 t) (iblk7 V c 1 t) (ix2 p q)
    = act (V c main_v102) (fun q => V c main_v105 (ix2 (0 : Fin 1) q)) (((cfg7.win 2).blk t).view.emb (ix2 p q))
  have hP : win7_2.index t (0 : Fin 2) * 2000 + p.val < 20000 := by have := p.isLt; omega
  have hemb : ((cfg7.win 2).blk t).view.emb (ix2 p q)
      = ix2 (⟨win7_2.index t (0 : Fin 2) * 2000 + p.val, hP⟩ : Fin 20000) q := by
    funext a; apply Fin.ext
    match a with
    | ⟨0, _⟩ => show win7_2.index t (0 : Fin 2) * 2000 + 1 * p.val = win7_2.index t (0 : Fin 2) * 2000 + p.val; omega
    | ⟨1, _⟩ => show win7_2.index t (1 : Fin 2) * 512 + 1 * q.val = q.val; omega
  rw [hemb, act_ix2, pay_apply]
  unfold actAt
  rw [x_blk V c t p q ⟨_, hP⟩ rfl, b_blk V c t q]

/-- An index of the result is in point t's block iff its row is among the block's rows. -/
theorem mem_blk (t : Fin cfg7.N) (i : S20000x512.Idx) :
    i ∈ ((cfg7.win 2).blk t).view.set ↔ ∀ a : Fin 2, win7_2.index t a * S2000x512.size a ≤ (i a).val
      ∧ (i a).val < win7_2.index t a * S2000x512.size a + S2000x512.size a := by
  show i ∈ ((View.whole main_v106).slice (win7_2.rect t)).set ↔ _
  rw [View.set_slice_whole, Rect.mem_set_unit]
  exact Iff.rfl

/-- Row r of the result lies in the block of point r / 2000. -/
theorem cover (i : S20000x512.Idx) :
    ∃ t : Fin cfg7.N, (cfg7.win 2).flush t = true ∧ i ∈ ((cfg7.win 2).blk t).view.set := by
  have hi0 : (i 0).val < 20000 := (i 0).isLt
  have hi1 : (i 1).val < 512 := (i 1).isLt
  obtain ⟨t, ht⟩ := idx_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_blk]
  intro a
  match a with
  | ⟨0, _⟩ =>
    show win7_2.index t (0 : Fin 2) * 2000 ≤ (i 0).val ∧ (i 0).val < win7_2.index t (0 : Fin 2) * 2000 + 2000
    omega
  | ⟨1, _⟩ =>
    show win7_2.index t (1 : Fin 2) * 512 ≤ (i 1).val ∧ (i 1).val < win7_2.index t (1 : Fin 2) * 512 + 512
    omega

/-- After the region the result array holds the rectifier of the aggregate plus the bias row, as the region found them. -/
theorem final (c : Dev nD) :
    (dat7 V c).arrAt 2 cfg7.N = act (V c main_v102) (fun q => V c main_v105 (ix2 (0 : Fin 1) q)) :=
  (dat7 V c).arrAt_eq_of_cover 2 _ (fun t _ => flushed_eq V c t) cover

end Cert.KernelIdeal.Act7

end
-- ==== Proof.Layer3.lean ====
/-
  Layer 3 of the kernel program, read off the boundaries of its segments: the host stretch that slices the layer's
  weight out of the stack and leaves the features alone,
  the region of the dense product, the host stretch that gathers the product's rows at the edges' sources, scales them,
  adds them up at the targets and cuts the layer's bias row, and the region of the bias and rectifier. The features the
  next layer reads are the layer function of the features this layer read.
-/
import proofs.«177265_j7464653160644_1_alg».proof.Proof.Live
import proofs.«177265_j7464653160644_1_alg».proof.Proof.Bridge
import proofs.«177265_j7464653160644_1_alg».proof.Proof.Dense6
import proofs.«177265_j7464653160644_1_alg».proof.Proof.Act7
import Idealize.ShloMosaic.Lib.ValueLayout

noncomputable section

namespace Cert.KernelIdeal.Chain

open Cert.KernelIdeal Cert.KernelIdeal.Gen Cert.GcnSpec Cert.GcnMath
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- If region 5's result array holds `x`, then after region 7 its result array holds layer 3 of `x`. -/
theorem layer3 (c : Dev nD) {e : T S2x160000 .i32} {a2 : T S4x512x512 .f32} {a3 : T S4x512 .f32} {x : T S20000x512 .f32}
    (hL : Live (W14 m ρ c) e a2 a3) (hx : W14 m ρ c (Proc.devRef .tc main_v87) = x) :
    W18 m ρ c (Proc.devRef .tc main_v106)
      = kerLayer x (wsl3 a2) (bsl3 a3) (rowOf e) (colOf e) (normOf (rowOf e) (colOf e)) := by
  have LE := live15 m ρ c hL
  have LD := live16 m ρ c LE
  -- the features pass through the host stretch, which slices the layer's weight from the stack
  have hxE : W15 m ρ c (Proc.devRef .tc main_v87) = x := by
    refine Eq.trans ?_ hx
    show StableHlo.after hostOps6 (W14 m ρ c) _ = _
    generalize W14 m ρ c = W
    after_results_simp
  have hwE : W15 m ρ c (Proc.devRef .tc main_v89) = wsl3 a2 := by
    refine Eq.trans ?_ (congrArg wsl3 hL.w)
    show StableHlo.after hostOps6 (W14 m ρ c) _ = _
    generalize W14 m ρ c = W
    after_results_simp
    rfl
  -- the region of the dense product
  have hh : W16 m ρ c (Proc.devRef .tc main_v90) = mm x (wsl3 a2) := by
    refine ((W16_arr m ρ c 2).trans (Dense6.final (V15 m ρ) c)).trans ?_
    show mm (W15 m ρ c (Proc.devRef .tc main_v87)) (W15 m ρ c (Proc.devRef .tc main_v89)) = _
    rw [hxE, hwE]
  -- the propagation step and the bias row, by the host stretch after it
  have hg : W17 m ρ c (Proc.devRef .tc main_v102) = aggOf (mm x (wsl3 a2)) (rowOf e) (colOf e) (normOf (rowOf e) (colOf e)) := by
    have hraw : W17 m ρ c (Proc.devRef .tc main_v102) = aggOf (W16 m ρ c (Proc.devRef .tc main_v90)) (W16 m ρ c (Proc.devRef .tc main_v3))
        (W16 m ρ c (Proc.devRef .tc main_v6)) (W16 m ρ c (Proc.devRef .tc main_v30)) := by
      show StableHlo.after hostOps7 (W16 m ρ c) _ = _
      generalize W16 m ρ c = W
      after_results_simp
      rfl
    rw [hraw, hh, LD.row, LD.col, LD.norm]
  have hb : W17 m ρ c (Proc.devRef .tc main_v105) = shapeCast S1x512 (bsl3 a3) Facts₀.shapeCasts_S512_S1x512 := by
    refine Eq.trans ?_ (congrArg (fun z => shapeCast S1x512 (bsl3 z) Facts₀.shapeCasts_S512_S1x512) LD.b)
    show StableHlo.after hostOps7 (W16 m ρ c) _ = _
    generalize W16 m ρ c = W
    after_results_simp
    rfl
  -- the region of the bias and rectifier; the bias row is the bias vector given a leading unit axis
  refine ((W18_arr m ρ c 2).trans (Act7.final (V17 m ρ) c)).trans ?_
  show act (W17 m ρ c (Proc.devRef .tc main_v102)) (fun q => W17 m ρ c (Proc.devRef .tc main_v105) (ix2 (0 : Fin 1) q)) = _
  rw [hg, hb]
  unfold kerLayer
  refine congrArg (act _) (funext fun q => ?_)
  exact shapeCast_a_1a_apply _ _ 0 q

end Cert.KernelIdeal.Chain

end
-- ==== Proof.KernelRun.lean ====
/-
  The idealized kernel program's run with its result named: every weakly fair execution of @main terminates, nothing
  faulting, and in the final state the result buffer holds what the last boundary's contents say (the fold of the host
  stretches and of the eight regions' write-backs from the launch memory), the four arguments as launched.
-/
import proofs.«177265_j7464653160644_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result buffer and at the arguments: the last thread state holds every unscoped
    buffer at the last boundary's contents, and the result buffer and the arguments are unscoped. -/
theorem run_main : θ_run defs (onTc (τ := τ) (main (F := F))) ⟨m, fun _ => 0, ρ⟩ (fun r => ∀ c : Dev nD,
      r.2.mem ((c.tc : Thread nD τ).loc main_v106) = W18 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v106 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c)⟩)

end Cert.KernelIdeal.Run

end
-- ==== Proof.KernelValue.lean ====
/-
  The idealized kernel program's result as a function of its arguments: layer by layer, the features each region of the
  bias and rectifier leaves are the layer function of the features the layer read, so the last one leaves the four
  layers in turn of the node features as launched; and the run with the result buffer at that value, the arguments
  unchanged.
-/
import proofs.«177265_j7464653160644_1_alg».proof.Proof.Layer0
import proofs.«177265_j7464653160644_1_alg».proof.Proof.Layer1
import proofs.«177265_j7464653160644_1_alg».proof.Proof.Layer2
import proofs.«177265_j7464653160644_1_alg».proof.Proof.Layer3
import proofs.«177265_j7464653160644_1_alg».proof.Proof.KernelRun

noncomputable section

namespace Cert.KernelIdeal.Chain

open Cert.KernelIdeal Cert.KernelIdeal.Gen Cert.GcnSpec
open Idealize.ShloMosaic Idealize.ShloMosaic.TcCoe Idealize.SL.Sem

variable (m : (ℓ : Loc nD τ sig) → Buf (Elt Ideal) ℓ) (ρ : Dev nD → PrngReg)

/-- At the last boundary the result buffer holds the four layers of the arguments. -/
theorem result_eq (c : Dev nD) :
    W18 m ρ c (Proc.devRef .tc main_v106)
      = kerOut (m ((c.tc : Thread nD τ).loc main_arg0)) (m ((c.tc : Thread nD τ).loc main_arg1))
          (m ((c.tc : Thread nD τ).loc main_arg2)) (m ((c.tc : Thread nD τ).loc main_arg3)) := by
  have L3 := live3 m ρ c
  have L6 := live6 m ρ c (live5 m ρ c (live4 m ρ c L3))
  have L10 := live10 m ρ c (live9 m ρ c (live8 m ρ c (live7 m ρ c L6)))
  have L14 := live14 m ρ c (live13 m ρ c (live12 m ρ c (live11 m ρ c L10)))
  unfold kerOut
  exact layer3 m ρ c L14 (layer2 m ρ c L10 (layer1 m ρ c L6 (layer0 m ρ c)))

/-- The run, read: the result buffer at the four layers of the arguments, the arguments unchanged. -/
theorem run : θ_run defs (onTc (τ := τ) (main (F := Ideal))) ⟨m, fun _ => 0, ρ⟩ fun r => ∀ c : Dev nD,
      r.2.mem ((c.tc : Thread nD τ).loc main_v106)
        = kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_eq m ρ c), (h c).2⟩) (Cert.KernelIdeal.Run.run_main m ρ)

end Cert.KernelIdeal.Chain

end
-- ==== Proof.RefRun.lean ====
import proofs.«177265_j7464653160644_1_alg».proof.Proof.Gen.ReferenceIdeal
import Idealize.ShloMosaic.Lib.StableHlo.Run

/-! The reference program's @main as one straight line of host operations, and its run.

@main is printed in three consecutive windows; it calls `_where` once and `leaky_relu` four times
(`leaky_relu` itself calls `_where_0`). Below, each window is the list of its own operations with
every call replaced by the callee's operations over that call's buffer record, in program order;
`ops` is the three lists concatenated. `main_eq` says @main is exactly that line, and `run_main`
that every weakly fair execution of it terminates with each buffer at the fold of the operations'
results over the launch contents. -/

noncomputable section

namespace Cert.ReferenceIdeal.RefRun

open Cert.ReferenceIdeal Idealize.ShloMosaic Idealize.ShloMosaic.TcCoe Idealize.SL.Sem
open Cert.ReferenceIdeal.Facts₀

variable {F : FTy → Type} [FloatOps F]

/-- The first window's operations: the edge lists with the self loops appended, the degree
    scatter and the normalisation (with `_where`'s three operations inline), and the first layer up
    to the bias row's first broadcast. -/
abbrev opsA : List (HloOp τ sig (Elt F)) :=
  [ StableHlo.nullary main_v0 (iotaInDim S20000 32 0),
    StableHlo.unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v1 main_v2 rfl shapeCasts_S1x160000_S160000,
    StableHlo.binary main_v2 main_v0 main_v3 ((fun a b => concatenate S180000 0 [⟨S160000, a⟩, ⟨S20000, b⟩] concatenates_S160000_S20000_S180000_d0) : (⟨S160000, .i32⟩ : BufTy).Contents (Elt F) → (⟨S20000, .i32⟩ : BufTy).Contents (Elt F) → (⟨S180000, .i32⟩ : BufTy).Contents (Elt F)),
    StableHlo.unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v4 main_v5 rfl shapeCasts_S1x160000_S160000,
    StableHlo.binary main_v5 main_v0 main_v6 ((fun a b => concatenate S180000 0 [⟨S160000, a⟩, ⟨S20000, b⟩] concatenates_S160000_S20000_S180000_d0) : (⟨S160000, .i32⟩ : BufTy).Contents (Elt F) → (⟨S20000, .i32⟩ : BufTy).Contents (Elt F) → (⟨S180000, .i32⟩ : BufTy).Contents (Elt F)),
    StableHlo.nullary main_cst (constant S_ .f32 0x3F800000#32),
    StableHlo.unary main_cst main_v7 (broadcastInDim S180000 ![] bcast_S_S180000 : (⟨S_, .f32⟩ : BufTy).Contents (Elt F) → (⟨S180000, .f32⟩ : BufTy).Contents (Elt F)),
    StableHlo.nullary main_cst_0 (constant S_ .f32 0x00000000#32),
    StableHlo.unary main_cst_0 main_v8 (broadcastInDim S20000 ![] bcast_S_S20000 : (⟨S_, .f32⟩ : BufTy).Contents (Elt F) → (⟨S20000, .f32⟩ : BufTy).Contents (Elt F)),
    StableHlo.unary main_v6 main_v9 (broadcastInDim S180000x1 ![0] bcast_S180000_S180000x1_0 : (⟨S180000, .i32⟩ : BufTy).Contents (Elt F) → (⟨S180000x1, .i32⟩ : BufTy).Contents (Elt F)),
    StableHlo.ternary main_v8 main_v9 main_v7 main_v10 ((fun x i u => Host.scatterAdd scatter_S20000_S180000x1_S180000_n_0_0_1 x i u) : (⟨S20000, .f32⟩ : BufTy).Contents (Elt F) → (⟨S180000x1, .i32⟩ : BufTy).Contents (Elt F) → (⟨S180000, .f32⟩ : BufTy).Contents (Elt F) → (⟨S20000, .f32⟩ : BufTy).Contents (Elt F)),
    StableHlo.nullary main_cst_1 (constant S_ .f32 0x00000000#32),
    StableHlo.unary main_cst_1 main_v11 (broadcastInDim S20000 ![] bcast_S_S20000 : (⟨S_, .f32⟩ : BufTy).Contents (Elt F) → (⟨S20000, .f32⟩ : BufTy).Contents (Elt F)),
    StableHlo.binary main_v10 main_v11 main_v12 (cmpf .ogt : (⟨S20000, .f32⟩ : BufTy).Contents (Elt F) → (⟨S20000, .f32⟩ : BufTy).Contents (Elt F) → (⟨S20000, .i1⟩ : BufTy).Contents (Elt F)),
    StableHlo.unary main_v10 main_v13 (Host.rsqrt : (⟨S20000, .f32⟩ : BufTy).Contents (Elt F) → (⟨S20000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S20000 ![] bcast_S_S20000),
    StableHlo.TRef.ternary (.of main_v12) (.of main_v13) main_call0.v1 main_call0.v2 select,
    StableHlo.nullary main_c (constantI S_ 32 0#32),
    StableHlo.unary main_c main_v15 (broadcastInDim S180000 ![] bcast_S_S180000 : (⟨S_, .i32⟩ : BufTy).Contents (Elt F) → (⟨S180000, .i32⟩ : BufTy).Contents (Elt F)),
    StableHlo.binary main_v3 main_v15 main_v16 (cmpi .slt : (⟨S180000, .i32⟩ : BufTy).Contents (Elt F) → (⟨S180000, .i32⟩ : BufTy).Contents (Elt F) → (⟨S180000, .i1⟩ : BufTy).Contents (Elt F)),
    StableHlo.nullary main_c_3 (constantI S_ 32 20000#32),
    StableHlo.unary main_c_3 main_v17 (broadcastInDim S180000 ![] bcast_S_S180000 : (⟨S_, .i32⟩ : BufTy).Contents (Elt F) → (⟨S180000, .i32⟩ : BufTy).Contents (Elt F)),
    StableHlo.binary main_v3 main_v17 main_v18 (addi : (⟨S180000, .i32⟩ : BufTy).Contents (Elt F) → (⟨S180000, .i32⟩ : BufTy).Contents (Elt F) → (⟨S180000, .i32⟩ : BufTy).Contents (Elt F)),
    StableHlo.ternary main_v16 main_v18 main_v3 main_v19 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v19 main_v20 (broadcastInDim S180000x1 ![0] bcast_S180000_S180000x1_0 : (⟨S180000, .i32⟩ : BufTy).Contents (Elt F) → (⟨S180000x1, .i32⟩ : BufTy).Contents (Elt F)),
    StableHlo.binary main_v14 main_v20 main_v21 ((fun x i => Host.gather gather_S20000_S180000x1_S180000_n_0_n_n_0_1_1 x i) : (⟨S20000, .f32⟩ : BufTy).Contents (Elt F) → (⟨S180000x1, .i32⟩ : BufTy).Contents (Elt F) → (⟨S180000, .f32⟩ : BufTy).Contents (Elt F)),
    StableHlo.nullary main_c_4 (constantI S_ 32 0#32),
    StableHlo.unary main_c_4 main_v22 (broadcastInDim S180000 ![] bcast_S_S180000 : (⟨S_, .i32⟩ : BufTy).Contents (Elt F) → (⟨S180000, .i32⟩ : BufTy).Contents (Elt F)),
    StableHlo.binary main_v6 main_v22 main_v23 (cmpi .slt : (⟨S180000, .i32⟩ : BufTy).Contents (Elt F) → (⟨S180000, .i32⟩ : BufTy).Contents (Elt F) → (⟨S180000, .i1⟩ : BufTy).Contents (Elt F)),
    StableHlo.nullary main_c_5 (constantI S_ 32 20000#32),
    StableHlo.unary main_c_5 main_v24 (broadcastInDim S180000 ![] bcast_S_S180000 : (⟨S_, .i32⟩ : BufTy).Contents (Elt F) → (⟨S180000, .i32⟩ : BufTy).Contents (Elt F)),
    StableHlo.binary main_v6 main_v24 main_v25 (addi : (⟨S180000, .i32⟩ : BufTy).Contents (Elt F) → (⟨S180000, .i32⟩ : BufTy).Contents (Elt F) → (⟨S180000, .i32⟩ : BufTy).Contents (Elt F)),
    StableHlo.ternary main_v23 main_v25 main_v6 main_v26 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v26 main_v27 (broadcastInDim S180000x1 ![0] bcast_S180000_S180000x1_0 : (⟨S180000, .i32⟩ : BufTy).Contents (Elt F) → (⟨S180000x1, .i32⟩ : BufTy).Contents (Elt F)),
    StableHlo.binary main_v14 main_v27 main_v28 ((fun x i => Host.gather gather_S20000_S180000x1_S180000_n_0_n_n_0_1_1 x i) : (⟨S20000, .f32⟩ : BufTy).Contents (Elt F) → (⟨S180000x1, .i32⟩ : BufTy).Contents (Elt F) → (⟨S180000, .f32⟩ : BufTy).Contents (Elt F)),
    StableHlo.binary main_v21 main_v28 main_v29 (mulf : (⟨S180000, .f32⟩ : BufTy).Contents (Elt F) → (⟨S180000, .f32⟩ : BufTy).Contents (Elt F) → (⟨S180000, .f32⟩ : BufTy).Contents (Elt F)),
    StableHlo.unary main_v29 main_v30 (broadcastInDim S180000x1 ![0] bcast_S180000_S180000x1_0 : (⟨S180000, .f32⟩ : BufTy).Contents (Elt F) → (⟨S180000x1, .f32⟩ : BufTy).Contents (Elt F)),
    StableHlo.unary main_arg2 main_v31 ((extractStridedSlice S1x512x512 ![0, 0, 0] · slices_S4x512x512_S1x512x512_0_0_0) : (⟨S4x512x512, .f32⟩ : BufTy).Contents (Elt F) → (⟨S1x512x512, .f32⟩ : BufTy).Contents (Elt F)),
    StableHlo.reshape main_v31 main_v32 rfl shapeCasts_S1x512x512_S512x512,
    StableHlo.binary main_arg0 main_v32 main_v33 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_6 (constantI S_ 32 0#32),
    StableHlo.unary main_c_6 main_v34 (broadcastInDim S180000 ![] bcast_S_S180000 : (⟨S_, .i32⟩ : BufTy).Contents (Elt F) → (⟨S180000, .i32⟩ : BufTy).Contents (Elt F)),
    StableHlo.binary main_v3 main_v34 main_v35 (cmpi .slt : (⟨S180000, .i32⟩ : BufTy).Contents (Elt F) → (⟨S180000, .i32⟩ : BufTy).Contents (Elt F) → (⟨S180000, .i1⟩ : BufTy).Contents (Elt F)),
    StableHlo.nullary main_c_7 (constantI S_ 32 20000#32),
    StableHlo.unary main_c_7 main_v36 (broadcastInDim S180000 ![] bcast_S_S180000 : (⟨S_, .i32⟩ : BufTy).Contents (Elt F) → (⟨S180000, .i32⟩ : BufTy).Contents (Elt F)),
    StableHlo.binary main_v3 main_v36 main_v37 (addi : (⟨S180000, .i32⟩ : BufTy).Contents (Elt F) → (⟨S180000, .i32⟩ : BufTy).Contents (Elt F) → (⟨S180000, .i32⟩ : BufTy).Contents (Elt F)),
    StableHlo.ternary main_v35 main_v37 main_v3 main_v38 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v38 main_v39 (broadcastInDim S180000x1 ![0] bcast_S180000_S180000x1_0 : (⟨S180000, .i32⟩ : BufTy).Contents (Elt F) → (⟨S180000x1, .i32⟩ : BufTy).Contents (Elt F)),
    StableHlo.binary main_v33 main_v39 main_v40 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v41 (broadcastInDim S180000x512 ![0, 1] bcast_S180000x1_S180000x512_0_1 : (⟨S180000x1, .f32⟩ : BufTy).Contents (Elt F) → (⟨S180000x512, .f32⟩ : BufTy).Contents (Elt F)),
    StableHlo.binary main_v40 main_v41 main_v42 (mulf : (⟨S180000x512, .f32⟩ : BufTy).Contents (Elt F) → (⟨S180000x512, .f32⟩ : BufTy).Contents (Elt F) → (⟨S180000x512, .f32⟩ : BufTy).Contents (Elt F)),
    StableHlo.nullary main_cst_8 (constant S_ .f32 0x00000000#32),
    StableHlo.unary main_cst_8 main_v43 (broadcastInDim S20000x512 ![] bcast_S_S20000x512 : (⟨S_, .f32⟩ : BufTy).Contents (Elt F) → (⟨S20000x512, .f32⟩ : BufTy).Contents (Elt F)),
    StableHlo.unary main_v6 main_v44 (broadcastInDim S180000x1 ![0] bcast_S180000_S180000x1_0 : (⟨S180000, .i32⟩ : BufTy).Contents (Elt F) → (⟨S180000x1, .i32⟩ : BufTy).Contents (Elt F)),
    StableHlo.ternary main_v43 main_v44 main_v42 main_v45 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v46 ((extractStridedSlice S1x512 ![0, 0] · slices_S4x512_S1x512_0_0) : (⟨S4x512, .f32⟩ : BufTy).Contents (Elt F) → (⟨S1x512, .f32⟩ : BufTy).Contents (Elt F)),
    StableHlo.reshape main_v46 main_v47 rfl shapeCasts_S1x512_S512,
    StableHlo.unary main_v47 main_v48 (broadcastInDim S1x512 ![1] bcast_S512_S1x512_1 : (⟨S512, .f32⟩ : BufTy).Contents (Elt F) → (⟨S1x512, .f32⟩ : BufTy).Contents (Elt F)) ]

/-- The second window's operations: the rest of layer one (with `leaky_relu`'s seven operations
    inline), layers two and three, and the start of layer four. -/
abbrev opsB : List (HloOp τ sig (Elt F)) :=
  [ StableHlo.unary main_v48 main_v49 (broadcastInDim S20000x512 ![0, 1] bcast_S1x512_S20000x512_0_1 : (⟨S1x512, .f32⟩ : BufTy).Contents (Elt F) → (⟨S20000x512, .f32⟩ : BufTy).Contents (Elt F)),
    StableHlo.binary main_v45 main_v49 main_v50 (addf : (⟨S20000x512, .f32⟩ : BufTy).Contents (Elt F) → (⟨S20000x512, .f32⟩ : BufTy).Contents (Elt F) → (⟨S20000x512, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S20000x512 ![] bcast_S_S20000x512),
    StableHlo.TRef.binary (.of main_v50) main_call1.v0 main_call1.v1 (cmpf .oge),
    StableHlo.TRef.unary (.of main_cst_9) main_call1.v2 id,
    StableHlo.TRef.unary main_call1.v2 main_call1.v3 (broadcastInDim S20000x512 ![] bcast_S_S20000x512),
    StableHlo.TRef.binary main_call1.v3 (.of main_v50) main_call1.v4 mulf,
    StableHlo.TRef.ternary main_call1.v1 (.of main_v50) main_call1.v4 main_call1.call0.v0 select,
    StableHlo.unary main_arg2 main_v52 ((extractStridedSlice S1x512x512 ![1, 0, 0] · slices_S4x512x512_S1x512x512_1_0_0) : (⟨S4x512x512, .f32⟩ : BufTy).Contents (Elt F) → (⟨S1x512x512, .f32⟩ : BufTy).Contents (Elt F)),
    StableHlo.reshape main_v52 main_v53 rfl shapeCasts_S1x512x512_S512x512,
    StableHlo.binary main_v51 main_v53 main_v54 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_10 (constantI S_ 32 0#32),
    StableHlo.unary main_c_10 main_v55 (broadcastInDim S180000 ![] bcast_S_S180000 : (⟨S_, .i32⟩ : BufTy).Contents (Elt F) → (⟨S180000, .i32⟩ : BufTy).Contents (Elt F)),
    StableHlo.binary main_v3 main_v55 main_v56 (cmpi .slt : (⟨S180000, .i32⟩ : BufTy).Contents (Elt F) → (⟨S180000, .i32⟩ : BufTy).Contents (Elt F) → (⟨S180000, .i1⟩ : BufTy).Contents (Elt F)),
    StableHlo.nullary main_c_11 (constantI S_ 32 20000#32),
    StableHlo.unary main_c_11 main_v57 (broadcastInDim S180000 ![] bcast_S_S180000 : (⟨S_, .i32⟩ : BufTy).Contents (Elt F) → (⟨S180000, .i32⟩ : BufTy).Contents (Elt F)),
    StableHlo.binary main_v3 main_v57 main_v58 (addi : (⟨S180000, .i32⟩ : BufTy).Contents (Elt F) → (⟨S180000, .i32⟩ : BufTy).Contents (Elt F) → (⟨S180000, .i32⟩ : BufTy).Contents (Elt F)),
    StableHlo.ternary main_v56 main_v58 main_v3 main_v59 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v59 main_v60 (broadcastInDim S180000x1 ![0] bcast_S180000_S180000x1_0 : (⟨S180000, .i32⟩ : BufTy).Contents (Elt F) → (⟨S180000x1, .i32⟩ : BufTy).Contents (Elt F)),
    StableHlo.binary main_v54 main_v60 main_v61 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v62 (broadcastInDim S180000x512 ![0, 1] bcast_S180000x1_S180000x512_0_1 : (⟨S180000x1, .f32⟩ : BufTy).Contents (Elt F) → (⟨S180000x512, .f32⟩ : BufTy).Contents (Elt F)),
    StableHlo.binary main_v61 main_v62 main_v63 (mulf : (⟨S180000x512, .f32⟩ : BufTy).Contents (Elt F) → (⟨S180000x512, .f32⟩ : BufTy).Contents (Elt F) → (⟨S180000x512, .f32⟩ : BufTy).Contents (Elt F)),
    StableHlo.nullary main_cst_12 (constant S_ .f32 0x00000000#32),
    StableHlo.unary main_cst_12 main_v64 (broadcastInDim S20000x512 ![] bcast_S_S20000x512 : (⟨S_, .f32⟩ : BufTy).Contents (Elt F) → (⟨S20000x512, .f32⟩ : BufTy).Contents (Elt F)),
    StableHlo.unary main_v6 main_v65 (broadcastInDim S180000x1 ![0] bcast_S180000_S180000x1_0 : (⟨S180000, .i32⟩ : BufTy).Contents (Elt F) → (⟨S180000x1, .i32⟩ : BufTy).Contents (Elt F)),
    StableHlo.ternary main_v64 main_v65 main_v63 main_v66 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v67 ((extractStridedSlice S1x512 ![1, 0] · slices_S4x512_S1x512_1_0) : (⟨S4x512, .f32⟩ : BufTy).Contents (Elt F) → (⟨S1x512, .f32⟩ : BufTy).Contents (Elt F)),
    StableHlo.reshape main_v67 main_v68 rfl shapeCasts_S1x512_S512,
    StableHlo.unary main_v68 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S20000x512 ![0, 1] bcast_S1x512_S20000x512_0_1 : (⟨S1x512, .f32⟩ : BufTy).Contents (Elt F) → (⟨S20000x512, .f32⟩ : BufTy).Contents (Elt F)),
    StableHlo.binary main_v66 main_v70 main_v71 (addf : (⟨S20000x512, .f32⟩ : BufTy).Contents (Elt F) → (⟨S20000x512, .f32⟩ : BufTy).Contents (Elt F) → (⟨S20000x512, .f32⟩ : BufTy).Contents (Elt F)),
    StableHlo.nullary main_cst_13 (constant S_ .f32 0x3C23D70A#32),
    StableHlo.TRef.nullary main_call2.cst (constant S_ .f32 0x00000000#32),
    StableHlo.TRef.unary main_call2.cst main_call2.v0 (broadcastInDim S20000x512 ![] bcast_S_S20000x512),
    StableHlo.TRef.binary (.of main_v71) main_call2.v0 main_call2.v1 (cmpf .oge),
    StableHlo.TRef.unary (.of main_cst_13) main_call2.v2 id,
    StableHlo.TRef.unary main_call2.v2 main_call2.v3 (broadcastInDim S20000x512 ![] bcast_S_S20000x512),
    StableHlo.TRef.binary main_call2.v3 (.of main_v71) main_call2.v4 mulf,
    StableHlo.TRef.ternary main_call2.v1 (.of main_v71) main_call2.v4 main_call2.call0.v0 select,
    StableHlo.unary main_arg2 main_v73 ((extractStridedSlice S1x512x512 ![2, 0, 0] · slices_S4x512x512_S1x512x512_2_0_0) : (⟨S4x512x512, .f32⟩ : BufTy).Contents (Elt F) → (⟨S1x512x512, .f32⟩ : BufTy).Contents (Elt F)),
    StableHlo.reshape main_v73 main_v74 rfl shapeCasts_S1x512x512_S512x512,
    StableHlo.binary main_v72 main_v74 main_v75 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_14 (constantI S_ 32 0#32),
    StableHlo.unary main_c_14 main_v76 (broadcastInDim S180000 ![] bcast_S_S180000 : (⟨S_, .i32⟩ : BufTy).Contents (Elt F) → (⟨S180000, .i32⟩ : BufTy).Contents (Elt F)),
    StableHlo.binary main_v3 main_v76 main_v77 (cmpi .slt : (⟨S180000, .i32⟩ : BufTy).Contents (Elt F) → (⟨S180000, .i32⟩ : BufTy).Contents (Elt F) → (⟨S180000, .i1⟩ : BufTy).Contents (Elt F)),
    StableHlo.nullary main_c_15 (constantI S_ 32 20000#32),
    StableHlo.unary main_c_15 main_v78 (broadcastInDim S180000 ![] bcast_S_S180000 : (⟨S_, .i32⟩ : BufTy).Contents (Elt F) → (⟨S180000, .i32⟩ : BufTy).Contents (Elt F)),
    StableHlo.binary main_v3 main_v78 main_v79 (addi : (⟨S180000, .i32⟩ : BufTy).Contents (Elt F) → (⟨S180000, .i32⟩ : BufTy).Contents (Elt F) → (⟨S180000, .i32⟩ : BufTy).Contents (Elt F)),
    StableHlo.ternary main_v77 main_v79 main_v3 main_v80 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v80 main_v81 (broadcastInDim S180000x1 ![0] bcast_S180000_S180000x1_0 : (⟨S180000, .i32⟩ : BufTy).Contents (Elt F) → (⟨S180000x1, .i32⟩ : BufTy).Contents (Elt F)),
    StableHlo.binary main_v75 main_v81 main_v82 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v83 (broadcastInDim S180000x512 ![0, 1] bcast_S180000x1_S180000x512_0_1 : (⟨S180000x1, .f32⟩ : BufTy).Contents (Elt F) → (⟨S180000x512, .f32⟩ : BufTy).Contents (Elt F)),
    StableHlo.binary main_v82 main_v83 main_v84 (mulf : (⟨S180000x512, .f32⟩ : BufTy).Contents (Elt F) → (⟨S180000x512, .f32⟩ : BufTy).Contents (Elt F) → (⟨S180000x512, .f32⟩ : BufTy).Contents (Elt F)),
    StableHlo.nullary main_cst_16 (constant S_ .f32 0x00000000#32),
    StableHlo.unary main_cst_16 main_v85 (broadcastInDim S20000x512 ![] bcast_S_S20000x512 : (⟨S_, .f32⟩ : BufTy).Contents (Elt F) → (⟨S20000x512, .f32⟩ : BufTy).Contents (Elt F)),
    StableHlo.unary main_v6 main_v86 (broadcastInDim S180000x1 ![0] bcast_S180000_S180000x1_0 : (⟨S180000, .i32⟩ : BufTy).Contents (Elt F) → (⟨S180000x1, .i32⟩ : BufTy).Contents (Elt F)),
    StableHlo.ternary main_v85 main_v86 main_v84 main_v87 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v88 ((extractStridedSlice S1x512 ![2, 0] · slices_S4x512_S1x512_2_0) : (⟨S4x512, .f32⟩ : BufTy).Contents (Elt F) → (⟨S1x512, .f32⟩ : BufTy).Contents (Elt F)),
    StableHlo.reshape main_v88 main_v89 rfl shapeCasts_S1x512_S512,
    StableHlo.unary main_v89 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S20000x512 ![0, 1] bcast_S1x512_S20000x512_0_1 : (⟨S1x512, .f32⟩ : BufTy).Contents (Elt F) → (⟨S20000x512, .f32⟩ : BufTy).Contents (Elt F)),
    StableHlo.binary main_v87 main_v91 main_v92 (addf : (⟨S20000x512, .f32⟩ : BufTy).Contents (Elt F) → (⟨S20000x512, .f32⟩ : BufTy).Contents (Elt F) → (⟨S20000x512, .f32⟩ : BufTy).Contents (Elt F)),
    StableHlo.nullary main_cst_17 (constant S_ .f32 0x3C23D70A#32),
    StableHlo.TRef.nullary main_call3.cst (constant S_ .f32 0x00000000#32),
    StableHlo.TRef.unary main_call3.cst main_call3.v0 (broadcastInDim S20000x512 ![] bcast_S_S20000x512),
    StableHlo.TRef.binary (.of main_v92) main_call3.v0 main_call3.v1 (cmpf .oge),
    StableHlo.TRef.unary (.of main_cst_17) main_call3.v2 id,
    StableHlo.TRef.unary main_call3.v2 main_call3.v3 (broadcastInDim S20000x512 ![] bcast_S_S20000x512),
    StableHlo.TRef.binary main_call3.v3 (.of main_v92) main_call3.v4 mulf,
    StableHlo.TRef.ternary main_call3.v1 (.of main_v92) main_call3.v4 main_call3.call0.v0 select,
    StableHlo.unary main_arg2 main_v94 ((extractStridedSlice S1x512x512 ![3, 0, 0] · slices_S4x512x512_S1x512x512_3_0_0) : (⟨S4x512x512, .f32⟩ : BufTy).Contents (Elt F) → (⟨S1x512x512, .f32⟩ : BufTy).Contents (Elt F)),
    StableHlo.reshape main_v94 main_v95 rfl shapeCasts_S1x512x512_S512x512,
    StableHlo.binary main_v93 main_v95 main_v96 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_18 (constantI S_ 32 0#32),
    StableHlo.unary main_c_18 main_v97 (broadcastInDim S180000 ![] bcast_S_S180000 : (⟨S_, .i32⟩ : BufTy).Contents (Elt F) → (⟨S180000, .i32⟩ : BufTy).Contents (Elt F)),
    StableHlo.binary main_v3 main_v97 main_v98 (cmpi .slt : (⟨S180000, .i32⟩ : BufTy).Contents (Elt F) → (⟨S180000, .i32⟩ : BufTy).Contents (Elt F) → (⟨S180000, .i1⟩ : BufTy).Contents (Elt F)) ]

/-- The third window's operations: the rest of layer four. -/
abbrev opsC : List (HloOp τ sig (Elt F)) :=
  [ StableHlo.nullary main_c_19 (constantI S_ 32 20000#32),
    StableHlo.unary main_c_19 main_v99 (broadcastInDim S180000 ![] bcast_S_S180000 : (⟨S_, .i32⟩ : BufTy).Contents (Elt F) → (⟨S180000, .i32⟩ : BufTy).Contents (Elt F)),
    StableHlo.binary main_v3 main_v99 main_v100 (addi : (⟨S180000, .i32⟩ : BufTy).Contents (Elt F) → (⟨S180000, .i32⟩ : BufTy).Contents (Elt F) → (⟨S180000, .i32⟩ : BufTy).Contents (Elt F)),
    StableHlo.ternary main_v98 main_v100 main_v3 main_v101 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v101 main_v102 (broadcastInDim S180000x1 ![0] bcast_S180000_S180000x1_0 : (⟨S180000, .i32⟩ : BufTy).Contents (Elt F) → (⟨S180000x1, .i32⟩ : BufTy).Contents (Elt F)),
    StableHlo.binary main_v96 main_v102 main_v103 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v104 (broadcastInDim S180000x512 ![0, 1] bcast_S180000x1_S180000x512_0_1 : (⟨S180000x1, .f32⟩ : BufTy).Contents (Elt F) → (⟨S180000x512, .f32⟩ : BufTy).Contents (Elt F)),
    StableHlo.binary main_v103 main_v104 main_v105 (mulf : (⟨S180000x512, .f32⟩ : BufTy).Contents (Elt F) → (⟨S180000x512, .f32⟩ : BufTy).Contents (Elt F) → (⟨S180000x512, .f32⟩ : BufTy).Contents (Elt F)),
    StableHlo.nullary main_cst_20 (constant S_ .f32 0x00000000#32),
    StableHlo.unary main_cst_20 main_v106 (broadcastInDim S20000x512 ![] bcast_S_S20000x512 : (⟨S_, .f32⟩ : BufTy).Contents (Elt F) → (⟨S20000x512, .f32⟩ : BufTy).Contents (Elt F)),
    StableHlo.unary main_v6 main_v107 (broadcastInDim S180000x1 ![0] bcast_S180000_S180000x1_0 : (⟨S180000, .i32⟩ : BufTy).Contents (Elt F) → (⟨S180000x1, .i32⟩ : BufTy).Contents (Elt F)),
    StableHlo.ternary main_v106 main_v107 main_v105 main_v108 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v109 ((extractStridedSlice S1x512 ![3, 0] · slices_S4x512_S1x512_3_0) : (⟨S4x512, .f32⟩ : BufTy).Contents (Elt F) → (⟨S1x512, .f32⟩ : BufTy).Contents (Elt F)),
    StableHlo.reshape main_v109 main_v110 rfl shapeCasts_S1x512_S512,
    StableHlo.unary main_v110 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S20000x512 ![0, 1] bcast_S1x512_S20000x512_0_1 : (⟨S1x512, .f32⟩ : BufTy).Contents (Elt F) → (⟨S20000x512, .f32⟩ : BufTy).Contents (Elt F)),
    StableHlo.binary main_v108 main_v112 main_v113 (addf : (⟨S20000x512, .f32⟩ : BufTy).Contents (Elt F) → (⟨S20000x512, .f32⟩ : BufTy).Contents (Elt F) → (⟨S20000x512, .f32⟩ : BufTy).Contents (Elt F)),
    StableHlo.nullary main_cst_21 (constant S_ .f32 0x3C23D70A#32),
    StableHlo.TRef.nullary main_call4.cst (constant S_ .f32 0x00000000#32),
    StableHlo.TRef.unary main_call4.cst main_call4.v0 (broadcastInDim S20000x512 ![] bcast_S_S20000x512),
    StableHlo.TRef.binary (.of main_v113) main_call4.v0 main_call4.v1 (cmpf .oge),
    StableHlo.TRef.unary (.of main_cst_21) main_call4.v2 id,
    StableHlo.TRef.unary main_call4.v2 main_call4.v3 (broadcastInDim S20000x512 ![] bcast_S_S20000x512),
    StableHlo.TRef.binary main_call4.v3 (.of main_v113) main_call4.v4 mulf,
    StableHlo.TRef.ternary main_call4.v1 (.of main_v113) main_call4.v4 main_call4.call0.v0 select ]

/-- @main's operations in program order, each call's body at its call site. -/
abbrev ops : List (HloOp τ sig (Elt F)) := opsA ++ (opsB ++ opsC)

-- one bind re-associated per statement of the window
set_option maxRecDepth 8192 in
set_option maxHeartbeats 4000000 in
theorem main_part0_eq (c : Dev nD) : main_part0 (F := F) c = StableHlo.seq opsA := by
  simp only [main_part0, fn_where.body, StableHlo.seq, bind_assoc, pure_bind]
  rfl

set_option maxRecDepth 8192 in
set_option maxHeartbeats 4000000 in
theorem main_part1_eq (c : Dev nD) : main_part1 (F := F) c = StableHlo.seq opsB := by
  simp only [main_part1, fn_leaky_relu.body, fn_where_0.body, StableHlo.seq, bind_assoc, pure_bind]
  rfl

set_option maxRecDepth 8192 in
set_option maxHeartbeats 4000000 in
theorem main_part2_eq (c : Dev nD) : main_part2 (F := F) c = StableHlo.seq opsC := by
  simp only [main_part2, fn_leaky_relu.body, fn_where_0.body, StableHlo.seq, bind_assoc, pure_bind]

/-- @main is that straight line: its three windows in order are the three lists in order, and lines
    run one after the other are their concatenation run as one. -/
theorem main_eq (c : Dev nD) : main (F := F) c = StableHlo.seq ops := by
  simp only [ops, StableHlo.seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

open Idealize.ShloMosaic.StableHlo in
set_option maxRecDepth 8192 in
theorem opsA_sub : (opsA : List (HloOp τ sig (Elt F))).Forall fun op => op.bufs ⊆ StableHlo.tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    reshape_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., unary_bufs_sub ..⟩

open Idealize.ShloMosaic.StableHlo in
set_option maxRecDepth 8192 in
theorem opsB_sub : (opsB : List (HloOp τ sig (Elt F))).Forall fun op => op.bufs ⊆ StableHlo.tcRefs τ sig :=
  ⟨unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., reshape_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    reshape_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., binary_bufs_sub .., nullary_bufs_sub .., unary_bufs_sub .., binary_bufs_sub ..⟩

open Idealize.ShloMosaic.StableHlo in
set_option maxRecDepth 8192 in
theorem opsC_sub : (opsC : List (HloOp τ sig (Elt F))).Forall fun op => op.bufs ⊆ StableHlo.tcRefs τ sig :=
  ⟨nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem ops_sub : (ops : List (HloOp τ sig (Elt F))).Forall fun op => op.bufs ⊆ StableHlo.tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

set_option maxRecDepth 8192 in
set_option maxHeartbeats 4000000 in
/-- On the device, for any float values, from any memory with zero counters: every weakly fair
    execution of @main terminates, and every final state has each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefValue.lean ====
import proofs.«177265_j7464653160644_1_alg».proof.Proof.RefRun
import proofs.«177265_j7464653160644_1_alg».proof.Proof.HostSpec
import Idealize.ShloMosaic.Lib.Pipeline.Frame

/-! The reference's run read back, at the ideal instance: the fold of @main's operations at the result
buffer is `Cert.GcnSpec.refOut` of the four arguments, and the arguments keep their contents.

The operation list is cut into five stretches: the preamble (the edge lists and the normalisation)
and the four layers. Each stretch's effect on the few buffers that a later stretch reads is stated
from ANY contents `V`: the buffer it computes as the specification's function of what `V` holds, the
buffers it does not write as what `V` holds. The whole fold is the stretches' folds composed. -/

noncomputable section

namespace Cert.ReferenceIdeal.RefRun

open Cert.ReferenceIdeal Idealize.ShloMosaic Idealize.ShloMosaic.TcCoe Idealize.SL.Sem
open Cert.ReferenceIdeal.Facts₀ Cert.GcnSpec
open Idealize.ShloMosaic.StableHlo (after after_cons after_nil)

section Stretches
variable {F : FTy → Type} [FloatOps F]

/-- The preamble: the edges' sources and targets with the self loops appended, the degrees, the
    nodes' factors and the edges' normalisation. -/
def pre : List (HloOp τ sig (Elt F)) :=
  [ StableHlo.nullary main_v0 (iotaInDim S20000 32 0),
    StableHlo.unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v1 main_v2 rfl shapeCasts_S1x160000_S160000,
    StableHlo.binary main_v2 main_v0 main_v3 ((fun a b => concatenate S180000 0 [⟨S160000, a⟩, ⟨S20000, b⟩] concatenates_S160000_S20000_S180000_d0) : (⟨S160000, .i32⟩ : BufTy).Contents (Elt F) → (⟨S20000, .i32⟩ : BufTy).Contents (Elt F) → (⟨S180000, .i32⟩ : BufTy).Contents (Elt F)),
    StableHlo.unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v4 main_v5 rfl shapeCasts_S1x160000_S160000,
    StableHlo.binary main_v5 main_v0 main_v6 ((fun a b => concatenate S180000 0 [⟨S160000, a⟩, ⟨S20000, b⟩] concatenates_S160000_S20000_S180000_d0) : (⟨S160000, .i32⟩ : BufTy).Contents (Elt F) → (⟨S20000, .i32⟩ : BufTy).Contents (Elt F) → (⟨S180000, .i32⟩ : BufTy).Contents (Elt F)),
    StableHlo.nullary main_cst (constant S_ .f32 0x3F800000#32),
    StableHlo.unary main_cst main_v7 (broadcastInDim S180000 ![] bcast_S_S180000 : (⟨S_, .f32⟩ : BufTy).Contents (Elt F) → (⟨S180000, .f32⟩ : BufTy).Contents (Elt F)),
    StableHlo.nullary main_cst_0 (constant S_ .f32 0x00000000#32),
    StableHlo.unary main_cst_0 main_v8 (broadcastInDim S20000 ![] bcast_S_S20000 : (⟨S_, .f32⟩ : BufTy).Contents (Elt F) → (⟨S20000, .f32⟩ : BufTy).Contents (Elt F)),
    StableHlo.unary main_v6 main_v9 (broadcastInDim S180000x1 ![0] bcast_S180000_S180000x1_0 : (⟨S180000, .i32⟩ : BufTy).Contents (Elt F) → (⟨S180000x1, .i32⟩ : BufTy).Contents (Elt F)),
    StableHlo.ternary main_v8 main_v9 main_v7 main_v10 ((fun x i u => Host.scatterAdd scatter_S20000_S180000x1_S180000_n_0_0_1 x i u) : (⟨S20000, .f32⟩ : BufTy).Contents (Elt F) → (⟨S180000x1, .i32⟩ : BufTy).Contents (Elt F) → (⟨S180000, .f32⟩ : BufTy).Contents (Elt F) → (⟨S20000, .f32⟩ : BufTy).Contents (Elt F)),
    StableHlo.nullary main_cst_1 (constant S_ .f32 0x00000000#32),
    StableHlo.unary main_cst_1 main_v11 (broadcastInDim S20000 ![] bcast_S_S20000 : (⟨S_, .f32⟩ : BufTy).Contents (Elt F) → (⟨S20000, .f32⟩ : BufTy).Contents (Elt F)),
    StableHlo.binary main_v10 main_v11 main_v12 (cmpf .ogt : (⟨S20000, .f32⟩ : BufTy).Contents (Elt F) → (⟨S20000, .f32⟩ : BufTy).Contents (Elt F) → (⟨S20000, .i1⟩ : BufTy).Contents (Elt F)),
    StableHlo.unary main_v10 main_v13 (Host.rsqrt : (⟨S20000, .f32⟩ : BufTy).Contents (Elt F) → (⟨S20000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S20000 ![] bcast_S_S20000),
    StableHlo.TRef.ternary (.of main_v12) (.of main_v13) main_call0.v1 main_call0.v2 select,
    StableHlo.nullary main_c (constantI S_ 32 0#32),
    StableHlo.unary main_c main_v15 (broadcastInDim S180000 ![] bcast_S_S180000 : (⟨S_, .i32⟩ : BufTy).Contents (Elt F) → (⟨S180000, .i32⟩ : BufTy).Contents (Elt F)),
    StableHlo.binary main_v3 main_v15 main_v16 (cmpi .slt : (⟨S180000, .i32⟩ : BufTy).Contents (Elt F) → (⟨S180000, .i32⟩ : BufTy).Contents (Elt F) → (⟨S180000, .i1⟩ : BufTy).Contents (Elt F)),
    StableHlo.nullary main_c_3 (constantI S_ 32 20000#32),
    StableHlo.unary main_c_3 main_v17 (broadcastInDim S180000 ![] bcast_S_S180000 : (⟨S_, .i32⟩ : BufTy).Contents (Elt F) → (⟨S180000, .i32⟩ : BufTy).Contents (Elt F)),
    StableHlo.binary main_v3 main_v17 main_v18 (addi : (⟨S180000, .i32⟩ : BufTy).Contents (Elt F) → (⟨S180000, .i32⟩ : BufTy).Contents (Elt F) → (⟨S180000, .i32⟩ : BufTy).Contents (Elt F)),
    StableHlo.ternary main_v16 main_v18 main_v3 main_v19 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v19 main_v20 (broadcastInDim S180000x1 ![0] bcast_S180000_S180000x1_0 : (⟨S180000, .i32⟩ : BufTy).Contents (Elt F) → (⟨S180000x1, .i32⟩ : BufTy).Contents (Elt F)),
    StableHlo.binary main_v14 main_v20 main_v21 ((fun x i => Host.gather gather_S20000_S180000x1_S180000_n_0_n_n_0_1_1 x i) : (⟨S20000, .f32⟩ : BufTy).Contents (Elt F) → (⟨S180000x1, .i32⟩ : BufTy).Contents (Elt F) → (⟨S180000, .f32⟩ : BufTy).Contents (Elt F)),
    StableHlo.nullary main_c_4 (constantI S_ 32 0#32),
    StableHlo.unary main_c_4 main_v22 (broadcastInDim S180000 ![] bcast_S_S180000 : (⟨S_, .i32⟩ : BufTy).Contents (Elt F) → (⟨S180000, .i32⟩ : BufTy).Contents (Elt F)),
    StableHlo.binary main_v6 main_v22 main_v23 (cmpi .slt : (⟨S180000, .i32⟩ : BufTy).Contents (Elt F) → (⟨S180000, .i32⟩ : BufTy).Contents (Elt F) → (⟨S180000, .i1⟩ : BufTy).Contents (Elt F)),
    StableHlo.nullary main_c_5 (constantI S_ 32 20000#32),
    StableHlo.unary main_c_5 main_v24 (broadcastInDim S180000 ![] bcast_S_S180000 : (⟨S_, .i32⟩ : BufTy).Contents (Elt F) → (⟨S180000, .i32⟩ : BufTy).Contents (Elt F)),
    StableHlo.binary main_v6 main_v24 main_v25 (addi : (⟨S180000, .i32⟩ : BufTy).Contents (Elt F) → (⟨S180000, .i32⟩ : BufTy).Contents (Elt F) → (⟨S180000, .i32⟩ : BufTy).Contents (Elt F)),
    StableHlo.ternary main_v23 main_v25 main_v6 main_v26 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v26 main_v27 (broadcastInDim S180000x1 ![0] bcast_S180000_S180000x1_0 : (⟨S180000, .i32⟩ : BufTy).Contents (Elt F) → (⟨S180000x1, .i32⟩ : BufTy).Contents (Elt F)),
    StableHlo.binary main_v14 main_v27 main_v28 ((fun x i => Host.gather gather_S20000_S180000x1_S180000_n_0_n_n_0_1_1 x i) : (⟨S20000, .f32⟩ : BufTy).Contents (Elt F) → (⟨S180000x1, .i32⟩ : BufTy).Contents (Elt F) → (⟨S180000, .f32⟩ : BufTy).Contents (Elt F)),
    StableHlo.binary main_v21 main_v28 main_v29 (mulf : (⟨S180000, .f32⟩ : BufTy).Contents (Elt F) → (⟨S180000, .f32⟩ : BufTy).Contents (Elt F) → (⟨S180000, .f32⟩ : BufTy).Contents (Elt F)),
    StableHlo.unary main_v29 main_v30 (broadcastInDim S180000x1 ![0] bcast_S180000_S180000x1_0 : (⟨S180000, .f32⟩ : BufTy).Contents (Elt F) → (⟨S180000x1, .f32⟩ : BufTy).Contents (Elt F)) ]

/-- The first layer: its weight matrix and the product, the propagation step, its bias row, the sum
    and the leaky rectifier. -/
def lay1 : List (HloOp τ sig (Elt F)) :=
  [ StableHlo.unary main_arg2 main_v31 ((extractStridedSlice S1x512x512 ![0, 0, 0] · slices_S4x512x512_S1x512x512_0_0_0) : (⟨S4x512x512, .f32⟩ : BufTy).Contents (Elt F) → (⟨S1x512x512, .f32⟩ : BufTy).Contents (Elt F)),
    StableHlo.reshape main_v31 main_v32 rfl shapeCasts_S1x512x512_S512x512,
    StableHlo.binary main_arg0 main_v32 main_v33 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_6 (constantI S_ 32 0#32),
    StableHlo.unary main_c_6 main_v34 (broadcastInDim S180000 ![] bcast_S_S180000 : (⟨S_, .i32⟩ : BufTy).Contents (Elt F) → (⟨S180000, .i32⟩ : BufTy).Contents (Elt F)),
    StableHlo.binary main_v3 main_v34 main_v35 (cmpi .slt : (⟨S180000, .i32⟩ : BufTy).Contents (Elt F) → (⟨S180000, .i32⟩ : BufTy).Contents (Elt F) → (⟨S180000, .i1⟩ : BufTy).Contents (Elt F)),
    StableHlo.nullary main_c_7 (constantI S_ 32 20000#32),
    StableHlo.unary main_c_7 main_v36 (broadcastInDim S180000 ![] bcast_S_S180000 : (⟨S_, .i32⟩ : BufTy).Contents (Elt F) → (⟨S180000, .i32⟩ : BufTy).Contents (Elt F)),
    StableHlo.binary main_v3 main_v36 main_v37 (addi : (⟨S180000, .i32⟩ : BufTy).Contents (Elt F) → (⟨S180000, .i32⟩ : BufTy).Contents (Elt F) → (⟨S180000, .i32⟩ : BufTy).Contents (Elt F)),
    StableHlo.ternary main_v35 main_v37 main_v3 main_v38 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v38 main_v39 (broadcastInDim S180000x1 ![0] bcast_S180000_S180000x1_0 : (⟨S180000, .i32⟩ : BufTy).Contents (Elt F) → (⟨S180000x1, .i32⟩ : BufTy).Contents (Elt F)),
    StableHlo.binary main_v33 main_v39 main_v40 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v41 (broadcastInDim S180000x512 ![0, 1] bcast_S180000x1_S180000x512_0_1 : (⟨S180000x1, .f32⟩ : BufTy).Contents (Elt F) → (⟨S180000x512, .f32⟩ : BufTy).Contents (Elt F)),
    StableHlo.binary main_v40 main_v41 main_v42 (mulf : (⟨S180000x512, .f32⟩ : BufTy).Contents (Elt F) → (⟨S180000x512, .f32⟩ : BufTy).Contents (Elt F) → (⟨S180000x512, .f32⟩ : BufTy).Contents (Elt F)),
    StableHlo.nullary main_cst_8 (constant S_ .f32 0x00000000#32),
    StableHlo.unary main_cst_8 main_v43 (broadcastInDim S20000x512 ![] bcast_S_S20000x512 : (⟨S_, .f32⟩ : BufTy).Contents (Elt F) → (⟨S20000x512, .f32⟩ : BufTy).Contents (Elt F)),
    StableHlo.unary main_v6 main_v44 (broadcastInDim S180000x1 ![0] bcast_S180000_S180000x1_0 : (⟨S180000, .i32⟩ : BufTy).Contents (Elt F) → (⟨S180000x1, .i32⟩ : BufTy).Contents (Elt F)),
    StableHlo.ternary main_v43 main_v44 main_v42 main_v45 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v46 ((extractStridedSlice S1x512 ![0, 0] · slices_S4x512_S1x512_0_0) : (⟨S4x512, .f32⟩ : BufTy).Contents (Elt F) → (⟨S1x512, .f32⟩ : BufTy).Contents (Elt F)),
    StableHlo.reshape main_v46 main_v47 rfl shapeCasts_S1x512_S512,
    StableHlo.unary main_v47 main_v48 (broadcastInDim S1x512 ![1] bcast_S512_S1x512_1 : (⟨S512, .f32⟩ : BufTy).Contents (Elt F) → (⟨S1x512, .f32⟩ : BufTy).Contents (Elt F)),
    StableHlo.unary main_v48 main_v49 (broadcastInDim S20000x512 ![0, 1] bcast_S1x512_S20000x512_0_1 : (⟨S1x512, .f32⟩ : BufTy).Contents (Elt F) → (⟨S20000x512, .f32⟩ : BufTy).Contents (Elt F)),
    StableHlo.binary main_v45 main_v49 main_v50 (addf : (⟨S20000x512, .f32⟩ : BufTy).Contents (Elt F) → (⟨S20000x512, .f32⟩ : BufTy).Contents (Elt F) → (⟨S20000x512, .f32⟩ : BufTy).Contents (Elt F)),
    StableHlo.nullary main_cst_9 (constant S_ .f32 0x3C23D70A#32),
    StableHlo.TRef.nullary main_call1.cst (constant S_ .f32 0x00000000#32),
    StableHlo.TRef.unary main_call1.cst main_call1.v0 (broadcastInDim S20000x512 ![] bcast_S_S20000x512),
    StableHlo.TRef.binary (.of main_v50) main_call1.v0 main_call1.v1 (cmpf .oge),
    StableHlo.TRef.unary (.of main_cst_9) main_call1.v2 id,
    StableHlo.TRef.unary main_call1.v2 main_call1.v3 (broadcastInDim S20000x512 ![] bcast_S_S20000x512),
    StableHlo.TRef.binary main_call1.v3 (.of main_v50) main_call1.v4 mulf,
    StableHlo.TRef.ternary main_call1.v1 (.of main_v50) main_call1.v4 main_call1.call0.v0 select ]

/-- The second layer: its weight matrix and the product, the propagation step, its bias row, the sum
    and the leaky rectifier. -/
def lay2 : List (HloOp τ sig (Elt F)) :=
  [ StableHlo.unary main_arg2 main_v52 ((extractStridedSlice S1x512x512 ![1, 0, 0] · slices_S4x512x512_S1x512x512_1_0_0) : (⟨S4x512x512, .f32⟩ : BufTy).Contents (Elt F) → (⟨S1x512x512, .f32⟩ : BufTy).Contents (Elt F)),
    StableHlo.reshape main_v52 main_v53 rfl shapeCasts_S1x512x512_S512x512,
    StableHlo.binary main_v51 main_v53 main_v54 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_10 (constantI S_ 32 0#32),
    StableHlo.unary main_c_10 main_v55 (broadcastInDim S180000 ![] bcast_S_S180000 : (⟨S_, .i32⟩ : BufTy).Contents (Elt F) → (⟨S180000, .i32⟩ : BufTy).Contents (Elt F)),
    StableHlo.binary main_v3 main_v55 main_v56 (cmpi .slt : (⟨S180000, .i32⟩ : BufTy).Contents (Elt F) → (⟨S180000, .i32⟩ : BufTy).Contents (Elt F) → (⟨S180000, .i1⟩ : BufTy).Contents (Elt F)),
    StableHlo.nullary main_c_11 (constantI S_ 32 20000#32),
    StableHlo.unary main_c_11 main_v57 (broadcastInDim S180000 ![] bcast_S_S180000 : (⟨S_, .i32⟩ : BufTy).Contents (Elt F) → (⟨S180000, .i32⟩ : BufTy).Contents (Elt F)),
    StableHlo.binary main_v3 main_v57 main_v58 (addi : (⟨S180000, .i32⟩ : BufTy).Contents (Elt F) → (⟨S180000, .i32⟩ : BufTy).Contents (Elt F) → (⟨S180000, .i32⟩ : BufTy).Contents (Elt F)),
    StableHlo.ternary main_v56 main_v58 main_v3 main_v59 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v59 main_v60 (broadcastInDim S180000x1 ![0] bcast_S180000_S180000x1_0 : (⟨S180000, .i32⟩ : BufTy).Contents (Elt F) → (⟨S180000x1, .i32⟩ : BufTy).Contents (Elt F)),
    StableHlo.binary main_v54 main_v60 main_v61 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v62 (broadcastInDim S180000x512 ![0, 1] bcast_S180000x1_S180000x512_0_1 : (⟨S180000x1, .f32⟩ : BufTy).Contents (Elt F) → (⟨S180000x512, .f32⟩ : BufTy).Contents (Elt F)),
    StableHlo.binary main_v61 main_v62 main_v63 (mulf : (⟨S180000x512, .f32⟩ : BufTy).Contents (Elt F) → (⟨S180000x512, .f32⟩ : BufTy).Contents (Elt F) → (⟨S180000x512, .f32⟩ : BufTy).Contents (Elt F)),
    StableHlo.nullary main_cst_12 (constant S_ .f32 0x00000000#32),
    StableHlo.unary main_cst_12 main_v64 (broadcastInDim S20000x512 ![] bcast_S_S20000x512 : (⟨S_, .f32⟩ : BufTy).Contents (Elt F) → (⟨S20000x512, .f32⟩ : BufTy).Contents (Elt F)),
    StableHlo.unary main_v6 main_v65 (broadcastInDim S180000x1 ![0] bcast_S180000_S180000x1_0 : (⟨S180000, .i32⟩ : BufTy).Contents (Elt F) → (⟨S180000x1, .i32⟩ : BufTy).Contents (Elt F)),
    StableHlo.ternary main_v64 main_v65 main_v63 main_v66 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v67 ((extractStridedSlice S1x512 ![1, 0] · slices_S4x512_S1x512_1_0) : (⟨S4x512, .f32⟩ : BufTy).Contents (Elt F) → (⟨S1x512, .f32⟩ : BufTy).Contents (Elt F)),
    StableHlo.reshape main_v67 main_v68 rfl shapeCasts_S1x512_S512,
    StableHlo.unary main_v68 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S20000x512 ![0, 1] bcast_S1x512_S20000x512_0_1 : (⟨S1x512, .f32⟩ : BufTy).Contents (Elt F) → (⟨S20000x512, .f32⟩ : BufTy).Contents (Elt F)),
    StableHlo.binary main_v66 main_v70 main_v71 (addf : (⟨S20000x512, .f32⟩ : BufTy).Contents (Elt F) → (⟨S20000x512, .f32⟩ : BufTy).Contents (Elt F) → (⟨S20000x512, .f32⟩ : BufTy).Contents (Elt F)),
    StableHlo.nullary main_cst_13 (constant S_ .f32 0x3C23D70A#32),
    StableHlo.TRef.nullary main_call2.cst (constant S_ .f32 0x00000000#32),
    StableHlo.TRef.unary main_call2.cst main_call2.v0 (broadcastInDim S20000x512 ![] bcast_S_S20000x512),
    StableHlo.TRef.binary (.of main_v71) main_call2.v0 main_call2.v1 (cmpf .oge),
    StableHlo.TRef.unary (.of main_cst_13) main_call2.v2 id,
    StableHlo.TRef.unary main_call2.v2 main_call2.v3 (broadcastInDim S20000x512 ![] bcast_S_S20000x512),
    StableHlo.TRef.binary main_call2.v3 (.of main_v71) main_call2.v4 mulf,
    StableHlo.TRef.ternary main_call2.v1 (.of main_v71) main_call2.v4 main_call2.call0.v0 select ]

/-- The third layer: its weight matrix and the product, the propagation step, its bias row, the sum
    and the leaky rectifier. -/
def lay3 : List (HloOp τ sig (Elt F)) :=
  [ StableHlo.unary main_arg2 main_v73 ((extractStridedSlice S1x512x512 ![2, 0, 0] · slices_S4x512x512_S1x512x512_2_0_0) : (⟨S4x512x512, .f32⟩ : BufTy).Contents (Elt F) → (⟨S1x512x512, .f32⟩ : BufTy).Contents (Elt F)),
    StableHlo.reshape main_v73 main_v74 rfl shapeCasts_S1x512x512_S512x512,
    StableHlo.binary main_v72 main_v74 main_v75 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_14 (constantI S_ 32 0#32),
    StableHlo.unary main_c_14 main_v76 (broadcastInDim S180000 ![] bcast_S_S180000 : (⟨S_, .i32⟩ : BufTy).Contents (Elt F) → (⟨S180000, .i32⟩ : BufTy).Contents (Elt F)),
    StableHlo.binary main_v3 main_v76 main_v77 (cmpi .slt : (⟨S180000, .i32⟩ : BufTy).Contents (Elt F) → (⟨S180000, .i32⟩ : BufTy).Contents (Elt F) → (⟨S180000, .i1⟩ : BufTy).Contents (Elt F)),
    StableHlo.nullary main_c_15 (constantI S_ 32 20000#32),
    StableHlo.unary main_c_15 main_v78 (broadcastInDim S180000 ![] bcast_S_S180000 : (⟨S_, .i32⟩ : BufTy).Contents (Elt F) → (⟨S180000, .i32⟩ : BufTy).Contents (Elt F)),
    StableHlo.binary main_v3 main_v78 main_v79 (addi : (⟨S180000, .i32⟩ : BufTy).Contents (Elt F) → (⟨S180000, .i32⟩ : BufTy).Contents (Elt F) → (⟨S180000, .i32⟩ : BufTy).Contents (Elt F)),
    StableHlo.ternary main_v77 main_v79 main_v3 main_v80 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v80 main_v81 (broadcastInDim S180000x1 ![0] bcast_S180000_S180000x1_0 : (⟨S180000, .i32⟩ : BufTy).Contents (Elt F) → (⟨S180000x1, .i32⟩ : BufTy).Contents (Elt F)),
    StableHlo.binary main_v75 main_v81 main_v82 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v83 (broadcastInDim S180000x512 ![0, 1] bcast_S180000x1_S180000x512_0_1 : (⟨S180000x1, .f32⟩ : BufTy).Contents (Elt F) → (⟨S180000x512, .f32⟩ : BufTy).Contents (Elt F)),
    StableHlo.binary main_v82 main_v83 main_v84 (mulf : (⟨S180000x512, .f32⟩ : BufTy).Contents (Elt F) → (⟨S180000x512, .f32⟩ : BufTy).Contents (Elt F) → (⟨S180000x512, .f32⟩ : BufTy).Contents (Elt F)),
    StableHlo.nullary main_cst_16 (constant S_ .f32 0x00000000#32),
    StableHlo.unary main_cst_16 main_v85 (broadcastInDim S20000x512 ![] bcast_S_S20000x512 : (⟨S_, .f32⟩ : BufTy).Contents (Elt F) → (⟨S20000x512, .f32⟩ : BufTy).Contents (Elt F)),
    StableHlo.unary main_v6 main_v86 (broadcastInDim S180000x1 ![0] bcast_S180000_S180000x1_0 : (⟨S180000, .i32⟩ : BufTy).Contents (Elt F) → (⟨S180000x1, .i32⟩ : BufTy).Contents (Elt F)),
    StableHlo.ternary main_v85 main_v86 main_v84 main_v87 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v88 ((extractStridedSlice S1x512 ![2, 0] · slices_S4x512_S1x512_2_0) : (⟨S4x512, .f32⟩ : BufTy).Contents (Elt F) → (⟨S1x512, .f32⟩ : BufTy).Contents (Elt F)),
    StableHlo.reshape main_v88 main_v89 rfl shapeCasts_S1x512_S512,
    StableHlo.unary main_v89 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S20000x512 ![0, 1] bcast_S1x512_S20000x512_0_1 : (⟨S1x512, .f32⟩ : BufTy).Contents (Elt F) → (⟨S20000x512, .f32⟩ : BufTy).Contents (Elt F)),
    StableHlo.binary main_v87 main_v91 main_v92 (addf : (⟨S20000x512, .f32⟩ : BufTy).Contents (Elt F) → (⟨S20000x512, .f32⟩ : BufTy).Contents (Elt F) → (⟨S20000x512, .f32⟩ : BufTy).Contents (Elt F)),
    StableHlo.nullary main_cst_17 (constant S_ .f32 0x3C23D70A#32),
    StableHlo.TRef.nullary main_call3.cst (constant S_ .f32 0x00000000#32),
    StableHlo.TRef.unary main_call3.cst main_call3.v0 (broadcastInDim S20000x512 ![] bcast_S_S20000x512),
    StableHlo.TRef.binary (.of main_v92) main_call3.v0 main_call3.v1 (cmpf .oge),
    StableHlo.TRef.unary (.of main_cst_17) main_call3.v2 id,
    StableHlo.TRef.unary main_call3.v2 main_call3.v3 (broadcastInDim S20000x512 ![] bcast_S_S20000x512),
    StableHlo.TRef.binary main_call3.v3 (.of main_v92) main_call3.v4 mulf,
    StableHlo.TRef.ternary main_call3.v1 (.of main_v92) main_call3.v4 main_call3.call0.v0 select ]

/-- The fourth layer: its weight matrix and the product, the propagation step, its bias row, the sum
    and the leaky rectifier. -/
def lay4 : List (HloOp τ sig (Elt F)) :=
  [ StableHlo.unary main_arg2 main_v94 ((extractStridedSlice S1x512x512 ![3, 0, 0] · slices_S4x512x512_S1x512x512_3_0_0) : (⟨S4x512x512, .f32⟩ : BufTy).Contents (Elt F) → (⟨S1x512x512, .f32⟩ : BufTy).Contents (Elt F)),
    StableHlo.reshape main_v94 main_v95 rfl shapeCasts_S1x512x512_S512x512,
    StableHlo.binary main_v93 main_v95 main_v96 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.nullary main_c_18 (constantI S_ 32 0#32),
    StableHlo.unary main_c_18 main_v97 (broadcastInDim S180000 ![] bcast_S_S180000 : (⟨S_, .i32⟩ : BufTy).Contents (Elt F) → (⟨S180000, .i32⟩ : BufTy).Contents (Elt F)),
    StableHlo.binary main_v3 main_v97 main_v98 (cmpi .slt : (⟨S180000, .i32⟩ : BufTy).Contents (Elt F) → (⟨S180000, .i32⟩ : BufTy).Contents (Elt F) → (⟨S180000, .i1⟩ : BufTy).Contents (Elt F)),
    StableHlo.nullary main_c_19 (constantI S_ 32 20000#32),
    StableHlo.unary main_c_19 main_v99 (broadcastInDim S180000 ![] bcast_S_S180000 : (⟨S_, .i32⟩ : BufTy).Contents (Elt F) → (⟨S180000, .i32⟩ : BufTy).Contents (Elt F)),
    StableHlo.binary main_v3 main_v99 main_v100 (addi : (⟨S180000, .i32⟩ : BufTy).Contents (Elt F) → (⟨S180000, .i32⟩ : BufTy).Contents (Elt F) → (⟨S180000, .i32⟩ : BufTy).Contents (Elt F)),
    StableHlo.ternary main_v98 main_v100 main_v3 main_v101 (select : (⟨S180000, .i1⟩ : BufTy).Contents (Elt F) → (⟨S180000, .i32⟩ : BufTy).Contents (Elt F) → (⟨S180000, .i32⟩ : BufTy).Contents (Elt F) → (⟨S180000, .i32⟩ : BufTy).Contents (Elt F)),
    StableHlo.unary main_v101 main_v102 (broadcastInDim S180000x1 ![0] bcast_S180000_S180000x1_0 : (⟨S180000, .i32⟩ : BufTy).Contents (Elt F) → (⟨S180000x1, .i32⟩ : BufTy).Contents (Elt F)),
    StableHlo.binary main_v96 main_v102 main_v103 ((fun x i => Host.gather gather_S20000x512_S180000x1_S180000x512_1_0_n_n_0_1_1512 x i) : (⟨S20000x512, .f32⟩ : BufTy).Contents (Elt F) → (⟨S180000x1, .i32⟩ : BufTy).Contents (Elt F) → (⟨S180000x512, .f32⟩ : BufTy).Contents (Elt F)),
    StableHlo.unary main_v30 main_v104 (broadcastInDim S180000x512 ![0, 1] bcast_S180000x1_S180000x512_0_1 : (⟨S180000x1, .f32⟩ : BufTy).Contents (Elt F) → (⟨S180000x512, .f32⟩ : BufTy).Contents (Elt F)),
    StableHlo.binary main_v103 main_v104 main_v105 (mulf : (⟨S180000x512, .f32⟩ : BufTy).Contents (Elt F) → (⟨S180000x512, .f32⟩ : BufTy).Contents (Elt F) → (⟨S180000x512, .f32⟩ : BufTy).Contents (Elt F)),
    StableHlo.nullary main_cst_20 (constant S_ .f32 0x00000000#32),
    StableHlo.unary main_cst_20 main_v106 (broadcastInDim S20000x512 ![] bcast_S_S20000x512 : (⟨S_, .f32⟩ : BufTy).Contents (Elt F) → (⟨S20000x512, .f32⟩ : BufTy).Contents (Elt F)),
    StableHlo.unary main_v6 main_v107 (broadcastInDim S180000x1 ![0] bcast_S180000_S180000x1_0 : (⟨S180000, .i32⟩ : BufTy).Contents (Elt F) → (⟨S180000x1, .i32⟩ : BufTy).Contents (Elt F)),
    StableHlo.ternary main_v106 main_v107 main_v105 main_v108 ((fun x i u => Host.scatterAdd scatter_S20000x512_S180000x1_S180000x512_1_0_0_1 x i u) : (⟨S20000x512, .f32⟩ : BufTy).Contents (Elt F) → (⟨S180000x1, .i32⟩ : BufTy).Contents (Elt F) → (⟨S180000x512, .f32⟩ : BufTy).Contents (Elt F) → (⟨S20000x512, .f32⟩ : BufTy).Contents (Elt F)),
    StableHlo.unary main_arg3 main_v109 ((extractStridedSlice S1x512 ![3, 0] · slices_S4x512_S1x512_3_0) : (⟨S4x512, .f32⟩ : BufTy).Contents (Elt F) → (⟨S1x512, .f32⟩ : BufTy).Contents (Elt F)),
    StableHlo.reshape main_v109 main_v110 rfl shapeCasts_S1x512_S512,
    StableHlo.unary main_v110 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S20000x512 ![0, 1] bcast_S1x512_S20000x512_0_1 : (⟨S1x512, .f32⟩ : BufTy).Contents (Elt F) → (⟨S20000x512, .f32⟩ : BufTy).Contents (Elt F)),
    StableHlo.binary main_v108 main_v112 main_v113 (addf : (⟨S20000x512, .f32⟩ : BufTy).Contents (Elt F) → (⟨S20000x512, .f32⟩ : BufTy).Contents (Elt F) → (⟨S20000x512, .f32⟩ : BufTy).Contents (Elt F)),
    StableHlo.nullary main_cst_21 (constant S_ .f32 0x3C23D70A#32),
    StableHlo.TRef.nullary main_call4.cst (constant S_ .f32 0x00000000#32),
    StableHlo.TRef.unary main_call4.cst main_call4.v0 (broadcastInDim S20000x512 ![] bcast_S_S20000x512),
    StableHlo.TRef.binary (.of main_v113) main_call4.v0 main_call4.v1 (cmpf .oge),
    StableHlo.TRef.unary (.of main_cst_21) main_call4.v2 id,
    StableHlo.TRef.unary main_call4.v2 main_call4.v3 (broadcastInDim S20000x512 ![] bcast_S_S20000x512),
    StableHlo.TRef.binary main_call4.v3 (.of main_v113) main_call4.v4 mulf,
    StableHlo.TRef.ternary main_call4.v1 (.of main_v113) main_call4.v4 main_call4.call0.v0 select ]

set_option maxRecDepth 8192 in
/-- The operation list is the five stretches in order. -/
theorem ops_split : (ops : List (HloOp τ sig (Elt F))) = pre ++ (lay1 ++ (lay2 ++ (lay3 ++ lay4))) := rfl

end Stretches

/-! ## The preamble -/

section Pre
variable (V : Valuation τ sig (Elt Ideal))

set_option maxRecDepth 8192 in
set_option maxHeartbeats 4000000 in
theorem pre_v3 : after pre V (main_v3 : DevRef τ sig) = rowOf (V (main_arg1 : DevRef τ sig)) := by
  unfold pre; after_results_simp; rfl

set_option maxRecDepth 8192 in
set_option maxHeartbeats 4000000 in
theorem pre_v6 : after pre V (main_v6 : DevRef τ sig) = colOf (V (main_arg1 : DevRef τ sig)) := by
  unfold pre; after_results_simp; rfl

set_option maxRecDepth 8192 in
set_option maxHeartbeats 4000000 in
theorem pre_v30 : after pre V (main_v30 : DevRef τ sig) = normOf (rowOf (V (main_arg1 : DevRef τ sig))) (colOf (V (main_arg1 : DevRef τ sig))) := by
  unfold pre; after_results_simp
  simp only [StableHlo.TRef.toBuf, StableHlo.TRef.ofBuf, cast_eq, id_eq, normOf, disOf, degOf, wrapIdx, rowOf, colOf]
  rfl

set_option maxRecDepth 8192 in
set_option maxHeartbeats 4000000 in
theorem pre_arg0 : after pre V (main_arg0 : DevRef τ sig) = V (main_arg0 : DevRef τ sig) := by
  unfold pre; after_results_simp

set_option maxRecDepth 8192 in
set_option maxHeartbeats 4000000 in
theorem pre_arg1 : after pre V (main_arg1 : DevRef τ sig) = V (main_arg1 : DevRef τ sig) := by
  unfold pre; after_results_simp

set_option maxRecDepth 8192 in
set_option maxHeartbeats 4000000 in
theorem pre_arg2 : after pre V (main_arg2 : DevRef τ sig) = V (main_arg2 : DevRef τ sig) := by
  unfold pre; after_results_simp

set_option maxRecDepth 8192 in
set_option maxHeartbeats 4000000 in
theorem pre_arg3 : after pre V (main_arg3 : DevRef τ sig) = V (main_arg3 : DevRef τ sig) := by
  unfold pre; after_results_simp

end Pre

/-! ## The layers -/

section Layers
variable (V : Valuation τ sig (Elt Ideal))

set_option maxRecDepth 8192 in
set_option maxHeartbeats 4000000 in
theorem lay1_out : after lay1 V (main_v51 : DevRef τ sig) =
    refLayer (V (main_arg0 : DevRef τ sig)) (wsl0 (V (main_arg2 : DevRef τ sig))) (bsl0 (V (main_arg3 : DevRef τ sig)))
      (V (main_v3 : DevRef τ sig)) (V (main_v6 : DevRef τ sig)) (V (main_v30 : DevRef τ sig)) := by
  unfold lay1; after_results_simp
  simp only [StableHlo.TRef.toBuf, StableHlo.TRef.ofBuf, cast_eq, id_eq, refLayer, refAct, leaky, aggOf, refDense, wrapIdx, wsl0, bsl0]
  rfl

set_option maxRecDepth 8192 in
set_option maxHeartbeats 4000000 in
theorem lay1_arg0 : after lay1 V (main_arg0 : DevRef τ sig) = V (main_arg0 : DevRef τ sig) := by
  unfold lay1; after_results_simp

set_option maxRecDepth 8192 in
set_option maxHeartbeats 4000000 in
theorem lay1_arg1 : after lay1 V (main_arg1 : DevRef τ sig) = V (main_arg1 : DevRef τ sig) := by
  unfold lay1; after_results_simp

set_option maxRecDepth 8192 in
set_option maxHeartbeats 4000000 in
theorem lay1_arg2 : after lay1 V (main_arg2 : DevRef τ sig) = V (main_arg2 : DevRef τ sig) := by
  unfold lay1; after_results_simp

set_option maxRecDepth 8192 in
set_option maxHeartbeats 4000000 in
theorem lay1_arg3 : after lay1 V (main_arg3 : DevRef τ sig) = V (main_arg3 : DevRef τ sig) := by
  unfold lay1; after_results_simp

set_option maxRecDepth 8192 in
set_option maxHeartbeats 4000000 in
theorem lay1_v3 : after lay1 V (main_v3 : DevRef τ sig) = V (main_v3 : DevRef τ sig) := by
  unfold lay1; after_results_simp

set_option maxRecDepth 8192 in
set_option maxHeartbeats 4000000 in
theorem lay1_v6 : after lay1 V (main_v6 : DevRef τ sig) = V (main_v6 : DevRef τ sig) := by
  unfold lay1; after_results_simp

set_option maxRecDepth 8192 in
set_option maxHeartbeats 4000000 in
theorem lay1_v30 : after lay1 V (main_v30 : DevRef τ sig) = V (main_v30 : DevRef τ sig) := by
  unfold lay1; after_results_simp

set_option maxRecDepth 8192 in
set_option maxHeartbeats 4000000 in
theorem lay2_out : after lay2 V (main_v72 : DevRef τ sig) =
    refLayer (V (main_v51 : DevRef τ sig)) (wsl1 (V (main_arg2 : DevRef τ sig))) (bsl1 (V (main_arg3 : DevRef τ sig)))
      (V (main_v3 : DevRef τ sig)) (V (main_v6 : DevRef τ sig)) (V (main_v30 : DevRef τ sig)) := by
  unfold lay2; after_results_simp
  simp only [StableHlo.TRef.toBuf, StableHlo.TRef.ofBuf, cast_eq, id_eq, refLayer, refAct, leaky, aggOf, refDense, wrapIdx, wsl1, bsl1]
  rfl

set_option maxRecDepth 8192 in
set_option maxHeartbeats 4000000 in
theorem lay2_arg0 : after lay2 V (main_arg0 : DevRef τ sig) = V (main_arg0 : DevRef τ sig) := by
  unfold lay2; after_results_simp

set_option maxRecDepth 8192 in
set_option maxHeartbeats 4000000 in
theorem lay2_arg1 : after lay2 V (main_arg1 : DevRef τ sig) = V (main_arg1 : DevRef τ sig) := by
  unfold lay2; after_results_simp

set_option maxRecDepth 8192 in
set_option maxHeartbeats 4000000 in
theorem lay2_arg2 : after lay2 V (main_arg2 : DevRef τ sig) = V (main_arg2 : DevRef τ sig) := by
  unfold lay2; after_results_simp

set_option maxRecDepth 8192 in
set_option maxHeartbeats 4000000 in
theorem lay2_arg3 : after lay2 V (main_arg3 : DevRef τ sig) = V (main_arg3 : DevRef τ sig) := by
  unfold lay2; after_results_simp

set_option maxRecDepth 8192 in
set_option maxHeartbeats 4000000 in
theorem lay2_v3 : after lay2 V (main_v3 : DevRef τ sig) = V (main_v3 : DevRef τ sig) := by
  unfold lay2; after_results_simp

set_option maxRecDepth 8192 in
set_option maxHeartbeats 4000000 in
theorem lay2_v6 : after lay2 V (main_v6 : DevRef τ sig) = V (main_v6 : DevRef τ sig) := by
  unfold lay2; after_results_simp

set_option maxRecDepth 8192 in
set_option maxHeartbeats 4000000 in
theorem lay2_v30 : after lay2 V (main_v30 : DevRef τ sig) = V (main_v30 : DevRef τ sig) := by
  unfold lay2; after_results_simp

set_option maxRecDepth 8192 in
set_option maxHeartbeats 4000000 in
theorem lay3_out : after lay3 V (main_v93 : DevRef τ sig) =
    refLayer (V (main_v72 : DevRef τ sig)) (wsl2 (V (main_arg2 : DevRef τ sig))) (bsl2 (V (main_arg3 : DevRef τ sig)))
      (V (main_v3 : DevRef τ sig)) (V (main_v6 : DevRef τ sig)) (V (main_v30 : DevRef τ sig)) := by
  unfold lay3; after_results_simp
  simp only [StableHlo.TRef.toBuf, StableHlo.TRef.ofBuf, cast_eq, id_eq, refLayer, refAct, leaky, aggOf, refDense, wrapIdx, wsl2, bsl2]
  rfl

set_option maxRecDepth 8192 in
set_option maxHeartbeats 4000000 in
theorem lay3_arg0 : after lay3 V (main_arg0 : DevRef τ sig) = V (main_arg0 : DevRef τ sig) := by
  unfold lay3; after_results_simp

set_option maxRecDepth 8192 in
set_option maxHeartbeats 4000000 in
theorem lay3_arg1 : after lay3 V (main_arg1 : DevRef τ sig) = V (main_arg1 : DevRef τ sig) := by
  unfold lay3; after_results_simp

set_option maxRecDepth 8192 in
set_option maxHeartbeats 4000000 in
theorem lay3_arg2 : after lay3 V (main_arg2 : DevRef τ sig) = V (main_arg2 : DevRef τ sig) := by
  unfold lay3; after_results_simp

set_option maxRecDepth 8192 in
set_option maxHeartbeats 4000000 in
theorem lay3_arg3 : after lay3 V (main_arg3 : DevRef τ sig) = V (main_arg3 : DevRef τ sig) := by
  unfold lay3; after_results_simp

set_option maxRecDepth 8192 in
set_option maxHeartbeats 4000000 in
theorem lay3_v3 : after lay3 V (main_v3 : DevRef τ sig) = V (main_v3 : DevRef τ sig) := by
  unfold lay3; after_results_simp

set_option maxRecDepth 8192 in
set_option maxHeartbeats 4000000 in
theorem lay3_v6 : after lay3 V (main_v6 : DevRef τ sig) = V (main_v6 : DevRef τ sig) := by
  unfold lay3; after_results_simp

set_option maxRecDepth 8192 in
set_option maxHeartbeats 4000000 in
theorem lay3_v30 : after lay3 V (main_v30 : DevRef τ sig) = V (main_v30 : DevRef τ sig) := by
  unfold lay3; after_results_simp

set_option maxRecDepth 8192 in
set_option maxHeartbeats 4000000 in
theorem lay4_out : after lay4 V (main_v114 : DevRef τ sig) =
    refLayer (V (main_v93 : DevRef τ sig)) (wsl3 (V (main_arg2 : DevRef τ sig))) (bsl3 (V (main_arg3 : DevRef τ sig)))
      (V (main_v3 : DevRef τ sig)) (V (main_v6 : DevRef τ sig)) (V (main_v30 : DevRef τ sig)) := by
  unfold lay4; after_results_simp
  simp only [StableHlo.TRef.toBuf, StableHlo.TRef.ofBuf, cast_eq, id_eq, refLayer, refAct, leaky, aggOf, refDense, wrapIdx, wsl3, bsl3]
  rfl

set_option maxRecDepth 8192 in
set_option maxHeartbeats 4000000 in
theorem lay4_arg0 : after lay4 V (main_arg0 : DevRef τ sig) = V (main_arg0 : DevRef τ sig) := by
  unfold lay4; after_results_simp

set_option maxRecDepth 8192 in
set_option maxHeartbeats 4000000 in
theorem lay4_arg1 : after lay4 V (main_arg1 : DevRef τ sig) = V (main_arg1 : DevRef τ sig) := by
  unfold lay4; after_results_simp

set_option maxRecDepth 8192 in
set_option maxHeartbeats 4000000 in
theorem lay4_arg2 : after lay4 V (main_arg2 : DevRef τ sig) = V (main_arg2 : DevRef τ sig) := by
  unfold lay4; after_results_simp

set_option maxRecDepth 8192 in
set_option maxHeartbeats 4000000 in
theorem lay4_arg3 : after lay4 V (main_arg3 : DevRef τ sig) = V (main_arg3 : DevRef τ sig) := by
  unfold lay4; after_results_simp

set_option maxRecDepth 8192 in
set_option maxHeartbeats 4000000 in
theorem lay4_v3 : after lay4 V (main_v3 : DevRef τ sig) = V (main_v3 : DevRef τ sig) := by
  unfold lay4; after_results_simp

set_option maxRecDepth 8192 in
set_option maxHeartbeats 4000000 in
theorem lay4_v6 : after lay4 V (main_v6 : DevRef τ sig) = V (main_v6 : DevRef τ sig) := by
  unfold lay4; after_results_simp

set_option maxRecDepth 8192 in
set_option maxHeartbeats 4000000 in
theorem lay4_v30 : after lay4 V (main_v30 : DevRef τ sig) = V (main_v30 : DevRef τ sig) := by
  unfold lay4; after_results_simp

end Layers

/-! ## The whole fold -/

/-- The result buffer after @main's operations is the specification's value of the four arguments: the
    fourth layer reads the third's result, the third the second's, down to the first's, which reads the
    features; every layer reads the preamble's three buffers, which no layer writes. -/
theorem out_eq (V : Valuation τ sig (Elt Ideal)) :
    after (ops (F := Ideal)) V (main_v114 : DevRef τ sig)
      = Cert.GcnSpec.refOut (V (main_arg0 : DevRef τ sig)) (V (main_arg1 : DevRef τ sig)) (V (main_arg2 : DevRef τ sig)) (V (main_arg3 : DevRef τ sig)) := by
  rw [ops_split]
  simp only [StableHlo.after_append]
  rw [lay4_out]
  rw [lay3_out, lay3_arg2, lay3_arg3, lay3_v3, lay3_v6, lay3_v30]
  rw [lay2_out, lay2_arg2, lay2_arg3, lay2_v3, lay2_v6, lay2_v30]
  rw [lay1_out, lay1_arg2, lay1_arg3, lay1_v3, lay1_v6, lay1_v30]
  rw [pre_arg0, pre_arg2, pre_arg3, pre_v3, pre_v6, pre_v30]
  rfl

theorem arg0_eq (V : Valuation τ sig (Elt Ideal)) :
    after (ops (F := Ideal)) V (main_arg0 : DevRef τ sig) = V (main_arg0 : DevRef τ sig) := by
  rw [ops_split]
  simp only [StableHlo.after_append]
  rw [lay4_arg0, lay3_arg0, lay2_arg0, lay1_arg0, pre_arg0]

theorem arg1_eq (V : Valuation τ sig (Elt Ideal)) :
    after (ops (F := Ideal)) V (main_arg1 : DevRef τ sig) = V (main_arg1 : DevRef τ sig) := by
  rw [ops_split]
  simp only [StableHlo.after_append]
  rw [lay4_arg1, lay3_arg1, lay2_arg1, lay1_arg1, pre_arg1]

theorem arg2_eq (V : Valuation τ sig (Elt Ideal)) :
    after (ops (F := Ideal)) V (main_arg2 : DevRef τ sig) = V (main_arg2 : DevRef τ sig) := by
  rw [ops_split]
  simp only [StableHlo.after_append]
  rw [lay4_arg2, lay3_arg2, lay2_arg2, lay1_arg2, pre_arg2]

theorem arg3_eq (V : Valuation τ sig (Elt Ideal)) :
    after (ops (F := Ideal)) V (main_arg3 : DevRef τ sig) = V (main_arg3 : DevRef τ sig) := by
  rw [ops_split]
  simp only [StableHlo.after_append]
  rw [lay4_arg3, lay3_arg3, lay2_arg3, lay1_arg3, pre_arg3]

/-- On the device, from any memory with zero counters: every weakly fair execution of @main terminates
    with the result buffer at the specification's value of the arguments' launch contents, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = Cert.GcnSpec.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v114).trans (out_eq (StableHlo.launchContents m c)),
      (h c main_arg0).trans (arg0_eq (StableHlo.launchContents m c)),
      (h c main_arg1).trans (arg1_eq (StableHlo.launchContents m c)),
      (h c main_arg2).trans (arg2_eq (StableHlo.launchContents m c)),
      (h c main_arg3).trans (arg3_eq (StableHlo.launchContents m c))⟩)
    (run_main m ρ)

end Cert.ReferenceIdeal.RefRun

end
-- ==== Proof.lean ====
/-
  A four-layer graph convolution over 20000 nodes and 160000 edges (self loops added, symmetric normalisation, a leaky
  rectifier after each layer) as a kernel program against its reference. Both compute the edge lists, the degrees and
  the per-edge normalisation by the same host operations, and both gather, scale and scatter-add each layer's
  transformed features the same way. They differ in two places per layer: the kernel program computes the dense
  product of the features with the layer's weight in a region tiled by rows (with a change of float format on the way
  in, which is the identity on the extended reals) where the reference has one host dot_general, and it adds the bias
  and applies the rectifier in a second tiled region, comparing strictly against zero where the reference compares
  weakly. On the extended reals the tiled product is the whole product, entry by entry the same sum, and the two
  rectifiers agree because at zero both branches give zero. So both results are the same function of the arguments: the
  four layers in turn. No finiteness of the inputs is used.
  The three frames: the kernel programs' are the generated ones; the reference's is its run with the result dropped.
  The idealization rewrote nothing, so there is nothing to preserve.
-/
import proofs.«177265_j7464653160644_1_alg».proof.Defs
import proofs.«177265_j7464653160644_1_alg».proof.Proof.Gen.Kernel
import proofs.«177265_j7464653160644_1_alg».proof.Proof.Gen.Kernel.Frame
import proofs.«177265_j7464653160644_1_alg».proof.Proof.Gen.KernelIdeal
import proofs.«177265_j7464653160644_1_alg».proof.Proof.Gen.KernelIdeal.Frame
import proofs.«177265_j7464653160644_1_alg».proof.Proof.Gen.ReferenceIdeal
import proofs.«177265_j7464653160644_1_alg».proof.Proof.Gen.Pre_finite_inputs
import proofs.«177265_j7464653160644_1_alg».proof.Proof.KernelValue
import proofs.«177265_j7464653160644_1_alg».proof.Proof.RefValue
import proofs.«177265_j7464653160644_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The idealized kernel program ends at the four layers with whole-array products and strict rectifiers, the
    reference at the four layers with host products and weak rectifiers, of arguments that agree: one function. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  exact (Cert.GcnSpec.kerOut_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
